-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x3072 : Shape := ⟨2, ![1, 3072]⟩
abbrev S2x2048x3072 : Shape := ⟨3, ![2, 2048, 3072]⟩
abbrev S2x16x2048x192 : Shape := ⟨4, ![2, 16, 2048, 192]⟩
abbrev S2x4x4x2048x192 : Shape := ⟨5, ![2, 4, 4, 2048, 192]⟩
abbrev S8x4x2048x192 : Shape := ⟨4, ![8, 4, 2048, 192]⟩
abbrev S8x4x2048x64 : Shape := ⟨4, ![8, 4, 2048, 64]⟩
abbrev S1x4x256x192 : Shape := ⟨4, ![1, 4, 256, 192]⟩
abbrev S1x4x2048x192 : Shape := ⟨4, ![1, 4, 2048, 192]⟩
abbrev S1x4x256x64 : Shape := ⟨4, ![1, 4, 256, 64]⟩
abbrev S4x256x192 : Shape := ⟨3, ![4, 256, 192]⟩
abbrev S4x2048x192 : Shape := ⟨3, ![4, 2048, 192]⟩
abbrev S4x256x64 : Shape := ⟨3, ![4, 256, 64]⟩
abbrev S4x2048x64 : Shape := ⟨3, ![4, 2048, 64]⟩
abbrev S4x256x2048 : Shape := ⟨3, ![4, 256, 2048]⟩
abbrev S4x256 : Shape := ⟨2, ![4, 256]⟩
abbrev S4x256x1 : Shape := ⟨3, ![4, 256, 1]⟩
abbrev S2x4x4x2048x64 : Shape := ⟨5, ![2, 4, 4, 2048, 64]⟩
abbrev S2x16x2048x64 : Shape := ⟨4, ![2, 16, 2048, 64]⟩
abbrev S2x2048x16x64 : Shape := ⟨4, ![2, 2048, 16, 64]⟩
abbrev S1x1024 : Shape := ⟨2, ![1, 1024]⟩

abbrev nBuf : Space → Nat
  | .hbm => 21
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1024x3072, .bf16⟩
  | .hbm, ⟨7, _⟩ => ⟨S4096x3072, .bf16⟩
  | .hbm, ⟨8, _⟩ => ⟨S2x2048x3072, .bf16⟩
  | .hbm, ⟨9, _⟩ => ⟨S2x16x2048x192, .bf16⟩
  | .hbm, ⟨10, _⟩ => ⟨S2x4x4x2048x192, .bf16⟩
  | .hbm, ⟨11, _⟩ => ⟨S8x4x2048x192, .bf16⟩
  | .hbm, ⟨12, _⟩ => ⟨S8x4x2048x64, .bf16⟩
  | .hbm, ⟨13, _⟩ => ⟨S2x4x4x2048x64, .bf16⟩
  | .hbm, ⟨14, _⟩ => ⟨S2x16x2048x64, .bf16⟩
  | .hbm, ⟨15, _⟩ => ⟨S2x2048x16x64, .bf16⟩
  | .hbm, ⟨16, _⟩ => ⟨S2x2048x1024, .bf16⟩
  | .hbm, ⟨17, _⟩ => ⟨S4096x1024, .bf16⟩
  | .hbm, ⟨18, _⟩ => ⟨S1024x1024, .bf16⟩
  | .hbm, ⟨19, _⟩ => ⟨S4096x1024, .f32⟩
  | .hbm, ⟨20, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x4x256x192, .bf16⟩
  | .local _ .vmem, ⟨7, _⟩ => ⟨S1x4x256x192, .bf16⟩
  | .local _ .vmem, ⟨8, _⟩ => ⟨S1x4x2048x192, .bf16⟩
  | .local _ .vmem, ⟨9, _⟩ => ⟨S1x4x2048x192, .bf16⟩
  | .local _ .vmem, ⟨10, _⟩ => ⟨S1x4x256x64, .bf16⟩
  | .local _ .vmem, ⟨11, _⟩ => ⟨S1x4x256x64, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024, .f32⟩
  | .local _ .vmem, ⟨16, _⟩ => ⟨S512x1024, .f32⟩
  | .local _ .vmem, ⟨17, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x4x256x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x2048x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  shapeCasts_S2x2048x3072_S2x16x2048x192 : S2x2048x3072.ShapeCasts S2x16x2048x192
  shapeCasts_S2x16x2048x192_S2x4x4x2048x192 : S2x16x2048x192.ShapeCasts S2x4x4x2048x192
  shapeCasts_S2x4x4x2048x192_S8x4x2048x192 : S2x4x4x2048x192.ShapeCasts S8x4x2048x192
  inb_S1x4x256x192_S1x4x256x192_0_0_0_0 : ∀ a, (![0, 0, 0, 0] : Fin 4 → Nat) a + S1x4x256x192.size a ≤ S1x4x256x192.size a
  h_S1x4x256x192 : 0 < S1x4x256x192.numel
  shapeCasts_S1x4x256x192_S4x256x192 : S1x4x256x192.ShapeCasts S4x256x192
  inb_S1x4x2048x192_S1x4x2048x192_0_0_0_0 : ∀ a, (![0, 0, 0, 0] : Fin 4 → Nat) a + S1x4x2048x192.size a ≤ S1x4x2048x192.size a
  h_S1x4x2048x192 : 0 < S1x4x2048x192.numel
  shapeCasts_S1x4x2048x192_S4x2048x192 : S1x4x2048x192.ShapeCasts S4x2048x192
  slices_S4x256x192_o0_0_0_S4x256x64 : S4x256x192.Slices ![0, 0, 0] S4x256x64
  slices_S4x2048x192_o0_0_64_S4x2048x64 : S4x2048x192.Slices ![0, 0, 64] S4x2048x64
  slices_S4x2048x192_o0_0_128_S4x2048x64 : S4x2048x192.Slices ![0, 0, 128] S4x2048x64
  reduces_S4x256x2048_S4x256 : S4x256x2048.Reduces [2] S4x256
  shapeCasts_S4x256_S4x256x1 : S4x256.ShapeCasts S4x256x1
  broadcasts_S4x256x1_S4x256x2048 : S4x256x1.Broadcasts S4x256x2048
  broadcasts_S4x256x1_S4x256x64 : S4x256x1.Broadcasts S4x256x64
  inb_S1x4x256x64_S1x4x256x64_0_0_0_0 : ∀ a, (![0, 0, 0, 0] : Fin 4 → Nat) a + S1x4x256x64.size a ≤ S1x4x256x64.size a
  h_S1x4x256x64 : 0 < S1x4x256x64.numel
  shapeCasts_S1x4x256x64_S4x256x64 : S1x4x256x64.ShapeCasts S4x256x64
  shapeCasts_S4x256x64_S1x4x256x64 : S4x256x64.ShapeCasts S1x4x256x64
  packedbf16_S1x4x256x64_S1x4x256x64_0_0_0_0 : (Rect.unit (s := S1x4x256x64) ![0, 0, 0, 0] S1x4x256x64.size inb_S1x4x256x64_S1x4x256x64_0_0_0_0).PackedRows (EltTy.packing .bf16)
  shapeCasts_S8x4x2048x64_S2x4x4x2048x64 : S8x4x2048x64.ShapeCasts S2x4x4x2048x64
  shapeCasts_S2x4x4x2048x64_S2x16x2048x64 : S2x4x4x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S4x256x64_S4x2048x64_S4x256x2048_2_2_1_1_0_0_wf : DotDims.WF S4x256x64 S4x2048x64 S4x256x2048 [2] [2] [1] [1] [0] [0]
  dot_S4x256x2048_S4x2048x64_S4x256x64_2_1_1_2_0_0_wf : DotDims.WF S4x256x2048 S4x2048x64 S4x256x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x256x192.size a ≤ S8x4x2048x192.size a
  hwx1_0 : ∀ i : grid1.Coords, EltTy.bits .bf16 = 32 ∨ (Rect.block (s := S8x4x2048x192) S1x4x256x192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x2048x192.size a ≤ S8x4x2048x192.size a
  hwx1_1 : ∀ i : grid1.Coords, EltTy.bits .bf16 = 32 ∨ (Rect.block (s := S8x4x2048x192) S1x4x2048x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x256x64.size a ≤ S8x4x2048x64.size a
  hwx1_2 : ∀ i : grid1.Coords, EltTy.bits .bf16 = 32 ∨ (Rect.block (s := S8x4x2048x64) S1x4x256x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S4x256x64_S4x2048x64_S4x256x2048_2_2_1_1_0_0 : DotDims S4x256x64 S4x2048x64 S4x256x2048 where
  lhsContracting := [2]
  rhsContracting := [2]
  lhsNonContracting := [1]
  rhsNonContracting := [1]
  lhsBatch := [0]
  rhsBatch := [0]
  wf := dot_S4x256x64_S4x2048x64_S4x256x2048_2_2_1_1_0_0_wf
def dot_S4x256x2048_S4x2048x64_S4x256x64_2_1_1_2_0_0 : DotDims S4x256x2048 S4x2048x64 S4x256x64 where
  lhsContracting := [2]
  rhsContracting := [1]
  lhsNonContracting := [1]
  rhsNonContracting := [2]
  lhsBatch := [0]
  rhsBatch := [0]
  wf := dot_S4x256x2048_S4x2048x64_S4x256x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x4x256x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4x2048x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x4x256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x16x2048x192, .f32⟩
  | .hbm, ⟨10, _⟩ => ⟨S2x16x2048x64, .f32⟩
  | .hbm, ⟨11, _⟩ => ⟨S2x16x2048x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x16x2048x192 : S2x2048x3072.ShapeCasts S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.LibWholeStore.lean ====
/-
  A store through the whole of a buffer, read back.

  Writing a payload through the rectangle that covers a whole view (zero offsets, the view's own sizes) and reading the view
  back gives the payload, whatever the view held before: every index lies under the one piece. Stated over an abstract shape,
  so that no extent is ever evaluated.
-/
import Idealize.ShloMosaic.Lib.Pipeline.Value

noncomputable section

namespace Idealize.ShloMosaic.View

variable {sig : RefSig} {κ : Kind} {sp : Space} {S : Shape} {e : EltTy} {Val : EltTy → Type}

/-- One covering store leaves its payload. -/
theorem read_writes_whole_unit [∀ e, Nonempty (Val e)] (v : View sig κ sp S e) (f : v.ty.Contents Val) {off : Fin S.rank → Nat}
    (hz : off = fun _ => 0) (inb : ∀ a, off a + S.size a ≤ S.size a) (w : S.Idx → Val e) :
    v.read Val (v.writes Val f [(⟨Rect.unit off S.size inb, w⟩ : Piece Val S e)]) = w :=
  (read_writes_eq_canon v f _ (fun y => ⟨_, List.mem_singleton_self _, mem_set_unit_zero hz inb y⟩)).trans
    (canon_unit_zero hz inb w)

end Idealize.ShloMosaic.View

end
-- ==== Proof.KRegion0.lean ====
/-
  The first projection's region (custom_call 0), at any contents V of the core's buffers when the region is entered.

  The grid has 8 points; at point t the body is handed rows 512·t … 512·t+511 of the input matrix (window 0), the whole weight
  matrix (window 1) and the whole bias vector (window 2), and stores into its output block (window 3: the same rows of the
  result) the product of the row block with the weights plus the bias spread over the rows — the payload of the three loaded
  blocks. Here: each window's block at a point as a function of V, the body's triple, the data the pipeline rule takes (what
  every staging buffer holds after the body at every point) and the rule's obligation at every point.
-/
import proofs.«167251_j24584392802661_2_alg».proof.Proof.Gen.Kernel.Launch
import proofs.«167251_j24584392802661_2_alg».proof.Proof.Gen.Kernel.Skeleton
import proofs.«167251_j24584392802661_2_alg».proof.Proof.Gen.Kernel.Points
import proofs.«167251_j24584392802661_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offset of a rank-1 rectangle, as a function. -/
theorem off1_0 : (![0] : Fin 1 → Nat) = fun _ => 0 := by funext a; fin_cases a <;> rfl
/-- The zero offset of a rank-2 rectangle, as a function. -/
theorem off2_0 : (![0, 0] : Fin 2 → Nat) = fun _ => 0 := by funext a; fin_cases a <;> rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, its block index has not
    moved), for any data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, its block index has not
    moved), for any data whose array is V's and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, its block index has not
    moved), for any data whose array is V's and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output block: the payload of the input blocks. -/
def out0_3 (x0 : Vec F S512x1024 .f32) (x1 : Vec F S1024x3072 .bf16) (x2 : Vec F S3072 .f32) : Vec F S512x3072 .bf16 :=
  k0_pay1 x0 x1 x2

set_option maxHeartbeats 1000000 in
/-- The body on whole staging buffers, the inputs' at contents x0 x1 x2 and the output's at anything, runs to the continuation
    with the inputs' as they were and the output's at the payload: the one store covers the whole block. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_whole_unit _ _ off2_0 _ _).trans ?_
  unfold out0_3
  exact congr (congr (congrArg k0_pay1 (View.ld_unit_zero off2_0 _ _)) (View.ld_unit_zero off2_0 _ _)) (View.ld_unit_zero off1_0 _ _)

/-- The data the pipeline rule takes on core `c`: the arrays as the region finds them; after the body at point `t` each input's
    buffer at its block and the output's at the payload of the input blocks; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The attention region (custom_call 1), at any contents V of the core's buffers when the region is entered.

  The grid is 8 × 8: a group g of four heads and a tile qi of 256 query positions. Windows 0 and 1 are two views of ONE array,
  the grouped projection [8, 4, 2048, 192]: window 0 hands the body the query tile's rows of the group, window 1 all 2048 rows
  of the group (fetched when g changes); window 2 is the output tile [1, 4, 256, 64]. The body stores the payload of the two
  loaded blocks: scores, their row maxima, exponentials, row sums, the weighted values and the quotient. The two input windows
  hold complementary parts of the shared array's share. Here: each window's block at a point as a function of V, the body's
  triple, the data the pipeline rule takes and the rule's obligation at every point.
-/
import proofs.«167251_j24584392802661_2_alg».proof.Proof.Gen.Kernel.Launch
import proofs.«167251_j24584392802661_2_alg».proof.Proof.Gen.Kernel.Skeleton
import proofs.«167251_j24584392802661_2_alg».proof.Proof.Gen.Kernel.Points
import proofs.«167251_j24584392802661_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offset of a rank-4 rectangle, as a function. -/
theorem off4_1 : (![0, 0, 0, 0] : Fin 4 → Nat) = fun _ => 0 := by funext a; fin_cases a <;> rfl

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, its block index has not
    moved), for any data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, its block index has not
    moved), for any data whose array is V's and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output block: the payload of the input blocks. -/
def out1_2 (x0 : Vec F S1x4x256x192 .bf16) (x1 : Vec F S1x4x2048x192 .bf16) : Vec F S1x4x256x64 .bf16 :=
  k1_pay1 x0 x1

set_option maxHeartbeats 1000000 in
/-- The body on whole staging buffers, the inputs' at contents x0 x1 and the output's at anything, runs to the continuation
    with the inputs' as they were and the output's at the payload: the one store covers the whole block. -/
theorem sound_kernel1 (c : Dev nD) (E : Set ℕ) (i : grid1.Coords)
    (arg2 : Memref sig .tc .vmem S1x4x256x192 .bf16) (harg2 : arg2.IsWhole) (arg3 : Memref sig .tc .vmem S1x4x2048x192 .bf16) (harg3 : arg3.IsWhole) (arg4 : Memref sig .tc .vmem S1x4x256x64 .bf16) (harg4 : arg4.IsWhole)
    (x0 : Vec F S1x4x256x192 .bf16) (x1 : Vec F S1x4x2048x192 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_whole_unit _ _ off4_1 _ _).trans ?_
  unfold out1_2
  exact congr (congrArg k1_pay1 (View.ld_unit_zero off4_1 _ _)) (View.ld_unit_zero off4_1 _ _)

/-- The data the pipeline rule takes on core `c`: the arrays as the region finds them; after the body at point `t` each input's
    buffer at its block and the output's at the payload of the input blocks; the invariant the scoped rest and the generator
    register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  The second projection's region (custom_call 2), at any contents V of the core's buffers when the region is entered.

  The grid has 8 points; at point t the body is handed rows 512·t … 512·t+511 of the merged attention matrix (window 0), the
  whole weight matrix (window 1) and the whole bias vector (window 2), and stores into its output block (window 3) the product
  plus the bias spread over the rows — the payload of the three loaded blocks. Here: each window's block at a point as a
  function of V, the body's triple, the data the pipeline rule takes and the rule's obligation at every point.
-/
import proofs.«167251_j24584392802661_2_alg».proof.Proof.Gen.Kernel.Launch
import proofs.«167251_j24584392802661_2_alg».proof.Proof.Gen.Kernel.Skeleton
import proofs.«167251_j24584392802661_2_alg».proof.Proof.Gen.Kernel.Points
import proofs.«167251_j24584392802661_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offset of a rank-1 rectangle, as a function. -/
theorem off1_2 : (![0] : Fin 1 → Nat) = fun _ => 0 := by funext a; fin_cases a <;> rfl
/-- The zero offset of a rank-2 rectangle, as a function. -/
theorem off2_2 : (![0, 0] : Fin 2 → Nat) = fun _ => 0 := by funext a; fin_cases a <;> rfl

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, its block index has not
    moved), for any data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, its block index has not
    moved), for any data whose array is V's and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, its block index has not
    moved), for any data whose array is V's and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output block: the payload of the input blocks. -/
def out2_3 (x0 : Vec F S512x1024 .bf16) (x1 : Vec F S1024x1024 .bf16) (x2 : Vec F S1024 .f32) : Vec F S512x1024 .f32 :=
  k2_pay1 x0 x1 x2

set_option maxHeartbeats 1000000 in
/-- The body on whole staging buffers, the inputs' at contents x0 x1 x2 and the output's at anything, runs to the continuation
    with the inputs' as they were and the output's at the payload: the one store covers the whole block. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole) (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_whole_unit _ _ off2_2 _ _).trans ?_
  unfold out2_3
  exact congr (congr (congrArg k2_pay1 (View.ld_unit_zero off2_2 _ _)) (View.ld_unit_zero off2_2 _ _)) (View.ld_unit_zero off1_2 _ _)

/-- The data the pipeline rule takes on core `c`: the arrays as the region finds them; after the body at point `t` each input's
    buffer at its block and the output's at the payload of the input blocks; the invariant the scoped rest and the generator
    register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KChain.lean ====
/-
  The contents of the core's unscoped buffers at each boundary of the program: host stretch, first projection, host stretch,
  attention, host stretch, second projection, host stretch.

  A fold from the launch memory: a host stretch applies its operations; a region replaces its output array by what its
  write-backs leave (the pipeline data's array after the last point) and keeps every other buffer.
-/
import proofs.«167251_j24584392802661_2_alg».proof.Proof.Gen.Kernel.Launch
import proofs.«167251_j24584392802661_2_alg».proof.Proof.Gen.Kernel.Skeleton
import proofs.«167251_j24584392802661_2_alg».proof.Proof.Gen.Kernel.Points
import proofs.«167251_j24584392802661_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.KRegion0
import proofs.«167251_j24584392802661_2_alg».proof.Proof.KRegion1
import proofs.«167251_j24584392802661_2_alg».proof.Proof.KRegion2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The core's buffers at launch, -/
abbrev W0 : Dev nD → Valuation τ sig (Elt F) := fun c b => m ((c : Dev nD), b)
/-- after the first host stretch (the first projection's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded), every
    other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At the attention region's exit: its output array at what the write-backs leave, every other buffer as entered. -/
def W4 (c : Dev nD) : Valuation τ sig (Elt F) :=
  Function.update (W3 m c) (Proc.devRef .tc main_v7) ((dat1 (V3 m) c).arrAt 2 cfg1.N)
abbrev V4 : (c : Dev nD) → (b : Ref sig .tc) → Buf (Elt F) ((c : Thread nD τ).loc b) := fun c b => W4 m c b
theorem W4_out (c : Dev nD) : W4 m c (Proc.devRef .tc main_v7) = (dat1 (V3 m) c).arrAt 2 cfg1.N := by
  unfold W4; exact Function.update_self _ _ _
theorem W4_of_ne (c : Dev nD) (b : Ref sig .tc) (hb : b ≠ main_v7) : W4 m c (Proc.devRef .tc b) = W3 m c (Proc.devRef .tc b) := by
  unfold W4; exact Function.update_of_ne (StableHlo.devRef_ne_of_ne hb) _ _

/-- After the third host stretch (the second projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (the inputs as entered, the output's write-backs folded), every
    other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch: what the program returns with. -/
abbrev W7 : Dev nD → Valuation τ sig (Elt F) := fun c => StableHlo.after hostOps3 (W6 m c)

end Cert.Kernel.Hand

end
-- ==== Proof.KShare1.lean ====
/-
  The attention region's one shared array, dealt to its two reading windows and joined again.

  Windows 0 and 1 of the region read the same array (the grouped projection), window 2 writes another. The pipeline rule wants
  each window's array at that window's share: the two readers hold complementary parts of the full share of the one buffer, the
  writer holds its buffer outright. At the region's entry the core's unscoped buffers, each held whole at the full share, give
  exactly that (the shared buffer's points-to split along the share) and the remaining buffers; at its exit the two parts, both
  still at the contents the region found, join into the full share again, and with the written array at its final contents and
  the remaining buffers they are the core's unscoped buffers at the updated contents.
-/
import proofs.«167251_j24584392802661_2_alg».proof.Proof.Gen.Kernel.Launch
import proofs.«167251_j24584392802661_2_alg».proof.Proof.Gen.Kernel.Skeleton
import proofs.«167251_j24584392802661_2_alg».proof.Proof.Gen.Kernel.Points
import proofs.«167251_j24584392802661_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.KRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two distinct buffers behind the region's three windows. -/
theorem arrImage1 : Finset.univ.image (Pipeline.arrRef spec1) = ({main_v6, main_v7} : Finset (Ref sig .tc)) := by decide

variable (V : (c : Dev nD) → (b : Ref sig .tc) → Buf (Elt F) ((c : Thread nD τ).loc b))

theorem share1_0 (c : Dev nD) : (dat1 V c).share 0 = fullShare.left := by
  unfold Dat.share; dsimp only [dat1]; rfl
theorem share1_1 (c : Dev nD) : (dat1 V c).share 1 = fullShare.right := by
  unfold Dat.share; dsimp only [dat1]; rfl
theorem share1_2 (c : Dev nD) : (dat1 V c).share 2 = fullShare := by
  unfold Dat.share; dsimp only [dat1]; rfl

/-- The windows' arrays, each a whole buffer, at the windows' shares. -/
theorem arrays1_eq (c : Dev nD) (Fa : (w : Fin cfg1.W) → Buf (Elt F) ((cfg1.win w).arr.view.loc (c : Thread nD τ))) :
    (dat1 V c).arrays Fa = iprop((((c : Thread nD τ).loc main_v6) ↦{fullShare.left} Fa 0) ∗ (((c : Thread nD τ).loc main_v6) ↦{fullShare.right} Fa 1)
      ∗ (((c : Thread nD τ).loc main_v7) ↦{fullShare} Fa 2) : sProp 𝕄) := by
  unfold Dat.arrays
  rw [bigSep_W1, (arr_whole1 0).set_eq_univ, (arr_whole1 2).set_eq_univ, share1_0, share1_1, share1_2]

/-- The buffers behind the arrays, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v6) ↦{fullShare} Vc main_v6) ∗ (((c : Thread nD τ).loc main_v7) ↦{fullShare} Vc main_v7)) := by
  unfold Pipeline.arrBufs
  rw [arrImage1, bigSep_insert (by decide), bigSep_singleton]
  rfl

/-- The core's unscoped buffers are the two buffers behind the region's arrays and the rest. -/
theorem unscoped1_eq (c : Dev nD) (Vc : (b : Ref sig .tc) → Buf (Elt F) ((c : Thread nD τ).loc b)) :
    (unscopedBufs c Vc : sProp 𝕄) = iprop(((((c : Thread nD τ).loc main_v6) ↦{fullShare} Vc main_v6) ∗ (((c : Thread nD τ).loc main_v7) ↦{fullShare} Vc main_v7))
      ∗ Pipeline.unscopedRest spec1 c Vc) := by
  rw [← arrBufs1_eq]
  exact Pipeline.unscopedBufs_split₀ cfgs 1 winFacts₀1.arr_unscoped c Vc

/-- ENTRY: the core's unscoped buffers at V are the region's arrays at their shares and the remaining buffers. -/
theorem entry1 (c : Dev nD) :
    (unscopedBufs c (V c) : sProp 𝕄) ⊢ iprop((dat1 V c).arrays ((dat1 V c).arrAt · 0) ∗ Pipeline.unscopedRest spec1 c (V c)) := by
  rw [unscoped1_eq, arrays1_eq]
  iintro ⟨⟨H6, H7⟩, Hr⟩
  ihave H := (pointsTo_share (PosShare.mem_left_op_right fullShare)).1 $$ H6
  icases H with ⟨Ha, Hb⟩
  isplitr [Hr]
  · isplitl [Ha]; · iexact Ha
    isplitl [Hb]; · iexact Hb
    iexact H7
  iexact Hr

/-- EXIT: the two parts of the shared array, still at the entry contents, the written array at its final contents and the
    remaining buffers are the core's unscoped buffers at any contents V' that has the written array there and agrees with V
    elsewhere. -/
theorem exit1 (c : Dev nD) (V' : (b : Ref sig .tc) → Buf (Elt F) ((c : Thread nD τ).loc b))
    (hout : V' main_v7 = (dat1 V c).arrAt 2 cfg1.N) (hrest : ∀ b, b ≠ main_v7 → V' b = V c b) :
    iprop((dat1 V c).arrays ((dat1 V c).arrAt · cfg1.N) ∗ Pipeline.unscopedRest spec1 c (V c)) ⊢ (unscopedBufs c V' : sProp 𝕄) := by
  have h0 : (dat1 V c).arrAt 0 cfg1.N = V c main_v6 := ((dat1 V c).arrAt_in 0 rfl _).trans (A_eq1 V c 0)
  have h1 : (dat1 V c).arrAt 1 cfg1.N = V c main_v6 := ((dat1 V c).arrAt_in 1 rfl _).trans (A_eq1 V c 1)
  have hr : (Pipeline.unscopedRest (Ix := Unit) (Name := ℕ) (U := UR sig nD τ) (Lvl := ℕ) spec1 c V' : sProp 𝕄) = Pipeline.unscopedRest spec1 c (V c) := by
    unfold Pipeline.unscopedRest
    exact bigSep_congr fun b hb => by
      rw [hrest b (fun e => (Finset.mem_sdiff.mp hb).2 (by rw [e, arrImage1]; decide))]
  rw [unscoped1_eq, arrays1_eq, hr, hrest main_v6 (by decide), hout]
  show iprop(((_ ↦{fullShare.left} (dat1 V c).arrAt 0 cfg1.N) ∗ (_ ↦{fullShare.right} (dat1 V c).arrAt 1 cfg1.N) ∗ _) ∗ _) ⊢ _
  rw [h0, h1]
  iintro ⟨⟨Ha, Hb, H7⟩, Hr⟩
  isplitr [Hr]
  · isplitr [H7]
    · iapply (pointsTo_share (PosShare.mem_left_op_right fullShare)).2
      isplitl [Ha]; · iexact Ha
      iexact Hb
    iexact H7
  iexact Hr

end Cert.Kernel.Hand

end
-- ==== Proof.KRun.lean ====
/-
  The whole program's run: host stretch, first projection, host stretch, attention, host stretch, second projection, host stretch.

  Each region is entered from "every unscoped buffer at the boundary's contents, the generator register at some state, nothing
  owed" and left at the same with the next boundary's contents; a host stretch carries the same state across its operations.
  The two projections read distinct arrays, each held outright; the attention region reads ONE array through two windows, so at
  its entry the array's share is dealt to the two windows in complementary parts and at its exit the parts are joined again.
  The run terminates with every unscoped buffer at the last boundary's contents; no boundary changes an argument array, so
  the arguments end as launched.
-/
import proofs.«167251_j24584392802661_2_alg».proof.Proof.Gen.Kernel.Launch
import proofs.«167251_j24584392802661_2_alg».proof.Proof.Gen.Kernel.Skeleton
import proofs.«167251_j24584392802661_2_alg».proof.Proof.Gen.Kernel.Points
import proofs.«167251_j24584392802661_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.KChain
import proofs.«167251_j24584392802661_2_alg».proof.Proof.KShare1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Every pipeline's data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- unification of the library's lemmas stated over a pinned configuration with the printed one unfolds plain definitions
set_option backward.isDefEq.respectTransparency.types false in
/-- Region 0 over the thread state "every unscoped buffer at the boundary's contents, the generator register at some state,
    nothing owed": its arrays split out of the unscoped buffers at entry and put back at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas stated over a pinned configuration with the printed one unfolds plain definitions
set_option backward.isDefEq.respectTransparency.types false in
/-- The attention region over the same thread state: its two reading windows share an array, whose share is dealt between
    them at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m) c (V4 m c) (W4_out m c) (fun b hb => W4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- unification of the library's lemmas stated over a pinned configuration with the printed one unfolds plain definitions
set_option backward.isDefEq.respectTransparency.types false in
/-- Region 2 over the thread state "every unscoped buffer at the boundary's contents, the generator register at some state,
    nothing owed": its arrays split out of the unscoped buffers at entry and put back at what the write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's 7 segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program is the run of the segments. -/
theorem main_run (c : Dev nD) : main (F := F) c = Pipeline.Seg.run (segs m) := (main_chain c).trans (by chain_rfl)

/-- The last thread state without what is owed: every unscoped buffer at the last boundary's contents, the generator register
    at some state. -/
abbrev Tₙ (c : Dev nD) : sProp 𝕄 := iprop(StableHlo.held (c : Thread nD τ) (Pipeline.ucRefs τ sig) (W7 m c) ∗ ∃ r, prngReg c r)

set_option backward.isDefEq.respectTransparency.types false in
/-- THE RUN: from any memory with zero counters every weakly fair execution of the program terminates, nothing faulting, and
    the final memory holds every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## No boundary changes an argument -/

/-- The first projection's region changes only its output array. -/
theorem W2_keep (c : Dev nD) (r : Ref sig .tc) (h : r ≠ main_v2) : W2 m c (Proc.devRef .tc r) = W1 m c (Proc.devRef .tc r) := by
  by_cases hr : ∃ w, Pipeline.arrRef spec0 w = r
  · obtain ⟨w, rfl⟩ := hr
    have hw : (cfg0.win w).isOut = false := by
      fin_cases w <;> first | rfl | exact absurd rfl h
    rw [W2_arr, (dat0 (V1 m) c).arrAt_in w hw, A_eq0]
  · exact W2_of_ne m c r (fun w e => hr ⟨w, e⟩)
/-- The second projection's region changes only its output array. -/
theorem W6_keep (c : Dev nD) (r : Ref sig .tc) (h : r ≠ main_v14) : W6 m c (Proc.devRef .tc r) = W5 m c (Proc.devRef .tc r) := by
  by_cases hr : ∃ w, Pipeline.arrRef spec2 w = r
  · obtain ⟨w, rfl⟩ := hr
    have hw : (cfg2.win w).isOut = false := by
      fin_cases w <;> first | rfl | exact absurd rfl h
    rw [W6_arr, (dat2 (V5 m) c).arrAt_in w hw, A_eq2]
  · exact W6_of_ne m c r (fun w e => hr ⟨w, e⟩)

/-- A buffer no host stretch writes and no region outputs ends as launched. -/
theorem W7_keep (c : Dev nD) (r : Ref sig .tc) (h0 : r ∉ hostOps0_W) (h1 : r ∉ hostOps1_W) (h2 : r ∉ hostOps2_W) (h3 : r ∉ hostOps3_W)
    (ha : r ≠ main_v2) (hb : r ≠ main_v7) (hc : r ≠ main_v14) : W7 m c (Proc.devRef .tc r) = m ((c : Thread nD τ).loc r) :=
  (StableHlo.after_of_writes_sub hostOps3 _ hostOps3_writes h3).trans <| (W6_keep m c r hc).trans <|
    (StableHlo.after_of_writes_sub hostOps2 _ hostOps2_writes h2).trans <| (W4_of_ne m c r hb).trans <|
    (StableHlo.after_of_writes_sub hostOps1 _ hostOps1_writes h1).trans <| (W2_keep m c r ha).trans <|
    (StableHlo.after_of_writes_sub hostOps0 _ hostOps0_writes h0).trans rfl

/-- THE FRAME: the program runs to the end, faults nowhere, and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_keep m c main_arg0 (by decide) (by decide) (by decide) (by decide) (by decide) (by decide) (by decide)),
     (h c _ (mem_uc main_arg1 (by decide))).trans (W7_keep m c main_arg1 (by decide) (by decide) (by decide) (by decide) (by decide) (by decide) (by decide)),
     (h c _ (mem_uc main_arg2 (by decide))).trans (W7_keep m c main_arg2 (by decide) (by decide) (by decide) (by decide) (by decide) (by decide) (by decide)),
     (h c _ (mem_uc main_arg3 (by decide))).trans (W7_keep m c main_arg3 (by decide) (by decide) (by decide) (by decide) (by decide) (by decide) (by decide)),
     (h c _ (mem_uc main_arg4 (by decide))).trans (W7_keep m c main_arg4 (by decide) (by decide) (by decide) (by decide) (by decide) (by decide) (by decide))⟩)
    (run_all m ρ)

end Cert.Kernel.Hand

end
-- ==== Proof.KiRegion0.lean ====
/-
  The first projection's region (custom_call 0), at any contents V of the core's buffers when the region is entered.

  The grid has 8 points; at point t the body is handed rows 512·t … 512·t+511 of the input matrix (window 0), the whole weight
  matrix (window 1) and the whole bias vector (window 2), and stores into its output block (window 3: the same rows of the
  result) the product of the row block with the weights plus the bias spread over the rows — the payload of the three loaded
  blocks. Here: each window's block at a point as a function of V, the body's triple, the data the pipeline rule takes (what
  every staging buffer holds after the body at every point) and the rule's obligation at every point.
-/
import proofs.«167251_j24584392802661_2_alg».proof.Proof.Gen.KernelIdeal.Launch
import proofs.«167251_j24584392802661_2_alg».proof.Proof.Gen.KernelIdeal.Skeleton
import proofs.«167251_j24584392802661_2_alg».proof.Proof.Gen.KernelIdeal.Points
import proofs.«167251_j24584392802661_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offset of a rank-1 rectangle, as a function. -/
theorem off1_0 : (![0] : Fin 1 → Nat) = fun _ => 0 := by funext a; fin_cases a <;> rfl
/-- The zero offset of a rank-2 rectangle, as a function. -/
theorem off2_0 : (![0, 0] : Fin 2 → Nat) = fun _ => 0 := by funext a; fin_cases a <;> rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, its block index has not
    moved), for any data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, its block index has not
    moved), for any data whose array is V's and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, its block index has not
    moved), for any data whose array is V's and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output block: the payload of the input blocks. -/
def out0_3 (x0 : Vec F S512x1024 .f32) (x1 : Vec F S1024x3072 .bf16) (x2 : Vec F S3072 .f32) : Vec F S512x3072 .bf16 :=
  k0_pay1 x0 x1 x2

set_option maxHeartbeats 1000000 in
/-- The body on whole staging buffers, the inputs' at contents x0 x1 x2 and the output's at anything, runs to the continuation
    with the inputs' as they were and the output's at the payload: the one store covers the whole block. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_whole_unit _ _ off2_0 _ _).trans ?_
  unfold out0_3
  exact congr (congr (congrArg k0_pay1 (View.ld_unit_zero off2_0 _ _)) (View.ld_unit_zero off2_0 _ _)) (View.ld_unit_zero off1_0 _ _)

/-- The data the pipeline rule takes on core `c`: the arrays as the region finds them; after the body at point `t` each input's
    buffer at its block and the output's at the payload of the input blocks; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  The attention region (custom_call 1), at any contents V of the core's buffers when the region is entered.

  The grid is 8 × 8: a group g of four heads and a tile qi of 256 query positions. Windows 0 and 1 are two views of ONE array,
  the grouped projection [8, 4, 2048, 192]: window 0 hands the body the query tile's rows of the group, window 1 all 2048 rows
  of the group (fetched when g changes); window 2 is the output tile [1, 4, 256, 64]. The body stores the payload of the two
  loaded blocks: scores, their row maxima, exponentials, row sums, the weighted values and the quotient. The two input windows
  hold complementary parts of the shared array's share. Here: each window's block at a point as a function of V, the body's
  triple, the data the pipeline rule takes and the rule's obligation at every point.
-/
import proofs.«167251_j24584392802661_2_alg».proof.Proof.Gen.KernelIdeal.Launch
import proofs.«167251_j24584392802661_2_alg».proof.Proof.Gen.KernelIdeal.Skeleton
import proofs.«167251_j24584392802661_2_alg».proof.Proof.Gen.KernelIdeal.Points
import proofs.«167251_j24584392802661_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offset of a rank-4 rectangle, as a function. -/
theorem off4_1 : (![0, 0, 0, 0] : Fin 4 → Nat) = fun _ => 0 := by funext a; fin_cases a <;> rfl

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, its block index has not
    moved), for any data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, its block index has not
    moved), for any data whose array is V's and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output block: the payload of the input blocks. -/
def out1_2 (x0 : Vec F S1x4x256x192 .bf16) (x1 : Vec F S1x4x2048x192 .bf16) : Vec F S1x4x256x64 .bf16 :=
  k1_pay1 x0 x1

set_option maxHeartbeats 1000000 in
/-- The body on whole staging buffers, the inputs' at contents x0 x1 and the output's at anything, runs to the continuation
    with the inputs' as they were and the output's at the payload: the one store covers the whole block. -/
theorem sound_kernel1 (c : Dev nD) (E : Set ℕ) (i : grid1.Coords)
    (arg2 : Memref sig .tc .vmem S1x4x256x192 .bf16) (harg2 : arg2.IsWhole) (arg3 : Memref sig .tc .vmem S1x4x2048x192 .bf16) (harg3 : arg3.IsWhole) (arg4 : Memref sig .tc .vmem S1x4x256x64 .bf16) (harg4 : arg4.IsWhole)
    (x0 : Vec F S1x4x256x192 .bf16) (x1 : Vec F S1x4x2048x192 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__attn_kernel i arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_whole_unit _ _ off4_1 _ _).trans ?_
  unfold out1_2
  exact congr (congrArg k1_pay1 (View.ld_unit_zero off4_1 _ _)) (View.ld_unit_zero off4_1 _ _)

/-- The data the pipeline rule takes on core `c`: the arrays as the region finds them; after the body at point `t` each input's
    buffer at its block and the output's at the payload of the input blocks; the invariant the scoped rest and the generator
    register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRegion2.lean ====
/-
  The second projection's region (custom_call 2), at any contents V of the core's buffers when the region is entered.

  The grid has 8 points; at point t the body is handed rows 512·t … 512·t+511 of the merged attention matrix (window 0), the
  whole weight matrix (window 1) and the whole bias vector (window 2), and stores into its output block (window 3) the product
  plus the bias spread over the rows — the payload of the three loaded blocks. Here: each window's block at a point as a
  function of V, the body's triple, the data the pipeline rule takes and the rule's obligation at every point.
-/
import proofs.«167251_j24584392802661_2_alg».proof.Proof.Gen.KernelIdeal.Launch
import proofs.«167251_j24584392802661_2_alg».proof.Proof.Gen.KernelIdeal.Skeleton
import proofs.«167251_j24584392802661_2_alg».proof.Proof.Gen.KernelIdeal.Points
import proofs.«167251_j24584392802661_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offset of a rank-1 rectangle, as a function. -/
theorem off1_2 : (![0] : Fin 1 → Nat) = fun _ => 0 := by funext a; fin_cases a <;> rfl
/-- The zero offset of a rank-2 rectangle, as a function. -/
theorem off2_2 : (![0, 0] : Fin 2 → Nat) = fun _ => 0 := by funext a; fin_cases a <;> rfl

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, its block index has not
    moved), for any data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, its block index has not
    moved), for any data whose array is V's and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, its block index has not
    moved), for any data whose array is V's and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output block: the payload of the input blocks. -/
def out2_3 (x0 : Vec F S512x1024 .bf16) (x1 : Vec F S1024x1024 .bf16) (x2 : Vec F S1024 .f32) : Vec F S512x1024 .f32 :=
  k2_pay1 x0 x1 x2

set_option maxHeartbeats 1000000 in
/-- The body on whole staging buffers, the inputs' at contents x0 x1 x2 and the output's at anything, runs to the continuation
    with the inputs' as they were and the output's at the payload: the one store covers the whole block. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole) (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_whole_unit _ _ off2_2 _ _).trans ?_
  unfold out2_3
  exact congr (congr (congrArg k2_pay1 (View.ld_unit_zero off2_2 _ _)) (View.ld_unit_zero off2_2 _ _)) (View.ld_unit_zero off1_2 _ _)

/-- The data the pipeline rule takes on core `c`: the arrays as the region finds them; after the body at point `t` each input's
    buffer at its block and the output's at the payload of the input blocks; the invariant the scoped rest and the generator
    register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiChain.lean ====
/-
  The contents of the core's unscoped buffers at each boundary of the program: host stretch, first projection, host stretch,
  attention, host stretch, second projection, host stretch.

  A fold from the launch memory: a host stretch applies its operations; a region replaces its output array by what its
  write-backs leave (the pipeline data's array after the last point) and keeps every other buffer.
-/
import proofs.«167251_j24584392802661_2_alg».proof.Proof.Gen.KernelIdeal.Launch
import proofs.«167251_j24584392802661_2_alg».proof.Proof.Gen.KernelIdeal.Skeleton
import proofs.«167251_j24584392802661_2_alg».proof.Proof.Gen.KernelIdeal.Points
import proofs.«167251_j24584392802661_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.KiRegion0
import proofs.«167251_j24584392802661_2_alg».proof.Proof.KiRegion1
import proofs.«167251_j24584392802661_2_alg».proof.Proof.KiRegion2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The core's buffers at launch, -/
abbrev W0 : Dev nD → Valuation τ sig (Elt F) := fun c b => m ((c : Dev nD), b)
/-- after the first host stretch (the first projection's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded), every
    other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At the attention region's exit: its output array at what the write-backs leave, every other buffer as entered. -/
def W4 (c : Dev nD) : Valuation τ sig (Elt F) :=
  Function.update (W3 m c) (Proc.devRef .tc main_v7) ((dat1 (V3 m) c).arrAt 2 cfg1.N)
abbrev V4 : (c : Dev nD) → (b : Ref sig .tc) → Buf (Elt F) ((c : Thread nD τ).loc b) := fun c b => W4 m c b
theorem W4_out (c : Dev nD) : W4 m c (Proc.devRef .tc main_v7) = (dat1 (V3 m) c).arrAt 2 cfg1.N := by
  unfold W4; exact Function.update_self _ _ _
theorem W4_of_ne (c : Dev nD) (b : Ref sig .tc) (hb : b ≠ main_v7) : W4 m c (Proc.devRef .tc b) = W3 m c (Proc.devRef .tc b) := by
  unfold W4; exact Function.update_of_ne (StableHlo.devRef_ne_of_ne hb) _ _

/-- After the third host stretch (the second projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (the inputs as entered, the output's write-backs folded), every
    other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the last host stretch: what the program returns with. -/
abbrev W7 : Dev nD → Valuation τ sig (Elt F) := fun c => StableHlo.after hostOps3 (W6 m c)

end Cert.KernelIdeal.Hand

end
-- ==== Proof.KiShare1.lean ====
/-
  The attention region's one shared array, dealt to its two reading windows and joined again.

  Windows 0 and 1 of the region read the same array (the grouped projection), window 2 writes another. The pipeline rule wants
  each window's array at that window's share: the two readers hold complementary parts of the full share of the one buffer, the
  writer holds its buffer outright. At the region's entry the core's unscoped buffers, each held whole at the full share, give
  exactly that (the shared buffer's points-to split along the share) and the remaining buffers; at its exit the two parts, both
  still at the contents the region found, join into the full share again, and with the written array at its final contents and
  the remaining buffers they are the core's unscoped buffers at the updated contents.
-/
import proofs.«167251_j24584392802661_2_alg».proof.Proof.Gen.KernelIdeal.Launch
import proofs.«167251_j24584392802661_2_alg».proof.Proof.Gen.KernelIdeal.Skeleton
import proofs.«167251_j24584392802661_2_alg».proof.Proof.Gen.KernelIdeal.Points
import proofs.«167251_j24584392802661_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.KiRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two distinct buffers behind the region's three windows. -/
theorem arrImage1 : Finset.univ.image (Pipeline.arrRef spec1) = ({main_v6, main_v7} : Finset (Ref sig .tc)) := by decide

variable (V : (c : Dev nD) → (b : Ref sig .tc) → Buf (Elt F) ((c : Thread nD τ).loc b))

theorem share1_0 (c : Dev nD) : (dat1 V c).share 0 = fullShare.left := by
  unfold Dat.share; dsimp only [dat1]; rfl
theorem share1_1 (c : Dev nD) : (dat1 V c).share 1 = fullShare.right := by
  unfold Dat.share; dsimp only [dat1]; rfl
theorem share1_2 (c : Dev nD) : (dat1 V c).share 2 = fullShare := by
  unfold Dat.share; dsimp only [dat1]; rfl

/-- The windows' arrays, each a whole buffer, at the windows' shares. -/
theorem arrays1_eq (c : Dev nD) (Fa : (w : Fin cfg1.W) → Buf (Elt F) ((cfg1.win w).arr.view.loc (c : Thread nD τ))) :
    (dat1 V c).arrays Fa = iprop((((c : Thread nD τ).loc main_v6) ↦{fullShare.left} Fa 0) ∗ (((c : Thread nD τ).loc main_v6) ↦{fullShare.right} Fa 1)
      ∗ (((c : Thread nD τ).loc main_v7) ↦{fullShare} Fa 2) : sProp 𝕄) := by
  unfold Dat.arrays
  rw [bigSep_W1, (arr_whole1 0).set_eq_univ, (arr_whole1 2).set_eq_univ, share1_0, share1_1, share1_2]

/-- The buffers behind the arrays, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v6) ↦{fullShare} Vc main_v6) ∗ (((c : Thread nD τ).loc main_v7) ↦{fullShare} Vc main_v7)) := by
  unfold Pipeline.arrBufs
  rw [arrImage1, bigSep_insert (by decide), bigSep_singleton]
  rfl

/-- The core's unscoped buffers are the two buffers behind the region's arrays and the rest. -/
theorem unscoped1_eq (c : Dev nD) (Vc : (b : Ref sig .tc) → Buf (Elt F) ((c : Thread nD τ).loc b)) :
    (unscopedBufs c Vc : sProp 𝕄) = iprop(((((c : Thread nD τ).loc main_v6) ↦{fullShare} Vc main_v6) ∗ (((c : Thread nD τ).loc main_v7) ↦{fullShare} Vc main_v7))
      ∗ Pipeline.unscopedRest spec1 c Vc) := by
  rw [← arrBufs1_eq]
  exact Pipeline.unscopedBufs_split₀ cfgs 1 winFacts₀1.arr_unscoped c Vc

/-- ENTRY: the core's unscoped buffers at V are the region's arrays at their shares and the remaining buffers. -/
theorem entry1 (c : Dev nD) :
    (unscopedBufs c (V c) : sProp 𝕄) ⊢ iprop((dat1 V c).arrays ((dat1 V c).arrAt · 0) ∗ Pipeline.unscopedRest spec1 c (V c)) := by
  rw [unscoped1_eq, arrays1_eq]
  iintro ⟨⟨H6, H7⟩, Hr⟩
  ihave H := (pointsTo_share (PosShare.mem_left_op_right fullShare)).1 $$ H6
  icases H with ⟨Ha, Hb⟩
  isplitr [Hr]
  · isplitl [Ha]; · iexact Ha
    isplitl [Hb]; · iexact Hb
    iexact H7
  iexact Hr

/-- EXIT: the two parts of the shared array, still at the entry contents, the written array at its final contents and the
    remaining buffers are the core's unscoped buffers at any contents V' that has the written array there and agrees with V
    elsewhere. -/
theorem exit1 (c : Dev nD) (V' : (b : Ref sig .tc) → Buf (Elt F) ((c : Thread nD τ).loc b))
    (hout : V' main_v7 = (dat1 V c).arrAt 2 cfg1.N) (hrest : ∀ b, b ≠ main_v7 → V' b = V c b) :
    iprop((dat1 V c).arrays ((dat1 V c).arrAt · cfg1.N) ∗ Pipeline.unscopedRest spec1 c (V c)) ⊢ (unscopedBufs c V' : sProp 𝕄) := by
  have h0 : (dat1 V c).arrAt 0 cfg1.N = V c main_v6 := ((dat1 V c).arrAt_in 0 rfl _).trans (A_eq1 V c 0)
  have h1 : (dat1 V c).arrAt 1 cfg1.N = V c main_v6 := ((dat1 V c).arrAt_in 1 rfl _).trans (A_eq1 V c 1)
  have hr : (Pipeline.unscopedRest (Ix := Unit) (Name := ℕ) (U := UR sig nD τ) (Lvl := ℕ) spec1 c V' : sProp 𝕄) = Pipeline.unscopedRest spec1 c (V c) := by
    unfold Pipeline.unscopedRest
    exact bigSep_congr fun b hb => by
      rw [hrest b (fun e => (Finset.mem_sdiff.mp hb).2 (by rw [e, arrImage1]; decide))]
  rw [unscoped1_eq, arrays1_eq, hr, hrest main_v6 (by decide), hout]
  show iprop(((_ ↦{fullShare.left} (dat1 V c).arrAt 0 cfg1.N) ∗ (_ ↦{fullShare.right} (dat1 V c).arrAt 1 cfg1.N) ∗ _) ∗ _) ⊢ _
  rw [h0, h1]
  iintro ⟨⟨Ha, Hb, H7⟩, Hr⟩
  isplitr [Hr]
  · isplitr [H7]
    · iapply (pointsTo_share (PosShare.mem_left_op_right fullShare)).2
      isplitl [Ha]; · iexact Ha
      iexact Hb
    iexact H7
  iexact Hr

end Cert.KernelIdeal.Hand

end
-- ==== Proof.KiRun.lean ====
/-
  The whole program's run: host stretch, first projection, host stretch, attention, host stretch, second projection, host stretch.

  Each region is entered from "every unscoped buffer at the boundary's contents, the generator register at some state, nothing
  owed" and left at the same with the next boundary's contents; a host stretch carries the same state across its operations.
  The two projections read distinct arrays, each held outright; the attention region reads ONE array through two windows, so at
  its entry the array's share is dealt to the two windows in complementary parts and at its exit the parts are joined again.
  The run terminates with every unscoped buffer at the last boundary's contents; no boundary changes an argument array, so
  the arguments end as launched.
-/
import proofs.«167251_j24584392802661_2_alg».proof.Proof.Gen.KernelIdeal.Launch
import proofs.«167251_j24584392802661_2_alg».proof.Proof.Gen.KernelIdeal.Skeleton
import proofs.«167251_j24584392802661_2_alg».proof.Proof.Gen.KernelIdeal.Points
import proofs.«167251_j24584392802661_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«167251_j24584392802661_2_alg».proof.Proof.KiChain
import proofs.«167251_j24584392802661_2_alg».proof.Proof.KiShare1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Every pipeline's data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- unification of the library's lemmas stated over a pinned configuration with the printed one unfolds plain definitions
set_option backward.isDefEq.respectTransparency.types false in
/-- Region 0 over the thread state "every unscoped buffer at the boundary's contents, the generator register at some state,
    nothing owed": its arrays split out of the unscoped buffers at entry and put back at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas stated over a pinned configuration with the printed one unfolds plain definitions
set_option backward.isDefEq.respectTransparency.types false in
/-- The attention region over the same thread state: its two reading windows share an array, whose share is dealt between
    them at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V3 m) c (V4 m c) (W4_out m c) (fun b hb => W4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- unification of the library's lemmas stated over a pinned configuration with the printed one unfolds plain definitions
set_option backward.isDefEq.respectTransparency.types false in
/-- Region 2 over the thread state "every unscoped buffer at the boundary's contents, the generator register at some state,
    nothing owed": its arrays split out of the unscoped buffers at entry and put back at what the write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's 7 segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program is the run of the segments. -/
theorem main_run (c : Dev nD) : main (F := F) c = Pipeline.Seg.run (segs m) := (main_chain c).trans (by chain_rfl)

/-- The last thread state without what is owed: every unscoped buffer at the last boundary's contents, the generator register
    at some state. -/
abbrev Tₙ (c : Dev nD) : sProp 𝕄 := iprop(StableHlo.held (c : Thread nD τ) (Pipeline.ucRefs τ sig) (W7 m c) ∗ ∃ r, prngReg c r)

set_option backward.isDefEq.respectTransparency.types false in
/-- THE RUN: from any memory with zero counters every weakly fair execution of the program terminates, nothing faulting, and
    the final memory holds every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## No boundary changes an argument -/

/-- The first projection's region changes only its output array. -/
theorem W2_keep (c : Dev nD) (r : Ref sig .tc) (h : r ≠ main_v2) : W2 m c (Proc.devRef .tc r) = W1 m c (Proc.devRef .tc r) := by
  by_cases hr : ∃ w, Pipeline.arrRef spec0 w = r
  · obtain ⟨w, rfl⟩ := hr
    have hw : (cfg0.win w).isOut = false := by
      fin_cases w <;> first | rfl | exact absurd rfl h
    rw [W2_arr, (dat0 (V1 m) c).arrAt_in w hw, A_eq0]
  · exact W2_of_ne m c r (fun w e => hr ⟨w, e⟩)
/-- The second projection's region changes only its output array. -/
theorem W6_keep (c : Dev nD) (r : Ref sig .tc) (h : r ≠ main_v14) : W6 m c (Proc.devRef .tc r) = W5 m c (Proc.devRef .tc r) := by
  by_cases hr : ∃ w, Pipeline.arrRef spec2 w = r
  · obtain ⟨w, rfl⟩ := hr
    have hw : (cfg2.win w).isOut = false := by
      fin_cases w <;> first | rfl | exact absurd rfl h
    rw [W6_arr, (dat2 (V5 m) c).arrAt_in w hw, A_eq2]
  · exact W6_of_ne m c r (fun w e => hr ⟨w, e⟩)

/-- A buffer no host stretch writes and no region outputs ends as launched. -/
theorem W7_keep (c : Dev nD) (r : Ref sig .tc) (h0 : r ∉ hostOps0_W) (h1 : r ∉ hostOps1_W) (h2 : r ∉ hostOps2_W) (h3 : r ∉ hostOps3_W)
    (ha : r ≠ main_v2) (hb : r ≠ main_v7) (hc : r ≠ main_v14) : W7 m c (Proc.devRef .tc r) = m ((c : Thread nD τ).loc r) :=
  (StableHlo.after_of_writes_sub hostOps3 _ hostOps3_writes h3).trans <| (W6_keep m c r hc).trans <|
    (StableHlo.after_of_writes_sub hostOps2 _ hostOps2_writes h2).trans <| (W4_of_ne m c r hb).trans <|
    (StableHlo.after_of_writes_sub hostOps1 _ hostOps1_writes h1).trans <| (W2_keep m c r ha).trans <|
    (StableHlo.after_of_writes_sub hostOps0 _ hostOps0_writes h0).trans rfl

/-- THE FRAME: the program runs to the end, faults nowhere, and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_keep m c main_arg0 (by decide) (by decide) (by decide) (by decide) (by decide) (by decide) (by decide)),
     (h c _ (mem_uc main_arg1 (by decide))).trans (W7_keep m c main_arg1 (by decide) (by decide) (by decide) (by decide) (by decide) (by decide) (by decide)),
     (h c _ (mem_uc main_arg2 (by decide))).trans (W7_keep m c main_arg2 (by decide) (by decide) (by decide) (by decide) (by decide) (by decide) (by decide)),
     (h c _ (mem_uc main_arg3 (by decide))).trans (W7_keep m c main_arg3 (by decide) (by decide) (by decide) (by decide) (by decide) (by decide) (by decide)),
     (h c _ (mem_uc main_arg4 (by decide))).trans (W7_keep m c main_arg4 (by decide) (by decide) (by decide) (by decide) (by decide) (by decide) (by decide))⟩)
    (run_all m ρ)

end Cert.KernelIdeal.Hand

end
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.LibNonnegLinear.lean ====
/-
  Linear laws over the extended reals for sums of terms that are not negative.

  Over the extended reals multiplication does not distribute over addition in general:
  `⊤ * (1 + -1) = 0` while `⊤ * 1 + ⊤ * (-1) = ⊤ + ⊥ = ⊥`. Two restricted laws do hold.
  A sum of two terms that are not negative distributes over ANY right factor,
  `(a + b) * w = a * w + b * w` for `0 ≤ a`, `0 ≤ b`; and a factor that is not negative and
  is finite distributes over ANY sum, `(x + y) * c = x * c + y * c` for `0 ≤ c`, `c ≠ ⊤`.
  Addition and multiplication are each commutative and associative, so both laws extend to
  finite sums by induction on the index set, and with an exchange of the order of summation
  they give the law of one layer of a weighted aggregation: with weights `c e`, `d` that are
  not negative and finite, and entries `g e k`, `h k` that are not negative (they may be `⊤`),

      Σ_k ((Σ_e g e k * c e) + h k * d) * W k  =  (Σ_e (Σ_k g e k * W k) * c e) + (Σ_k h k * W k) * d

  for an arbitrary `W`: aggregating and then applying `W` is applying `W` and then aggregating.

  Last, the normalising weight: a count plus one is a real number that is at least one, so the
  reciprocal of its square root is a real number that is positive, hence not negative and finite;
  and the numbers that are not negative and finite are closed under multiplication.
-/
import Mathlib.Data.EReal.Operations
import Mathlib.Data.EReal.Inv
import Idealize.ShloMosaic.PureOps.Ideal

noncomputable section

namespace Idealize.ShloMosaic.NonnegLinear

open scoped BigOperators
open Idealize.ShloMosaic

/-! ## The two distributive laws over finite sums -/

/-- A finite sum of terms that are not negative distributes over any right factor. -/
theorem sum_mul_of_nonneg {ι : Type*} (s : Finset ι) (a : ι → EReal) (ha : ∀ i ∈ s, 0 ≤ a i)
    (w : EReal) : (∑ i ∈ s, a i) * w = ∑ i ∈ s, a i * w := by
  classical
  induction s using Finset.induction_on with
  | empty => simp
  | insert i s hi ih =>
    have hs : ∀ j ∈ s, 0 ≤ a j := fun j hj => ha j (Finset.mem_insert_of_mem hj)
    rw [Finset.sum_insert hi, Finset.sum_insert hi,
      EReal.right_distrib_of_nonneg (ha i (Finset.mem_insert_self i s)) (Finset.sum_nonneg hs),
      ih hs]

/-- A right factor that is not negative and is finite distributes over any finite sum. -/
theorem mul_sum_of_nonneg_fin {ι : Type*} (s : Finset ι) (t : ι → EReal) (c : EReal) (hc : 0 ≤ c)
    (hc' : c ≠ ⊤) : (∑ i ∈ s, t i) * c = ∑ i ∈ s, t i * c := by
  classical
  induction s using Finset.induction_on with
  | empty => simp
  | insert i s hi ih =>
    rw [Finset.sum_insert hi, Finset.sum_insert hi,
      EReal.right_distrib_of_nonneg_of_ne_top hc hc', ih]

/-! ## One layer: aggregate then apply `W`, or apply `W` then aggregate -/

/-- With entries `g`, `h` that are not negative and weights `c`, `d` that are not negative and finite,
contracting the aggregated row with `W` is aggregating the rows contracted with `W`. -/
theorem layer_law {E K : Type*} [Fintype K] (S : Finset E) (g : E → K → EReal) (c : E → EReal)
    (h : K → EReal) (d : EReal) (W : K → EReal)
    (hg : ∀ e k, 0 ≤ g e k) (hc : ∀ e, 0 ≤ c e) (hc' : ∀ e, c e ≠ ⊤) (hh : ∀ k, 0 ≤ h k)
    (hd : 0 ≤ d) (hd' : d ≠ ⊤) :
    ∑ k, ((∑ e ∈ S, g e k * c e) + h k * d) * W k
      = (∑ e ∈ S, (∑ k, g e k * W k) * c e) + (∑ k, h k * W k) * d := by
  -- at each `k`: split the two nonnegative summands, then the inner nonnegative sum, over `W k`
  have h1 : ∀ k, ((∑ e ∈ S, g e k * c e) + h k * d) * W k
      = (∑ e ∈ S, (g e k * W k) * c e) + (h k * W k) * d := by
    intro k
    rw [EReal.right_distrib_of_nonneg
        (Finset.sum_nonneg fun e _ => mul_nonneg (hg e k) (hc e)) (mul_nonneg (hh k) hd),
      sum_mul_of_nonneg S (fun e => g e k * c e) (fun e _ => mul_nonneg (hg e k) (hc e)) (W k)]
    congr 1
    · exact Finset.sum_congr rfl fun e _ => mul_right_comm _ _ _
    · exact mul_right_comm _ _ _
  -- sum over `k`, exchange the two sums, and pull the finite nonnegative weights out
  rw [Finset.sum_congr rfl fun k _ => h1 k, Finset.sum_add_distrib, Finset.sum_comm]
  congr 1
  · exact Finset.sum_congr rfl fun e _ =>
      (mul_sum_of_nonneg_fin Finset.univ (fun k => g e k * W k) (c e) (hc e) (hc' e)).symm
  · exact (mul_sum_of_nonneg_fin Finset.univ (fun k => h k * W k) d hd hd').symm

/-! ## The normalising weight -/

/-- The f32 pattern `0x3F800000` is the extended real one. -/
theorem ofBits_one_f32 : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(√r)⁻¹`. -/
theorem rsqrt_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- At a positive real the reciprocal square root is not negative and is finite. -/
theorem rsqrt_of_pos_nonneg_fin {r : ℝ} (hr : 0 < r) :
    0 ≤ Ideal.rsqrt (r : EReal) ∧ Ideal.rsqrt (r : EReal) ≠ ⊤ := by
  rw [rsqrt_of_pos hr]
  exact ⟨EReal.coe_nonneg.mpr (inv_nonneg.mpr (Real.sqrt_nonneg r)), EReal.coe_ne_top _⟩

/-- A sum of ones over a finite set, plus one, is the real number `card + 1`. -/
theorem sum_one_add_one {ι : Type*} (s : Finset ι) :
    (∑ _i ∈ s, (1 : EReal)) + 1 = (((s.card : ℝ) + 1 : ℝ) : EReal) := by
  rw [Finset.sum_const, EReal.nsmul_eq_mul, mul_one, EReal.coe_add, EReal.coe_natCast, EReal.coe_one]

/-- The reciprocal square root of a count plus one is not negative and is finite. -/
theorem rsqrt_count {ι : Type*} (s : Finset ι) :
    0 ≤ Ideal.rsqrt ((∑ _i ∈ s, (1 : EReal)) + 1)
      ∧ Ideal.rsqrt ((∑ _i ∈ s, (1 : EReal)) + 1) ≠ ⊤ := by
  rw [sum_one_add_one]
  exact rsqrt_of_pos_nonneg_fin (by positivity)

/-- The extended reals that are not negative and are finite are closed under multiplication. -/
theorem mul_nonneg_fin {a b : EReal} (ha : 0 ≤ a) (ha' : a ≠ ⊤) (hb : 0 ≤ b) (hb' : b ≠ ⊤) :
    0 ≤ a * b ∧ a * b ≠ ⊤ := by
  refine ⟨mul_nonneg ha hb, ?_⟩
  lift a to ℝ using ⟨ha', (EReal.bot_lt_zero.trans_le ha).ne'⟩
  lift b to ℝ using ⟨hb', (EReal.bot_lt_zero.trans_le hb).ne'⟩
  rw [← EReal.coe_mul]
  exact EReal.coe_ne_top _

end Idealize.ShloMosaic.NonnegLinear
-- ==== Proof.LibSoftmaxSum.lean ====
/-
  A sum weighted by a row's exponentials, normalised after the sum or inside it.

  For a finite row of scores `s` let `peak s` be its greatest entry (the fold of `max` from `⊥`), `weight s n = exp (s n - peak s)`
  and `mass s = ∑ n, weight s n`. Two programs may form the same weighted average of a second row `f` in two ways:

      fused s f  = (∑ n, weight s n * f n) * (1 / mass s)        -- the quotient taken once, after the sum
      spread s f = ∑ n, f n * (weight s n / mass s)              -- every weight divided before the sum

  Over the extended reals a product does not distribute over a sum in general, so the two are not equal for arbitrary
  scores. When every score is a real number and the row is not empty, the peak is a real number, every weight is a
  positive real number (at most one), and the mass is a positive real number; its reciprocal is then a factor that is
  not negative and is finite, and such a factor distributes over any finite sum, whatever the entries of `f` are
  (they may be infinite). That is `fused_eq_spread`.

  Also here: a score scaled by the word of 1/16 is the score divided by the word of 16 (on every extended real), the
  words of 16, 1/16 and -∞ as extended reals, and that a scaled sum of products of real numbers is a real number.
-/
import Idealize.ShloMosaic.PureOps.Ideal
import Idealize.ShloMosaic.PureOps.Ideal.Laws
import proofs.«167251_j24584392802661_2_alg».proof.Proof.LibReal
import proofs.«167251_j24584392802661_2_alg».proof.Proof.LibNonnegLinear

noncomputable section

open scoped BigOperators

namespace Cert.SoftmaxSum

open Idealize.ShloMosaic Cert.LibReal Idealize.ShloMosaic.NonnegLinear

variable {ι : Type*} [Fintype ι]

/-- The greatest entry of a row, from `⊥`. -/
def peak (s : ι → EReal) : EReal := (Finset.univ : Finset ι).fold max ⊥ s

/-- The exponential of an entry's distance below the peak. -/
def weight (s : ι → EReal) (n : ι) : EReal := Ideal.exp (s n - peak s)

/-- The sum of the weights. -/
def mass (s : ι → EReal) : EReal := ∑ n, weight s n

/-- The weighted sum of `f`, divided once by the mass. -/
def fused (s f : ι → EReal) : EReal := (∑ n, weight s n * f n) * Ideal.div 1 (mass s)

/-- The sum of `f` against the weights each divided by the mass. -/
def spread (s f : ι → EReal) : EReal := ∑ n, f n * Ideal.div (weight s n) (mass s)

/-- The fold of `max` from `⊥` over a set of real numbers that is not empty is a real number. -/
theorem isReal_fold_max {κ : Type*} (t : Finset κ) (f : κ → EReal) (h : ∀ i ∈ t, IsReal (f i)) (ht : t.Nonempty) :
    IsReal (t.fold max ⊥ f) := by
  classical
  induction t using Finset.induction_on with
  | empty => exact absurd ht Finset.not_nonempty_empty
  | insert a t ha ih =>
    rw [Finset.fold_insert ha]
    obtain ⟨r, hr⟩ := h a (Finset.mem_insert_self a t)
    by_cases hne : t.Nonempty
    · obtain ⟨q, hq⟩ := ih (fun i hi => h i (Finset.mem_insert_of_mem hi)) hne
      rw [hr, hq]
      exact ⟨max r q, (EReal.coe_strictMono.monotone.map_max).symm⟩
    · rw [Finset.not_nonempty_iff_eq_empty.mp hne, Finset.fold_empty, max_bot_right]
      exact ⟨r, hr⟩

section RealRow

variable [Nonempty ι] (s : ι → EReal) (hs : ∀ n, IsReal (s n))
include hs

/-- The peak of a row of real numbers is a real number. -/
theorem isReal_peak : IsReal (peak s) :=
  isReal_fold_max Finset.univ s (fun n _ => hs n) Finset.univ_nonempty

/-- Each weight of a row of real numbers is a positive real number. -/
theorem weight_pos_real (n : ι) : ∃ r : ℝ, 0 < r ∧ weight s n = (r : EReal) := by
  obtain ⟨a, ha⟩ := hs n
  obtain ⟨b, hb⟩ := isReal_peak s hs
  refine ⟨Real.exp (a - b), Real.exp_pos _, ?_⟩
  unfold weight
  rw [ha, hb, ← EReal.coe_sub, Ideal.exp_coe]

/-- The mass of a row of real numbers is a positive real number. -/
theorem mass_pos_real : ∃ d : ℝ, 0 < d ∧ mass s = (d : EReal) := by
  choose r hr0 hr using weight_pos_real s hs
  refine ⟨∑ n, r n, Finset.sum_pos (fun n _ => hr0 n) Finset.univ_nonempty, ?_⟩
  unfold mass
  rw [coe_sum]
  exact Finset.sum_congr rfl fun n _ => hr n

/-- THE LAW: for a row of real scores that is not empty, dividing the weighted sum by the mass is summing against the
    weights each divided by the mass — for ANY second row `f`. -/
theorem fused_eq_spread (f : ι → EReal) : fused s f = spread s f := by
  obtain ⟨d, hd, hD⟩ := mass_pos_real s hs
  have hc : (0 : EReal) ≤ ((1 / d : ℝ) : EReal) := EReal.coe_nonneg.mpr (by positivity)
  unfold fused spread
  rw [hD, Ideal.div_coe hd.ne' 1, one_mul,
    mul_sum_of_nonneg_fin Finset.univ (fun n => weight s n * f n) _ hc (EReal.coe_ne_top _)]
  refine Finset.sum_congr rfl fun n _ => ?_
  rw [Ideal.div_coe hd.ne', mul_comm (weight s n) (f n), mul_assoc]

end RealRow

/-! ## The scale and the float words -/

/-- The word of `16.0` is the real number 16. -/
theorem ofBits_sixteen : Ideal.ofBits .f32 0x41800000#32 = ((16 : ℝ) : EReal) := by
  simp [Ideal.ofBits, Ideal.ieee]
  exact_mod_cast (by norm_num : (8388608 : ℝ) * (2 ^ 19)⁻¹ = 16)

/-- The word of `0.0625` is the real number 1/16. -/
theorem ofBits_sixteenth : Ideal.ofBits .f32 0x3D800000#32 = ((1 / 16 : ℝ) : EReal) := by
  simp [Ideal.ofBits, Ideal.ieee]
  exact_mod_cast (by norm_num : (8388608 : ℝ) * (2 ^ 27)⁻¹ = 16⁻¹)

/-- The word `0xFF800000` is `-∞`. -/
theorem ofBits_neg_inf : Ideal.ofBits .f32 0xFF800000#32 = (⊥ : EReal) := by
  simp [Ideal.ofBits, Ideal.ieee]

/-- Scaling by the word of 1/16 is dividing by the word of 16, on every extended real. -/
theorem mul_sixteenth_eq_div (x : EReal) :
    x * Ideal.ofBits .f32 0x3D800000#32 = Ideal.div x (Ideal.ofBits .f32 0x41800000#32) := by
  rw [ofBits_sixteen, ofBits_sixteenth, Ideal.div_coe (by norm_num : (16 : ℝ) ≠ 0)]

/-- A sum of products of real numbers, scaled by the word of 1/16, is a real number. -/
theorem isReal_scaled_dot {κ : Type*} [Fintype κ] (q a : κ → EReal) (hq : ∀ k, IsReal (q k)) (ha : ∀ k, IsReal (a k)) :
    IsReal ((∑ k, q k * a k) * Ideal.ofBits .f32 0x3D800000#32) := by
  rw [ofBits_sixteenth]
  exact (IsReal.sum _ _ fun k _ => (hq k).mul (ha k)).mul (isReal_coe _)

end Cert.SoftmaxSum

end
-- ==== Proof.MhaSpec.lean ====
/-
  Multi-head self-attention over an input of 2 sequences of 2048 positions and 1024 features, 16 heads of width 64, as ONE
  function of the five argument arrays (input, the two weight matrices, the two bias vectors), over the extended reals.

  The stages:
    * qkv       — the first projection: at (b, l, f) the sum over e of x(b,l,e)·Wq(e,f), plus bq(f);
    * heads     — the same numbers in row-major order read as [2, 16, 2048, 192] (not a transposition: the view the
                  programs share); of a head's 192 columns the first 64 are the queries, the next 64 the keys, the
                  last 64 the values;
    * score     — for a batch b, a head h and a query position q, the row over key positions k of
                  (∑_d query(q,d)·key(k,d)) · 1/8 (the float word of 0.125);
    * attnAfter — the weighted sum of the values, ∑_k exp(s k − peak s)·value(k,d), divided ONCE by the mass
                  ∑_k exp(s k − peak s): the order in which a fused kernel normalises;
      attnInside — every weight divided by the mass BEFORE the sum: the order of a softmax followed by a product;
    * merged    — heads moved behind positions ([2,16,2048,64] → [2,2048,16,64]) and flattened to [2, 2048, 1024];
    * outProj   — the second projection, as the first.
  `afterSum` and `insideSum` are the two whole functions; they agree when the scores are real numbers (MhaLaw.lean).
-/
import Idealize.ShloMosaic.PureOps.Ideal
import Idealize.ShloMosaic.PureOps.ShapeOps
import Idealize.ShloMosaic.Lib.ValueIdx
import proofs.«167251_j24584392802661_2_alg».proof.Proof.LibSoftmaxSum

noncomputable section

open scoped BigOperators

namespace Cert.Mha

open Idealize.ShloMosaic Idealize.ShloMosaic.ValueIdx Cert.SoftmaxSum

abbrev SX : Shape := ⟨3, ![2, 2048, 1024]⟩
abbrev SWq : Shape := ⟨2, ![1024, 3072]⟩
abbrev Sbq : Shape := ⟨1, ![3072]⟩
abbrev SWo : Shape := ⟨2, ![1024, 1024]⟩
abbrev Sbo : Shape := ⟨1, ![1024]⟩
abbrev SQkv : Shape := ⟨3, ![2, 2048, 3072]⟩
abbrev SHead : Shape := ⟨4, ![2, 16, 2048, 192]⟩
abbrev SAttn : Shape := ⟨4, ![2, 16, 2048, 64]⟩
abbrev SAttnT : Shape := ⟨4, ![2, 2048, 16, 64]⟩

/-- Column d of a head's queries, keys, values among its 192 columns. -/
def qcol (d : Fin 64) : Fin 192 := ⟨d.val, by omega⟩
def kcol (d : Fin 64) : Fin 192 := ⟨64 + d.val, by omega⟩
def vcol (d : Fin 64) : Fin 192 := ⟨128 + d.val, by omega⟩

/-- The first projection. -/
def qkv (x : SX.Idx → EReal) (Wq : SWq.Idx → EReal) (bq : Sbq.Idx → EReal) : SQkv.Idx → EReal :=
  fun i => (∑ e : Fin 1024, x (ix3 (i 0) (i 1) e) * Wq (ix2 e (i 2))) + bq (ix1 (i 2))

/-- The projection's numbers, in row-major order, as [2, 16, 2048, 192]. -/
def heads (y : SQkv.Idx → EReal) : SHead.Idx → EReal := shapeCast SHead y

/-- The scores of query position q of head h of batch b against every key position. -/
def score (hd : SHead.Idx → EReal) (b : Fin 2) (h : Fin 16) (q : Fin 2048) : Fin 2048 → EReal :=
  fun k => (∑ d : Fin 64, hd (ix4 b h q (qcol d)) * hd (ix4 b h k (kcol d))) * Ideal.ofBits .f32 0x3E000000#32

/-- The weighted sum of the values divided once by the mass. -/
def attnAfter (hd : SHead.Idx → EReal) : SAttn.Idx → EReal :=
  fun i => Ideal.div (∑ k : Fin 2048, weight (score hd (i 0) (i 1) (i 2)) k * hd (ix4 (i 0) (i 1) k (vcol (i 3))))
    (mass (score hd (i 0) (i 1) (i 2)))

/-- Every weight divided by the mass before the sum. -/
def attnInside (hd : SHead.Idx → EReal) : SAttn.Idx → EReal :=
  fun i => ∑ k : Fin 2048, Ideal.div (weight (score hd (i 0) (i 1) (i 2)) k) (mass (score hd (i 0) (i 1) (i 2)))
    * hd (ix4 (i 0) (i 1) k (vcol (i 3)))

/-- Heads behind positions, flattened. -/
def merged (a : SAttn.Idx → EReal) : SX.Idx → EReal := shapeCast SX (transpose SAttnT [0, 2, 1, 3] a)

/-- The second projection. -/
def outProj (g : SX.Idx → EReal) (Wo : SWo.Idx → EReal) (bo : Sbo.Idx → EReal) : SX.Idx → EReal :=
  fun i => (∑ c : Fin 1024, g (ix3 (i 0) (i 1) c) * Wo (ix2 c (i 2))) + bo (ix1 (i 2))

/-- The whole function, normalising after the sum, -/
def afterSum (x : SX.Idx → EReal) (Wq : SWq.Idx → EReal) (bq : Sbq.Idx → EReal) (Wo : SWo.Idx → EReal) (bo : Sbo.Idx → EReal) :
    SX.Idx → EReal :=
  outProj (merged (attnAfter (heads (qkv x Wq bq)))) Wo bo

/-- and normalising inside it. -/
def insideSum (x : SX.Idx → EReal) (Wq : SWq.Idx → EReal) (bq : Sbq.Idx → EReal) (Wo : SWo.Idx → EReal) (bo : Sbo.Idx → EReal) :
    SX.Idx → EReal :=
  outProj (merged (attnInside (heads (qkv x Wq bq)))) Wo bo

end Cert.Mha

end
-- ==== Proof.MhaStages.lean ====
/-
  What each of the kernel program's three regions computes, as a function of the WHOLE arrays it reads.

    * `lin X W b` — a projection on row-flattened arrays: at (r, n) the sum over k of X(r,k)·W(k,n), plus b(n);
    * `grpScore Y g h q` and `grpAttn Y` — attention on the grouped layout [8, 4, 2048, 192] (8 groups of 4 heads): the
      scores of query row q of head h of group g against every key row, and at (g, h, q, d) the weighted sum of the values
      divided once by the mass. The same formulas as `score` and `attnAfter` of the specification, on the grouped layout.
-/
import proofs.«167251_j24584392802661_2_alg».proof.Proof.MhaSpec

noncomputable section

open scoped BigOperators

namespace Cert.Mha

open Idealize.ShloMosaic Idealize.ShloMosaic.ValueIdx Cert.SoftmaxSum

abbrev SGrp : Shape := ⟨4, ![8, 4, 2048, 192]⟩
abbrev SGrpOut : Shape := ⟨4, ![8, 4, 2048, 64]⟩

/-- A projection on row-flattened arrays. -/
def lin {R K N : Nat} (X : (⟨2, ![R, K]⟩ : Shape).Idx → EReal) (W : (⟨2, ![K, N]⟩ : Shape).Idx → EReal) (b : (⟨1, ![N]⟩ : Shape).Idx → EReal) :
    (⟨2, ![R, N]⟩ : Shape).Idx → EReal :=
  fun i => (∑ k : Fin K, X (ix2 (i 0) k) * W (ix2 k (i 1))) + b (ix1 (i 1))

/-- The scores of query row q of head h of group g against every key row. -/
def grpScore (Y : SGrp.Idx → EReal) (g : Fin 8) (h : Fin 4) (q : Fin 2048) : Fin 2048 → EReal :=
  fun k => (∑ d : Fin 64, Y (ix4 g h q (qcol d)) * Y (ix4 g h k (kcol d))) * Ideal.ofBits .f32 0x3E000000#32

/-- Attention on the grouped layout, the weighted sum divided once by the mass. -/
def grpAttn (Y : SGrp.Idx → EReal) : SGrpOut.Idx → EReal :=
  fun i => Ideal.div (∑ k : Fin 2048, weight (grpScore Y (i 0) (i 1) (i 2)) k * Y (ix4 (i 0) (i 1) k (vcol (i 3))))
    (mass (grpScore Y (i 0) (i 1) (i 2)))

end Cert.Mha

end
-- ==== Proof.LibRowMerge.lean ====
/-
  Merging the two leading axes of a three-axis array into one, and splitting them again, read at an index.

  A row-major array `[a, b, c]` recast as `[n, c]` with `n = a · b` keeps every entry at the same row-major position: entry
  `(p, r, k)` becomes entry `(p · b + r, k)` (`shapeCast_merge_apply`); the recast back reads entry `(p · b + r, k)` at
  `(p, r, k)` (`shapeCast_split_apply`). Generic extents; the merged row index is `rowOf`.
-/
import Idealize.ShloMosaic.Lib.ValueIdx
import Idealize.ShloMosaic.Lib.Pipeline.Value

noncomputable section

namespace Cert.Lib.RowMerge

open Idealize.ShloMosaic Idealize.ShloMosaic.ValueIdx

/-- Row `r` of block `p`, among `a` blocks of `b` rows each, as a row of the merged axis of extent `n = a · b`. -/
def rowOf {a b n : ℕ} (h : a * b = n) (p : Fin a) (r : Fin b) : Fin n :=
  ⟨p.val * b + r.val, lt_of_lt_of_eq (calc p.val * b + r.val < p.val * b + b := Nat.add_lt_add_left r.isLt _
    _ = (p.val + 1) * b := (Nat.succ_mul _ _).symm
    _ ≤ a * b := Nat.mul_le_mul_right b p.isLt) h⟩

theorem rowOf_val {a b n : ℕ} (h : a * b = n) (p : Fin a) (r : Fin b) : (rowOf h p r).val = p.val * b + r.val := rfl

/-- Every row of the merged axis is some row of some block. -/
theorem exists_rowOf {a b n : ℕ} (h : a * b = n) (hb : 0 < b) (i : Fin n) : ∃ (p : Fin a) (r : Fin b), i = rowOf h p r := by
  have hi : i.val < a * b := lt_of_lt_of_eq i.isLt h.symm
  refine ⟨⟨i.val / b, (Nat.div_lt_iff_lt_mul hb).mpr hi⟩, ⟨i.val % b, Nat.mod_lt _ hb⟩, Fin.ext ?_⟩
  show i.val = i.val / b * b + i.val % b
  rw [Nat.mul_comm]; exact (Nat.div_add_mod _ _).symm

/-- The merged array at `(p · b + r, k)` is the array at `(p, r, k)`. -/
theorem shapeCast_merge_apply {α : Type} {a b c n : ℕ} (hn : a * b = n) (x : (⟨3, ![a, b, c]⟩ : Shape).Idx → α)
    (h : (⟨3, ![a, b, c]⟩ : Shape).ShapeCasts ⟨2, ![n, c]⟩) (p : Fin a) (r : Fin b) (k : Fin c) :
    shapeCast ⟨2, ![n, c]⟩ x h (ix2 (rowOf hn p r) k) = x (ix3 p r k) :=
  shapeCast_apply x h _ _ (by
    rw [Shape.rowMajor_val_three, Shape.rowMajor_val_two]
    show (p.val * b + r.val) * c + k.val = (p.val * b + r.val) * c + k.val
    rfl)

/-- The array split again at `(p, r, k)` is the merged array at `(p · b + r, k)`. -/
theorem shapeCast_split_apply {α : Type} {a b c n : ℕ} (hn : a * b = n) (y : (⟨2, ![n, c]⟩ : Shape).Idx → α)
    (h : (⟨2, ![n, c]⟩ : Shape).ShapeCasts ⟨3, ![a, b, c]⟩) (p : Fin a) (r : Fin b) (k : Fin c) :
    shapeCast ⟨3, ![a, b, c]⟩ y h (ix3 p r k) = y (ix2 (rowOf hn p r) k) :=
  shapeCast_apply y h _ _ (by
    rw [Shape.rowMajor_val_three, Shape.rowMajor_val_two]
    show (p.val * b + r.val) * c + k.val = (p.val * b + r.val) * c + k.val
    rfl)

end Cert.Lib.RowMerge

end
-- ==== Proof.MhaLayout.lean ====
/-
  The re-readings of the arrays between the regions, at an index.

  Every reshape of the kernel program keeps each number at its row-major position, so
    * two reshapes in a row are one (`shapeCast_comp`);
    * a projection computed on the row-flattened array [B·L, K] and read back as [B, L, N] is the projection at (b, l, n)
      (`lin_rows`);
    * the heads' array [2, 16, 2048, 192] read as 8 groups of 4 heads, [8, 4, 2048, 192], has head h of batch b as head h mod 4
      of group 4·b + h div 4 (`regroup_apply`), and likewise for the attention's output (`ungroup_apply`);
    * so attention computed group by group and read back as [2, 16, 2048, 64] is attention head by head (`grpAttn_regroup`).
-/
import Idealize.ShloMosaic.Lib.Pipeline.Value
import proofs.«167251_j24584392802661_2_alg».proof.Proof.MhaSpec
import proofs.«167251_j24584392802661_2_alg».proof.Proof.MhaStages
import proofs.«167251_j24584392802661_2_alg».proof.Proof.LibRowMerge

noncomputable section

open scoped BigOperators

namespace Cert.Mha

open Idealize.ShloMosaic Idealize.ShloMosaic.ValueIdx Cert.SoftmaxSum Cert.Lib.RowMerge

abbrev SHead5 : Shape := ⟨5, ![2, 4, 4, 2048, 192]⟩
abbrev SAttn5 : Shape := ⟨5, ![2, 4, 4, 2048, 64]⟩

/-- Two recasts in a row are one. -/
theorem shapeCast_comp {s t u : Shape} {α : Type} (x : s.Idx → α) (h : s.ShapeCasts t) (h' : t.ShapeCasts u) :
    shapeCast u (shapeCast t x h) h' = shapeCast u x (h'.trans h) := by
  funext j
  unfold shapeCast
  exact congrArg x (Shape.reshapeEquiv_reshapeEquiv h h' j)

/-- A projection on the row-flattened array, read back with the rows split, is the projection at (b, l, n). -/
theorem lin_rows {B L K N R : ℕ} (hR : B * L = R) (X : (⟨3, ![B, L, K]⟩ : Shape).Idx → EReal) (W : (⟨2, ![K, N]⟩ : Shape).Idx → EReal)
    (b : (⟨1, ![N]⟩ : Shape).Idx → EReal) (h1 : (⟨3, ![B, L, K]⟩ : Shape).ShapeCasts ⟨2, ![R, K]⟩)
    (h2 : (⟨2, ![R, N]⟩ : Shape).ShapeCasts ⟨3, ![B, L, N]⟩) :
    shapeCast ⟨3, ![B, L, N]⟩ (lin (shapeCast ⟨2, ![R, K]⟩ X h1) W b) h2
      = fun i => (∑ k : Fin K, X (ix3 (i 0) (i 1) k) * W (ix2 k (i 2))) + b (ix1 (i 2)) := by
  funext i
  obtain ⟨p, r, n, rfl⟩ : ∃ (p : Fin B) (r : Fin L) (n : Fin N), i = ix3 p r n := ⟨i 0, i 1, i 2, eq_ix3 i⟩
  rw [shapeCast_split_apply hR _ h2 p r n]
  unfold lin
  show (∑ k : Fin K, shapeCast ⟨2, ![R, K]⟩ X h1 (ix2 (rowOf hR p r) k) * W (ix2 k n)) + b (ix1 n) = _
  simp only [shapeCast_merge_apply hR X h1]
  rfl

/-- Head h of batch b is head h mod 4 of group 4·b + h div 4. -/
theorem regroup_apply {α : Type} (hd : SHead.Idx → α) (h1 : SHead.ShapeCasts SHead5) (h2 : SHead5.ShapeCasts SGrp)
    (g : Fin 8) (hh : Fin 4) (l : Fin 2048) (j : Fin 192) (b : Fin 2) (h : Fin 16)
    (hg : g.val = b.val * 4 + h.val / 4) (hhh : hh.val = h.val % 4) :
    shapeCast SGrp (shapeCast SHead5 hd h1) h2 (ix4 g hh l j) = hd (ix4 b h l j) := by
  rw [shapeCast_comp hd h1 h2]
  refine shapeCast_apply hd _ _ _ ?_
  rw [Shape.rowMajor_val_four, Shape.rowMajor_val_four]
  show ((b.val * 16 + h.val) * 2048 + l.val) * 192 + j.val = ((g.val * 4 + hh.val) * 2048 + l.val) * 192 + j.val
  have := h.isLt
  omega

/-- The same for an array of width 64, read back from the groups. -/
theorem ungroup_apply {α : Type} (a : SGrpOut.Idx → α) (h3 : SGrpOut.ShapeCasts SAttn5) (h4 : SAttn5.ShapeCasts SAttn)
    (g : Fin 8) (hh : Fin 4) (q : Fin 2048) (d : Fin 64) (b : Fin 2) (h : Fin 16)
    (hg : g.val = b.val * 4 + h.val / 4) (hhh : hh.val = h.val % 4) :
    shapeCast SAttn (shapeCast SAttn5 a h3) h4 (ix4 b h q d) = a (ix4 g hh q d) := by
  rw [shapeCast_comp a h3 h4]
  refine shapeCast_apply a _ _ _ ?_
  rw [Shape.rowMajor_val_four, Shape.rowMajor_val_four]
  show ((g.val * 4 + hh.val) * 2048 + q.val) * 64 + d.val = ((b.val * 16 + h.val) * 2048 + q.val) * 64 + d.val
  have := h.isLt
  omega

/-- Attention group by group, read back head by head, is attention head by head. -/
theorem grpAttn_regroup (hd : SHead.Idx → EReal) (h1 : SHead.ShapeCasts SHead5) (h2 : SHead5.ShapeCasts SGrp)
    (h3 : SGrpOut.ShapeCasts SAttn5) (h4 : SAttn5.ShapeCasts SAttn) :
    shapeCast SAttn (shapeCast SAttn5 (grpAttn (shapeCast SGrp (shapeCast SHead5 hd h1) h2)) h3) h4 = attnAfter hd := by
  funext i
  obtain ⟨b, h, q, d, rfl⟩ : ∃ (b : Fin 2) (h : Fin 16) (q : Fin 2048) (d : Fin 64), i = ix4 b h q d := ⟨i 0, i 1, i 2, i 3, eq_ix4 i⟩
  have hgl : b.val * 4 + h.val / 4 < 8 := by have := b.isLt; have := h.isLt; omega
  have hhl : h.val % 4 < 4 := Nat.mod_lt _ (by decide)
  rw [ungroup_apply _ h3 h4 ⟨b.val * 4 + h.val / 4, hgl⟩ ⟨h.val % 4, hhl⟩ q d b h rfl rfl]
  have hs : grpScore (shapeCast SGrp (shapeCast SHead5 hd h1) h2) ⟨b.val * 4 + h.val / 4, hgl⟩ ⟨h.val % 4, hhl⟩ q = score hd b h q := by
    funext k
    unfold grpScore score
    simp only [regroup_apply hd h1 h2 ⟨b.val * 4 + h.val / 4, hgl⟩ ⟨h.val % 4, hhl⟩ _ _ b h rfl rfl]
  unfold grpAttn attnAfter
  show Ideal.div (∑ k : Fin 2048, weight (grpScore _ ⟨b.val * 4 + h.val / 4, hgl⟩ ⟨h.val % 4, hhl⟩ q) k
      * shapeCast SGrp (shapeCast SHead5 hd h1) h2 (ix4 ⟨b.val * 4 + h.val / 4, hgl⟩ ⟨h.val % 4, hhl⟩ k (vcol d)))
      (mass (grpScore _ ⟨b.val * 4 + h.val / 4, hgl⟩ ⟨h.val % 4, hhl⟩ q))
    = Ideal.div (∑ k : Fin 2048, weight (score hd b h q) k * hd (ix4 b h k (vcol d))) (mass (score hd b h q))
  rw [hs]
  simp only [regroup_apply hd h1 h2 ⟨b.val * 4 + h.val / 4, hgl⟩ ⟨h.val % 4, hhl⟩ _ _ b h rfl rfl]

end Cert.Mha

end
-- ==== Proof.MhaCompose.lean ====
/-
  The chain of re-readings between the three regions, put together: projecting the row-flattened input, re-reading the result
  as heads and then as groups of heads, attention group by group, re-reading its output head by head, moving heads behind
  positions and flattening, flattening the rows, projecting, and splitting the rows again is the specification's `afterSum`.
-/
import proofs.«167251_j24584392802661_2_alg».proof.Proof.MhaLayout

noncomputable section

open scoped BigOperators

namespace Cert.Mha

open Idealize.ShloMosaic Idealize.ShloMosaic.ValueIdx Cert.SoftmaxSum

abbrev SRowsIn : Shape := ⟨2, ![4096, 1024]⟩
abbrev SRowsQkv : Shape := ⟨2, ![4096, 3072]⟩

/-- The first projection on merged rows, rows split again. -/
theorem qkv_rows (x : SX.Idx → EReal) (Wq : SWq.Idx → EReal) (bq : Sbq.Idx → EReal)
    (h1 : SX.ShapeCasts SRowsIn) (h2 : SRowsQkv.ShapeCasts SQkv) :
    shapeCast SQkv (lin (shapeCast SRowsIn x h1) Wq bq) h2 = qkv x Wq bq :=
  lin_rows (B := 2) (L := 2048) (K := 1024) (N := 3072) (R := 4096) rfl x Wq bq h1 h2

/-- The second projection on merged rows, rows split again. -/
theorem out_rows (g : SX.Idx → EReal) (Wo : SWo.Idx → EReal) (bo : Sbo.Idx → EReal)
    (h1 : SX.ShapeCasts SRowsIn) (h2 : SRowsIn.ShapeCasts SX) :
    shapeCast SX (lin (shapeCast SRowsIn g h1) Wo bo) h2 = outProj g Wo bo :=
  lin_rows (B := 2) (L := 2048) (K := 1024) (N := 1024) (R := 4096) rfl g Wo bo h1 h2

/-- The whole chain. -/
theorem compose (x : SX.Idx → EReal) (Wq : SWq.Idx → EReal) (bq : Sbq.Idx → EReal) (Wo : SWo.Idx → EReal) (bo : Sbo.Idx → EReal)
    (h1 : SX.ShapeCasts SRowsIn) (h2 : SRowsQkv.ShapeCasts SQkv) (h3 : SQkv.ShapeCasts SHead) (h4 : SHead.ShapeCasts SHead5)
    (h5 : SHead5.ShapeCasts SGrp) (h6 : SGrpOut.ShapeCasts SAttn5) (h7 : SAttn5.ShapeCasts SAttn)
    (h8 : SAttn.Transposes [0, 2, 1, 3] SAttnT) (h9 : SAttnT.ShapeCasts SX) (h10 : SX.ShapeCasts SRowsIn) (h11 : SRowsIn.ShapeCasts SX) :
    shapeCast SX (lin (shapeCast SRowsIn (shapeCast SX (transpose SAttnT [0, 2, 1, 3]
        (shapeCast SAttn (shapeCast SAttn5 (grpAttn (shapeCast SGrp (shapeCast SHead5 (shapeCast SHead
          (shapeCast SQkv (lin (shapeCast SRowsIn x h1) Wq bq) h2) h3) h4) h5)) h6) h7) h8) h9) h10) Wo bo) h11
      = afterSum x Wq bq Wo bo := by
  rw [qkv_rows x Wq bq h1 h2]
  have hA := grpAttn_regroup (heads (qkv x Wq bq)) h4 h5 h6 h7
  unfold heads at hA
  rw [hA]
  exact out_rows _ Wo bo h10 h11

end Cert.Mha

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.MhaPayloadsLinear.lean ====
/-
  The two projection bodies, read at an index.

  Each body forms, for a block of 512 rows, the product of the rows with the whole weight matrix into a zero
  accumulator, adds the bias vector (recast as a one-row matrix and stretched over the 512 rows), and changes the float
  format, which on extended reals is the identity. At row p and column f the stored value is therefore

      (∑_e x(p, e) · W(e, f)) + b(f).
-/
import proofs.«167251_j24584392802661_2_alg».proof.Proof.Gen.KernelIdeal.Skeleton
import proofs.«167251_j24584392802661_2_alg».proof.Proof.LibTileRead
import Idealize.ShloMosaic.Lib.ValueIdx
import Idealize.ShloMosaic.Lib.Pipeline.Value
import Idealize.ShloMosaic.PureOps.Ideal.Laws

noncomputable section

open scoped BigOperators

namespace Cert.Mha.Payload

open Idealize.ShloMosaic Idealize.ShloMosaic.ValueIdx Cert.KernelIdeal Cert.KernelIdeal.Gen Cert.Lib.TileRead

/-- The first projection's product contracts the left operand's second axis with the right operand's first. -/
theorem plain_qkv : PlainDot dot_S512x1024_S1024x3072_S512x3072_1_0_0_1_n_n where
  hr := rfl
  hs := rfl
  l0 := fun j q => by
    unfold DotDims.lhsIdx
    rw [dif_neg (show ¬(0 : Fin S512x1024.rank) ∈ dot_S512x1024_S1024x3072_S512x3072_1_0_0_1_n_n.lhsBatch by decide),
      dif_pos (show (0 : Fin S512x1024.rank) ∈ dot_S512x1024_S1024x3072_S512x3072_1_0_0_1_n_n.lhsNonContracting by decide)]
    rfl
  l1 := fun j q => dot_S512x1024_S1024x3072_S512x3072_1_0_0_1_n_n.lhsIdx_val_of_single rfl j q
  r0 := fun j q => dot_S512x1024_S1024x3072_S512x3072_1_0_0_1_n_n.rhsIdx_val_of_single rfl j q
  r1 := fun j q => by
    unfold DotDims.rhsIdx
    rw [dif_neg (show ¬(1 : Fin S1024x3072.rank) ∈ dot_S512x1024_S1024x3072_S512x3072_1_0_0_1_n_n.rhsBatch by decide),
      dif_pos (show (1 : Fin S1024x3072.rank) ∈ dot_S512x1024_S1024x3072_S512x3072_1_0_0_1_n_n.rhsNonContracting by decide)]
    rfl

/-- So does the second projection's. -/
theorem plain_out : PlainDot dot_S512x1024_S1024x1024_S512x1024_1_0_0_1_n_n where
  hr := rfl
  hs := rfl
  l0 := fun j q => by
    unfold DotDims.lhsIdx
    rw [dif_neg (show ¬(0 : Fin S512x1024.rank) ∈ dot_S512x1024_S1024x1024_S512x1024_1_0_0_1_n_n.lhsBatch by decide),
      dif_pos (show (0 : Fin S512x1024.rank) ∈ dot_S512x1024_S1024x1024_S512x1024_1_0_0_1_n_n.lhsNonContracting by decide)]
    rfl
  l1 := fun j q => dot_S512x1024_S1024x1024_S512x1024_1_0_0_1_n_n.lhsIdx_val_of_single rfl j q
  r0 := fun j q => dot_S512x1024_S1024x1024_S512x1024_1_0_0_1_n_n.rhsIdx_val_of_single rfl j q
  r1 := fun j q => by
    unfold DotDims.rhsIdx
    rw [dif_neg (show ¬(1 : Fin S1024x1024.rank) ∈ dot_S512x1024_S1024x1024_S512x1024_1_0_0_1_n_n.rhsBatch by decide),
      dif_pos (show (1 : Fin S1024x1024.rank) ∈ dot_S512x1024_S1024x1024_S512x1024_1_0_0_1_n_n.rhsNonContracting by decide)]
    rfl

/-- The first projection's body at row `p`, column `f`: the row times the weight column, plus the bias. -/
theorem k0_pay1_apply (x0 : Vec Ideal S512x1024 .f32) (x1 : Vec Ideal S1024x3072 .bf16) (x2 : Vec Ideal S3072 .f32)
    (p : Fin 512) (f : Fin 3072) :
    k0_pay1 x0 x1 x2 (ix2 p f) = (∑ e : Fin 1024, x0 (ix2 p e) * x1 (ix2 e f)) + x2 (ix1 f) := by
  show matmul dot_S512x1024_S1024x3072_S512x3072_1_0_0_1_n_n none
        (truncf .bf16 (shapeCast S512x1024 x0 shapeCasts_S512x1024_S512x1024) bitsLt_bf16_f32 : FVec Ideal S512x1024 .bf16)
        (shapeCast S1024x3072 x1 shapeCasts_S1024x3072_S1024x3072 : FVec Ideal S1024x3072 .bf16)
        (constant S512x3072 .f32 0x00000000#32) (ix2 p f)
      + broadcastTo S512x3072 (shapeCast S1x3072 x2 shapeCasts_S3072_S1x3072) broadcasts_S1x3072_S512x3072 (ix2 p f) = _
  refine congrArg₂ (· + ·) ?_ ?_
  · refine (matmul_zero_plain_apply dot_S512x1024_S1024x3072_S512x3072_1_0_0_1_n_n plain_qkv none _ _ p f).trans ?_
    refine Finset.sum_congr rfl fun e _ => ?_
    exact congrArg₂ (· * ·) (congrFun (shapeCast_self x0 shapeCasts_S512x1024_S512x1024) (ix2 p e))
      (congrFun (shapeCast_self x1 shapeCasts_S1024x3072_S1024x3072) (ix2 e f))
  · refine (broadcastTo_row_apply _ broadcasts_S1x3072_S512x3072 p f).trans ?_
    exact shapeCast_row_apply x2 shapeCasts_S3072_S1x3072 (0 : Fin 1) f

/-- The second projection's body at row `p`, column `n`. -/
theorem k2_pay1_apply (x0 : Vec Ideal S512x1024 .bf16) (x1 : Vec Ideal S1024x1024 .bf16) (x2 : Vec Ideal S1024 .f32)
    (p : Fin 512) (n : Fin 1024) :
    k2_pay1 x0 x1 x2 (ix2 p n) = (∑ e : Fin 1024, x0 (ix2 p e) * x1 (ix2 e n)) + x2 (ix1 n) := by
  show matmul dot_S512x1024_S1024x1024_S512x1024_1_0_0_1_n_n none
        (shapeCast S512x1024 x0 shapeCasts_S512x1024_S512x1024 : FVec Ideal S512x1024 .bf16)
        (shapeCast S1024x1024 x1 shapeCasts_S1024x1024_S1024x1024 : FVec Ideal S1024x1024 .bf16)
        (constant S512x1024 .f32 0x00000000#32) (ix2 p n)
      + broadcastTo S512x1024 (shapeCast S1x1024 x2 shapeCasts_S1024_S1x1024) broadcasts_S1x1024_S512x1024 (ix2 p n) = _
  refine congrArg₂ (· + ·) ?_ ?_
  · refine (matmul_zero_plain_apply dot_S512x1024_S1024x1024_S512x1024_1_0_0_1_n_n plain_out none _ _ p n).trans ?_
    refine Finset.sum_congr rfl fun e _ => ?_
    exact congrArg₂ (· * ·) (congrFun (shapeCast_self x0 shapeCasts_S512x1024_S512x1024) (ix2 p e))
      (congrFun (shapeCast_self x1 shapeCasts_S1024x1024_S1024x1024) (ix2 e n))
  · refine (broadcastTo_row_apply _ broadcasts_S1x1024_S512x1024 p n).trans ?_
    exact shapeCast_row_apply x2 shapeCasts_S1024_S1x1024 (0 : Fin 1) n

end Cert.Mha.Payload

end
-- ==== Proof.MhaRegionValue0.lean ====
/-
  What the first projection's region leaves in its output array, as one function of the whole arrays it read.

  The grid has 8 points. At point t the input window is rows 512·t … 512·t + 511 of the [4096, 1024] input, the weight
  window is the whole [1024, 3072] matrix, the bias window the whole vector of 3072 entries, and the output window rows
  512·t … 512·t + 511 of the [4096, 3072] result. The body stores at row p and column f of its block the sum over e of
  input(p, e)·weight(e, f) plus bias(f); an element of a block sits in its array, on each axis, at the block index times
  the block's size plus its own coordinate, so what point t writes back is rows 512·t … 512·t + 511 of `lin X W b`: ONE
  function of the arrays, whatever the point. Every row r of the result lies in the block of point r / 512, so after the
  last point the array holds `lin X W b`.
-/
import proofs.«167251_j24584392802661_2_alg».proof.Proof.KiRegion0
import proofs.«167251_j24584392802661_2_alg».proof.Proof.MhaStages
import proofs.«167251_j24584392802661_2_alg».proof.Proof.MhaPayloadsLinear
import Idealize.ShloMosaic.Lib.Pipeline.Value

noncomputable section

open scoped BigOperators

namespace Cert.Mha.RegionValue

open Cert.KernelIdeal Cert.KernelIdeal.Gen Cert.KernelIdeal.Hand Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

/-- The printed index maps over the grid's 8 points: the input's and the output's row block is the point, every other
    block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The input window's block at point `t` is rows 512·t … 512·t + 511 of the input. -/
theorem iblk0_0_apply (c : Dev nD) (t : Fin cfg0.N) (p : Fin 512) (e : Fin 1024) (i : S4096x1024.Idx)
    (h0 : (i 0).val = t.val * 512 + p.val) (h1 : (i 1).val = e.val) :
    (iblk0 V c 0 t : Vec Ideal S512x1024 .f32) (ix2 p e) = (V c main_v0 : S4096x1024.Idx → EReal) i := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * p.val = (i 0).val; rw [e0, h0]; omega
  | ⟨1, _⟩ => show win0_0.index t (1 : Fin 2) * 1024 + 1 * e.val = (i 1).val; rw [e1, h1]; omega

/-- The weight window's block at any point is the whole matrix. -/
theorem iblk0_1_apply (c : Dev nD) (t : Fin cfg0.N) (e : Fin 1024) (f : Fin 3072) (i : S1024x3072.Idx)
    (h0 : (i 0).val = e.val) (h1 : (i 1).val = f.val) :
    (iblk0 V c 1 t : Vec Ideal S1024x3072 .bf16) (ix2 e f) = (V c main_v1 : S1024x3072.Idx → EReal) i := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 1024 + 1 * e.val = (i 0).val; rw [e0, h0]; omega
  | ⟨1, _⟩ => show win0_1.index t (1 : Fin 2) * 3072 + 1 * f.val = (i 1).val; rw [e1, h1]; omega

/-- The bias window's block at any point is the whole vector. -/
theorem iblk0_2_apply (c : Dev nD) (t : Fin cfg0.N) (f : Fin 3072) (i : S3072.Idx) (h0 : (i 0).val = f.val) :
    (iblk0 V c 2 t : Vec Ideal S3072 .f32) (ix1 f) = (V c main_arg2 : S3072.Idx → EReal) i := by
  obtain ⟨-, -, -, -, e0, -⟩ := idx_facts0 t
  unfold iblk0
  rw [View.read_apply]
  show V c main_arg2 _ = V c main_arg2 _
  congr 1
  funext a
  apply Fin.ext
  match a with
  | ⟨0, _⟩ => show win0_2.index t (0 : Fin 1) * 3072 + 1 * f.val = (i 0).val; rw [e0, h0]; omega

/-- WHAT POINT `t` WRITES BACK is its block of rows of `lin` of the arrays as the region finds them. -/
theorem flushed0_eq (c : Dev nD) (t : Fin cfg0.N) :
    (dat0 V c).flushed 3 t
      = ((cfg0.win 3).blk t).view.read (Elt Ideal) (lin (V c main_v0) (V c main_v1) (V c main_arg2)) := by
  show (cfg0.win 3).cut (grid0.coords t) ((dat0 V c).after 3 t) = _
  rw [after0_3]
  unfold out0_3
  obtain ⟨-, -, -, -, -, e0, e1⟩ := idx_facts0 t
  funext j
  obtain ⟨p, f, rfl⟩ : ∃ (p : Fin 512) (f : Fin 3072), j = ix2 p f := ⟨j 0, j 1, eq_ix2 j⟩
  rw [View.read_apply]
  refine (Cert.Mha.Payload.k0_pay1_apply (iblk0 V c 0 t) (iblk0 V c 1 t) (iblk0 V c 2 t) p f).trans ?_
  have hr : ((((cfg0.win 3).blk t).view.emb (ix2 p f)) 0).val = t.val * 512 + p.val := by
    show win0_3.index t (0 : Fin 2) * 512 + 1 * p.val = _; rw [e0]; omega
  have hc : ((((cfg0.win 3).blk t).view.emb (ix2 p f)) 1).val = f.val := by
    show win0_3.index t (1 : Fin 2) * 3072 + 1 * f.val = _; rw [e1]; omega
  unfold lin
  refine congrArg₂ (· + ·) (Finset.sum_congr rfl fun e _ => congrArg₂ (· * ·) ?_ ?_) ?_
  · exact iblk0_0_apply V c t p e _ hr rfl
  · exact iblk0_1_apply V c t e f _ rfl hc
  · exact iblk0_2_apply V c t f _ hc

/-- An index of the result is in point `t`'s block iff each coordinate is in the block's range on its axis. -/
theorem mem_blk0 (t : Fin cfg0.N) (i : S4096x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v2).slice (win0_3.rect t)).set ↔ _
  rw [View.set_slice_whole, Rect.mem_set_unit]
  exact Iff.rfl

/-- Row r of the result lies in the block of point r / 512. -/
theorem cover0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 8 := N_0
  refine ⟨⟨(i 0).val / 512, by omega⟩, flush0_3 _, ?_⟩
  obtain ⟨-, -, -, -, -, e0, e1⟩ := idx_facts0 ⟨(i 0).val / 512, by omega⟩
  rw [mem_blk0]
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 3072 ≤ (i 1).val ∧ (i 1).val < win0_3.index _ (1 : Fin 2) * 3072 + 3072
    rw [e1]; omega

/-- THE ARRAY after the region: `lin` of the three arrays the region read. -/
theorem proj0_eq (c : Dev nD) :
    (dat0 V c).arrAt 3 cfg0.N = lin (V c main_v0) (V c main_v1) (V c main_arg2) :=
  (dat0 V c).arrAt_eq_of_cover 3 (lin (V c main_v0) (V c main_v1) (V c main_arg2))
    (fun t _ => flushed0_eq V c t) cover0

end Cert.Mha.RegionValue

end
-- ==== Proof.LibHeadLayout.lean ====
/-
  THE LAYOUT STEPS OF AN ATTENTION OVER THE HEADS OF ONE ROW, READ AT AN INDEX, over generic extents.

  A row of n = b·c numbers is read as b heads of c lanes: column q·c + d is lane d of head q. A body that works head by head
  recasts an [a, n] matrix as [a, b, c] and back, cuts one head [a, 1, c] (or one column [a, b, 1]) out of an [a, b, c]
  (or [a, b, g]) array, drops or adds the unit axis, stretches the cut over the axis it lacks, reduces along the LAST axis
  (a sum, or a maximum from the accumulator's value), and joins sixteen columns [a, b, 1] side by side into [a, b, 16].
  Each lemma reads ONE such step at an index written by its coordinates. Extents are arbitrary natural numbers and every
  operation's side condition is an arbitrary proof.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lib.HeadLayout

open Idealize.ShloMosaic Idealize.ShloMosaic.ValueIdx

variable {α : Type}

/-! ## Heads and lanes: [a, b·c] and [a, b, c] -/

/-- An [a, n] matrix recast as [a, b, c] reads, at (p, q, d), the matrix at (p, k) for the column k = q·c + d. -/
theorem split_cols_apply {a b c n : ℕ} (x : (⟨2, ![a, n]⟩ : Shape).Idx → α)
    (h : (⟨2, ![a, n]⟩ : Shape).ShapeCasts ⟨3, ![a, b, c]⟩) (hn : n = b * c) (p : Fin a) (q : Fin b) (d : Fin c) (k : Fin n)
    (hk : q.val * c + d.val = k.val) :
    shapeCast ⟨3, ![a, b, c]⟩ x h (ix3 p q d) = x (ix2 p k) :=
  shapeCast_apply x h _ _ (by
    rw [Shape.rowMajor_val_three, Shape.rowMajor_val_two]
    show p.val * n + k.val = (p.val * b + q.val) * c + d.val
    subst hn
    rw [← hk]
    ring)

/-- An [a, b, c] array recast as [a, n] reads, at (p, k) with k = q·c + d, the array at (p, q, d). -/
theorem merge_cols_apply {a b c n : ℕ} (x : (⟨3, ![a, b, c]⟩ : Shape).Idx → α)
    (h : (⟨3, ![a, b, c]⟩ : Shape).ShapeCasts ⟨2, ![a, n]⟩) (hn : n = b * c) (p : Fin a) (q : Fin b) (d : Fin c) (k : Fin n)
    (hk : q.val * c + d.val = k.val) :
    shapeCast ⟨2, ![a, n]⟩ x h (ix2 p k) = x (ix3 p q d) :=
  shapeCast_apply x h _ _ (by
    rw [Shape.rowMajor_val_three, Shape.rowMajor_val_two]
    show (p.val * b + q.val) * c + d.val = p.val * n + k.val
    subst hn
    rw [← hk]
    ring)

/-! ## One head, one column -/

/-- Head g of an [a, b, c] array, cut out as [a, 1, c], reads at (p, u, d) the array at (p, g, d). -/
theorem slice_head_apply {a b c : ℕ} (g : ℕ) (hg : g < b) (x : (⟨3, ![a, b, c]⟩ : Shape).Idx → α)
    (h : (⟨3, ![a, b, c]⟩ : Shape).Slices ![0, g, 0] ⟨3, ![a, 1, c]⟩) (p : Fin a) (u : Fin 1) (d : Fin c) :
    extractStridedSlice ⟨3, ![a, 1, c]⟩ ![0, g, 0] x h (ix3 p u d) = x (ix3 p (⟨g, hg⟩ : Fin b) d) :=
  extractStridedSlice_apply _ _ _ _ _ (fun ax => by
    match ax with
    | ⟨0, _⟩ => exact (Nat.zero_add _).symm
    | ⟨1, _⟩ => show g = g + u.val; omega
    | ⟨2, _⟩ => exact (Nat.zero_add _).symm)

/-- Column g of an [a, b, e] array, cut out as [a, b, 1], reads at (p, q, u) the array at (p, q, g). -/
theorem slice_col_apply {a b e : ℕ} (g : ℕ) (hg : g < e) (x : (⟨3, ![a, b, e]⟩ : Shape).Idx → α)
    (h : (⟨3, ![a, b, e]⟩ : Shape).Slices ![0, 0, g] ⟨3, ![a, b, 1]⟩) (p : Fin a) (q : Fin b) (u : Fin 1) :
    extractStridedSlice ⟨3, ![a, b, 1]⟩ ![0, 0, g] x h (ix3 p q u) = x (ix3 p q (⟨g, hg⟩ : Fin e)) :=
  extractStridedSlice_apply _ _ _ _ _ (fun ax => by
    match ax with
    | ⟨0, _⟩ => exact (Nat.zero_add _).symm
    | ⟨1, _⟩ => exact (Nat.zero_add _).symm
    | ⟨2, _⟩ => show g = g + u.val; omega)

/-! ## Unit axes dropped and added -/

/-- [a, 1, c] recast as [a, c] reads at (p, d) the array at (p, 0, d). -/
theorem drop_mid_apply {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- [a, c] recast as [a, 1, c] reads at (p, u, d) the matrix at (p, d). -/
theorem add_mid_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, b, 1] recast as [a, b] reads at (p, q) the array at (p, q, 0). -/
theorem drop_last_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- [a, b] recast as [a, b, 1] reads at (p, q, u) the matrix at (p, q). -/
theorem add_last_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-! ## Stretching over the missing axis -/

/-- [a, 1, c] stretched over the heads to [a, b, c] reads at (p, q, d) the array at (p, 0, d). -/
theorem bcast_mid_apply {a b c : ℕ} (x : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ x h (ix3 p q d) = x (ix3 p (0 : Fin 1) d) := by
  refine broadcastTo_apply x h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- [a, b, 1] stretched over the lanes to [a, b, c] reads at (p, q, d) the array at (p, q, 0). -/
theorem bcast_last_apply {a b c : ℕ} (x : (⟨3, ![a, b, 1]⟩ : Shape).Idx → α)
    (h : (⟨3, ![a, b, 1]⟩ : Shape).Broadcasts ⟨3, ![a, b, c]⟩) (p : Fin a) (q : Fin b) (d : Fin c) :
    broadcastTo ⟨3, ![a, b, c]⟩ x h (ix3 p q d) = x (ix3 p q (0 : Fin 1)) := by
  refine broadcastTo_apply x h (ix3 p q d) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## Reductions along the last axis -/

/-- The index a reduction of [a, b, c] along its last axis lifts (p, q) to, with last coordinate r: (p, q, r). -/
theorem lift_last {a b c : ℕ} (h : (⟨3, ![a, b, c]⟩ : Shape).Reduces [2] ⟨2, ![a, b]⟩) (p : Fin a) (q : Fin b)
    (r : Fin ((⟨3, ![a, b, c]⟩ : Shape).size 2)) :
    h.lift (ix2 p q) r = ix3 p q (⟨r.val, r.isLt⟩ : Fin c) :=
  funext fun ax => Fin.ext (by
    match ax with
    | ⟨0, _⟩ => rfl
    | ⟨1, _⟩ => rfl
    | ⟨2, _⟩ => rfl)

/-- A sum along the last axis, at the extended reals, read at (p, q): the sum over d of the source at (p, q, d). -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ src acc h hφ hacc (ix2 p q) = ∑ d : Fin c, src (ix3 p q d) := by
  refine (Ideal.multiReduction_add_single src acc h hφ hacc (ix2 p q)).trans ?_
  show ∑ r : Fin c, src (h.lift (ix2 p q) r) = _
  exact Finset.sum_congr rfl fun r _ => congrArg src (lift_last h p q r)

/-- A maximum along the last axis, at the extended reals, read at (p, q): the fold of max, from the value the accumulator
    word denotes, over d of the source at (p, q, d). -/
theorem max_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (Ideal.ofBits φ acc) fun d => src (ix3 p q d) := by
  refine (Ideal.multiReduction_maximumf_single src acc h hφ hacc (ix2 p q)).trans ?_
  show (Finset.univ : Finset (Fin c)).fold max (Ideal.ofBits φ acc) (src ∘ h.lift (ix2 p q)) = _
  refine congrArg (fun f => (Finset.univ : Finset (Fin c)).fold max (Ideal.ofBits φ acc) f) (funext fun r => ?_)
  exact congrArg src (lift_last h p q r)

/-! ## Sixteen columns side by side -/

/-- Sixteen columns [a, b, 1] joined along the last axis into [a, b, 16] read, at (p, q, g), column g at (p, q, 0). The
    g-th column is named by the caller (`hxk`). -/
theorem join16_apply_piece {a b : ℕ} (c0 c1 c2 c3 c4 c5 c6 c7 c8 c9 c10 c11 c12 c13 c14 c15 : (⟨3, ![a, b, 1]⟩ : Shape).Idx → α)
    (h : Shape.Concatenates (([⟨⟨3, ![a, b, 1]⟩, c0⟩, ⟨⟨3, ![a, b, 1]⟩, c1⟩, ⟨⟨3, ![a, b, 1]⟩, c2⟩, ⟨⟨3, ![a, b, 1]⟩, c3⟩,
      ⟨⟨3, ![a, b, 1]⟩, c4⟩, ⟨⟨3, ![a, b, 1]⟩, c5⟩, ⟨⟨3, ![a, b, 1]⟩, c6⟩, ⟨⟨3, ![a, b, 1]⟩, c7⟩, ⟨⟨3, ![a, b, 1]⟩, c8⟩,
      ⟨⟨3, ![a, b, 1]⟩, c9⟩, ⟨⟨3, ![a, b, 1]⟩, c10⟩, ⟨⟨3, ![a, b, 1]⟩, c11⟩, ⟨⟨3, ![a, b, 1]⟩, c12⟩, ⟨⟨3, ![a, b, 1]⟩, c13⟩,
      ⟨⟨3, ![a, b, 1]⟩, c14⟩, ⟨⟨3, ![a, b, 1]⟩, c15⟩] : List ((s : Shape) × (s.Idx → α))).map (·.1)) ⟨3, ![a, b, 16]⟩ 2)
    (k : ℕ) (hk : k < 16) (xk : (⟨3, ![a, b, 1]⟩ : Shape).Idx → α)
    (hxk : ([⟨⟨3, ![a, b, 1]⟩, c0⟩, ⟨⟨3, ![a, b, 1]⟩, c1⟩, ⟨⟨3, ![a, b, 1]⟩, c2⟩, ⟨⟨3, ![a, b, 1]⟩, c3⟩,
      ⟨⟨3, ![a, b, 1]⟩, c4⟩, ⟨⟨3, ![a, b, 1]⟩, c5⟩, ⟨⟨3, ![a, b, 1]⟩, c6⟩, ⟨⟨3, ![a, b, 1]⟩, c7⟩, ⟨⟨3, ![a, b, 1]⟩, c8⟩,
      ⟨⟨3, ![a, b, 1]⟩, c9⟩, ⟨⟨3, ![a, b, 1]⟩, c10⟩, ⟨⟨3, ![a, b, 1]⟩, c11⟩, ⟨⟨3, ![a, b, 1]⟩, c12⟩, ⟨⟨3, ![a, b, 1]⟩, c13⟩,
      ⟨⟨3, ![a, b, 1]⟩, c14⟩, ⟨⟨3, ![a, b, 1]⟩, c15⟩] : List ((s : Shape) × (s.Idx → α)))[k]'hk = ⟨⟨3, ![a, b, 1]⟩, xk⟩)
    (p : Fin a) (q : Fin b) (g : Fin 16) (hg : g.val = k) :
    concatenate ⟨3, ![a, b, 16]⟩ 2 [⟨⟨3, ![a, b, 1]⟩, c0⟩, ⟨⟨3, ![a, b, 1]⟩, c1⟩, ⟨⟨3, ![a, b, 1]⟩, c2⟩, ⟨⟨3, ![a, b, 1]⟩, c3⟩,
      ⟨⟨3, ![a, b, 1]⟩, c4⟩, ⟨⟨3, ![a, b, 1]⟩, c5⟩, ⟨⟨3, ![a, b, 1]⟩, c6⟩, ⟨⟨3, ![a, b, 1]⟩, c7⟩, ⟨⟨3, ![a, b, 1]⟩, c8⟩,
      ⟨⟨3, ![a, b, 1]⟩, c9⟩, ⟨⟨3, ![a, b, 1]⟩, c10⟩, ⟨⟨3, ![a, b, 1]⟩, c11⟩, ⟨⟨3, ![a, b, 1]⟩, c12⟩, ⟨⟨3, ![a, b, 1]⟩, c13⟩,
      ⟨⟨3, ![a, b, 1]⟩, c14⟩, ⟨⟨3, ![a, b, 1]⟩, c15⟩] h (ix3 p q g) = xk (ix3 p q (0 : Fin 1)) := by
  refine concatenate_apply_piece (t := ⟨3, ![a, b, 16]⟩) (2 : Fin 3) _ h (ix3 p q g) k hk ⟨3, ![a, b, 1]⟩ xk hxk rfl
    k ?_ (ix3 p q (0 : Fin 1)) ?_ ?_
  · subst hg
    rcases g with ⟨g, hg16⟩
    dsimp only
    interval_cases g <;> simp
  · intro bx hb
    match bx with
    | ⟨0, _⟩ => rfl
    | ⟨1, _⟩ => rfl
    | ⟨2, _⟩ => exact absurd rfl hb
  · show k + 0 = g.val
    omega

end Cert.Lib.HeadLayout

end
-- ==== Proof.MhaPayloadsDots.lean ====
/-
  The two products of the attention body, read at an index.

  Both products carry one batch axis (the head): the result at head h reads only head h of either operand.
  Queries times keys contracts the 64 columns of a query row with the 64 columns of a key row, so its entry at
  (h, q, k) is ∑_d query(h, q, d) · key(h, k, d); weights times values contracts the 2048 key positions, so its entry at
  (h, q, d) is ∑_k w(h, q, k) · value(h, k, d). Each is a product into the zero accumulator; the sum over the one
  contracted axis is re-indexed by that axis's single coordinate.
-/
import proofs.«167251_j24584392802661_2_alg».proof.Proof.Gen.KernelIdeal.Skeleton
import proofs.«167251_j24584392802661_2_alg».proof.Proof.MhaSpec
import proofs.«167251_j24584392802661_2_alg».proof.Proof.LibSoftmaxSum
import proofs.«167251_j24584392802661_2_alg».proof.Proof.LibHeadLayout
import Idealize.ShloMosaic.Lib.ValueIdx
import Idealize.ShloMosaic.Lib.Pipeline.Value
import Idealize.ShloMosaic.PureOps.Ideal.Laws

noncomputable section

open scoped BigOperators

namespace Cert.Mha.Payload

open Idealize.ShloMosaic Idealize.ShloMosaic.ValueIdx Cert.KernelIdeal Cert.KernelIdeal.Gen Cert.SoftmaxSum
  Cert.Lib.HeadLayout

/-! ## The two products, head by head -/

section ScoreProduct

variable (j : S4x256x2048.Idx) (c : dot_S4x256x64_S4x2048x64_S4x256x2048_2_2_1_1_0_0.contr.Idx)

theorem qk_l0 : (dot_S4x256x64_S4x2048x64_S4x256x2048_2_2_1_1_0_0.lhsIdx j c 0).val = (j 0).val := by
  unfold DotDims.lhsIdx
  rw [dif_pos (show (0 : Fin S4x256x64.rank) ∈ dot_S4x256x64_S4x2048x64_S4x256x2048_2_2_1_1_0_0.lhsBatch by decide)]
  rfl
theorem qk_l1 : (dot_S4x256x64_S4x2048x64_S4x256x2048_2_2_1_1_0_0.lhsIdx j c 1).val = (j 1).val := by
  unfold DotDims.lhsIdx
  rw [dif_neg (show ¬(1 : Fin S4x256x64.rank) ∈ dot_S4x256x64_S4x2048x64_S4x256x2048_2_2_1_1_0_0.lhsBatch by decide),
    dif_pos (show (1 : Fin S4x256x64.rank) ∈ dot_S4x256x64_S4x2048x64_S4x256x2048_2_2_1_1_0_0.lhsNonContracting by decide)]
  rfl
theorem qk_l2 : (dot_S4x256x64_S4x2048x64_S4x256x2048_2_2_1_1_0_0.lhsIdx j c 2).val = (c ⟨0, by decide⟩).val :=
  dot_S4x256x64_S4x2048x64_S4x256x2048_2_2_1_1_0_0.lhsIdx_val_of_single rfl j c
theorem qk_r0 : (dot_S4x256x64_S4x2048x64_S4x256x2048_2_2_1_1_0_0.rhsIdx j c 0).val = (j 0).val := by
  unfold DotDims.rhsIdx
  rw [dif_pos (show (0 : Fin S4x2048x64.rank) ∈ dot_S4x256x64_S4x2048x64_S4x256x2048_2_2_1_1_0_0.rhsBatch by decide)]
  rfl
theorem qk_r1 : (dot_S4x256x64_S4x2048x64_S4x256x2048_2_2_1_1_0_0.rhsIdx j c 1).val = (j 2).val := by
  unfold DotDims.rhsIdx
  rw [dif_neg (show ¬(1 : Fin S4x2048x64.rank) ∈ dot_S4x256x64_S4x2048x64_S4x256x2048_2_2_1_1_0_0.rhsBatch by decide),
    dif_pos (show (1 : Fin S4x2048x64.rank) ∈ dot_S4x256x64_S4x2048x64_S4x256x2048_2_2_1_1_0_0.rhsNonContracting by decide)]
  rfl
theorem qk_r2 : (dot_S4x256x64_S4x2048x64_S4x256x2048_2_2_1_1_0_0.rhsIdx j c 2).val = (c ⟨0, by decide⟩).val :=
  dot_S4x256x64_S4x2048x64_S4x256x2048_2_2_1_1_0_0.rhsIdx_val_of_single rfl j c

end ScoreProduct

/-- Queries times keys, per head, into the zero accumulator: at (h, q, k) the sum over d of query(h, q, d) · key(h, k, d). -/
theorem qk_apply (a : FVec Ideal S4x256x64 .bf16) (b : FVec Ideal S4x2048x64 .bf16) (hb : Fin 4) (q : Fin 256) (k : Fin 2048) :
    matmul dot_S4x256x64_S4x2048x64_S4x256x2048_2_2_1_1_0_0 none a b (constant S4x256x2048 .f32 0x00000000#32) (ix3 hb q k)
      = ∑ d : Fin 64, a (ix3 hb q d) * b (ix3 hb k d) := by
  refine (Ideal.matmul_constant_zero_apply dot_S4x256x64_S4x2048x64_S4x256x2048_2_2_1_1_0_0 none a b (ix3 hb q k)).trans ?_
  rw [← Equiv.sum_comp (contrEquiv1 dot_S4x256x64_S4x2048x64_S4x256x2048_2_2_1_1_0_0 64 rfl rfl).symm]
  refine Finset.sum_congr rfl fun d _ => ?_
  have hk := contrEquiv1_symm_val dot_S4x256x64_S4x2048x64_S4x256x2048_2_2_1_1_0_0 64 rfl rfl d
  have el : dot_S4x256x64_S4x2048x64_S4x256x2048_2_2_1_1_0_0.lhsIdx (ix3 hb q k) ((contrEquiv1 dot_S4x256x64_S4x2048x64_S4x256x2048_2_2_1_1_0_0 64 rfl rfl).symm d) = ix3 hb q d :=
    funext fun ax => Fin.ext (by
      match ax with
      | ⟨0, _⟩ => exact qk_l0 _ _
      | ⟨1, _⟩ => exact qk_l1 _ _
      | ⟨2, _⟩ => exact (qk_l2 _ _).trans hk)
  have er : dot_S4x256x64_S4x2048x64_S4x256x2048_2_2_1_1_0_0.rhsIdx (ix3 hb q k) ((contrEquiv1 dot_S4x256x64_S4x2048x64_S4x256x2048_2_2_1_1_0_0 64 rfl rfl).symm d) = ix3 hb k d :=
    funext fun ax => Fin.ext (by
      match ax with
      | ⟨0, _⟩ => exact qk_r0 _ _
      | ⟨1, _⟩ => exact qk_r1 _ _
      | ⟨2, _⟩ => exact (qk_r2 _ _).trans hk)
  rw [el, er]

section ValueProduct

variable (j : S4x256x64.Idx) (c : dot_S4x256x2048_S4x2048x64_S4x256x64_2_1_1_2_0_0.contr.Idx)

theorem pv_l0 : (dot_S4x256x2048_S4x2048x64_S4x256x64_2_1_1_2_0_0.lhsIdx j c 0).val = (j 0).val := by
  unfold DotDims.lhsIdx
  rw [dif_pos (show (0 : Fin S4x256x2048.rank) ∈ dot_S4x256x2048_S4x2048x64_S4x256x64_2_1_1_2_0_0.lhsBatch by decide)]
  rfl
theorem pv_l1 : (dot_S4x256x2048_S4x2048x64_S4x256x64_2_1_1_2_0_0.lhsIdx j c 1).val = (j 1).val := by
  unfold DotDims.lhsIdx
  rw [dif_neg (show ¬(1 : Fin S4x256x2048.rank) ∈ dot_S4x256x2048_S4x2048x64_S4x256x64_2_1_1_2_0_0.lhsBatch by decide),
    dif_pos (show (1 : Fin S4x256x2048.rank) ∈ dot_S4x256x2048_S4x2048x64_S4x256x64_2_1_1_2_0_0.lhsNonContracting by decide)]
  rfl
theorem pv_l2 : (dot_S4x256x2048_S4x2048x64_S4x256x64_2_1_1_2_0_0.lhsIdx j c 2).val = (c ⟨0, by decide⟩).val :=
  dot_S4x256x2048_S4x2048x64_S4x256x64_2_1_1_2_0_0.lhsIdx_val_of_single rfl j c
theorem pv_r0 : (dot_S4x256x2048_S4x2048x64_S4x256x64_2_1_1_2_0_0.rhsIdx j c 0).val = (j 0).val := by
  unfold DotDims.rhsIdx
  rw [dif_pos (show (0 : Fin S4x2048x64.rank) ∈ dot_S4x256x2048_S4x2048x64_S4x256x64_2_1_1_2_0_0.rhsBatch by decide)]
  rfl
theorem pv_r1 : (dot_S4x256x2048_S4x2048x64_S4x256x64_2_1_1_2_0_0.rhsIdx j c 1).val = (c ⟨0, by decide⟩).val :=
  dot_S4x256x2048_S4x2048x64_S4x256x64_2_1_1_2_0_0.rhsIdx_val_of_single rfl j c
theorem pv_r2 : (dot_S4x256x2048_S4x2048x64_S4x256x64_2_1_1_2_0_0.rhsIdx j c 2).val = (j 2).val := by
  unfold DotDims.rhsIdx
  rw [dif_neg (show ¬(2 : Fin S4x2048x64.rank) ∈ dot_S4x256x2048_S4x2048x64_S4x256x64_2_1_1_2_0_0.rhsBatch by decide),
    dif_pos (show (2 : Fin S4x2048x64.rank) ∈ dot_S4x256x2048_S4x2048x64_S4x256x64_2_1_1_2_0_0.rhsNonContracting by decide)]
  rfl

end ValueProduct

/-- Weights times values, per head, into the zero accumulator: at (h, q, d) the sum over k of w(h, q, k) · value(h, k, d). -/
theorem pv_apply (w : FVec Ideal S4x256x2048 .bf16) (v : FVec Ideal S4x2048x64 .bf16) (hb : Fin 4) (q : Fin 256) (d : Fin 64) :
    matmul dot_S4x256x2048_S4x2048x64_S4x256x64_2_1_1_2_0_0 none w v (constant S4x256x64 .f32 0x00000000#32) (ix3 hb q d)
      = ∑ k : Fin 2048, w (ix3 hb q k) * v (ix3 hb k d) := by
  refine (Ideal.matmul_constant_zero_apply dot_S4x256x2048_S4x2048x64_S4x256x64_2_1_1_2_0_0 none w v (ix3 hb q d)).trans ?_
  rw [← Equiv.sum_comp (contrEquiv1 dot_S4x256x2048_S4x2048x64_S4x256x64_2_1_1_2_0_0 2048 rfl rfl).symm]
  refine Finset.sum_congr rfl fun k _ => ?_
  have hk := contrEquiv1_symm_val dot_S4x256x2048_S4x2048x64_S4x256x64_2_1_1_2_0_0 2048 rfl rfl k
  have el : dot_S4x256x2048_S4x2048x64_S4x256x64_2_1_1_2_0_0.lhsIdx (ix3 hb q d) ((contrEquiv1 dot_S4x256x2048_S4x2048x64_S4x256x64_2_1_1_2_0_0 2048 rfl rfl).symm k) = ix3 hb q k :=
    funext fun ax => Fin.ext (by
      match ax with
      | ⟨0, _⟩ => exact pv_l0 _ _
      | ⟨1, _⟩ => exact pv_l1 _ _
      | ⟨2, _⟩ => exact (pv_l2 _ _).trans hk)
  have er : dot_S4x256x2048_S4x2048x64_S4x256x64_2_1_1_2_0_0.rhsIdx (ix3 hb q d) ((contrEquiv1 dot_S4x256x2048_S4x2048x64_S4x256x64_2_1_1_2_0_0 2048 rfl rfl).symm k) = ix3 hb k d :=
    funext fun ax => Fin.ext (by
      match ax with
      | ⟨0, _⟩ => exact pv_r0 _ _
      | ⟨1, _⟩ => exact (pv_r1 _ _).trans hk
      | ⟨2, _⟩ => exact pv_r2 _ _)
  rw [el, er]

end Cert.Mha.Payload

end
-- ==== Proof.MhaPayloadsAttn.lean ====
/-
  The attention body, read at an index.

  One grid point holds, for four heads, a block of 256 query positions and all 2048 key positions; of a head's 192
  columns the first 64 are the queries, the next 64 the keys, the last 64 the values. For head h and query position q
  the body forms the scores s k = (∑_d query(q, d) · key(k, d)) · 1/8 against every key position k, their greatest
  entry (a maximum along the last axis from the word of -∞, which is the fold of max from ⊥), the exponentials
  exp (s k − peak s), their sum (a sum along the last axis from the zero word), the products of the exponentials with
  the values summed over k, and last the quotient of that sum by the sum of the exponentials. Changes of float format
  are the identity on extended reals, and the casts that drop or add the leading unit axis only re-index. So the stored
  value at (h, q, d) is

      (∑_k weight s k · value(k, d)) / mass s.
-/
import proofs.«167251_j24584392802661_2_alg».proof.Proof.MhaPayloadsDots

noncomputable section

open scoped BigOperators

namespace Cert.Mha.Payload

open Idealize.ShloMosaic Idealize.ShloMosaic.ValueIdx Cert.KernelIdeal Cert.KernelIdeal.Gen Cert.SoftmaxSum
  Cert.Lib.HeadLayout

/-! ## The three column ranges of a block -/

/-- The queries of a block of query positions: the first 64 columns, the leading unit axis dropped. -/
def qslice (v0 : FVec Ideal S1x4x256x192 .bf16) : FVec Ideal S4x256x64 .bf16 :=
  extractStridedSlice S4x256x64 ![0, 0, 0] (shapeCast S4x256x192 v0 shapeCasts_S1x4x256x192_S4x256x192)
    slices_S4x256x192_o0_0_0_S4x256x64

/-- The keys of a block of key positions: columns 64 to 127. -/
def kslice (v2 : FVec Ideal S1x4x2048x192 .bf16) : FVec Ideal S4x2048x64 .bf16 :=
  extractStridedSlice S4x2048x64 ![0, 0, 64] (shapeCast S4x2048x192 v2 shapeCasts_S1x4x2048x192_S4x2048x192)
    slices_S4x2048x192_o0_0_64_S4x2048x64

/-- The values: columns 128 to 191. -/
def vslice (v2 : FVec Ideal S1x4x2048x192 .bf16) : FVec Ideal S4x2048x64 .bf16 :=
  extractStridedSlice S4x2048x64 ![0, 0, 128] (shapeCast S4x2048x192 v2 shapeCasts_S1x4x2048x192_S4x2048x192)
    slices_S4x2048x192_o0_0_128_S4x2048x64

theorem qslice_apply (v0 : FVec Ideal S1x4x256x192 .bf16) (hb : Fin 4) (q : Fin 256) (d : Fin 64) :
    qslice v0 (ix3 hb q d) = v0 (ix4 (0 : Fin 1) hb q (qcol d)) := by
  unfold qslice
  refine (extractStridedSlice_apply _ _ slices_S4x256x192_o0_0_0_S4x256x64 (ix3 hb q d) (ix3 hb q (qcol d)) fun ax => ?_).trans ?_
  · match ax with
    | ⟨0, _⟩ => exact (Nat.zero_add _).symm
    | ⟨1, _⟩ => exact (Nat.zero_add _).symm
    | ⟨2, _⟩ => exact (Nat.zero_add _).symm
  · refine (shapeCast_dropUnit_apply ![4, 256, 192] v0 shapeCasts_S1x4x256x192_S4x256x192 (ix3 hb q (qcol d))).trans ?_
    exact congrArg v0 (funext fun ax => by
      match ax with
      | ⟨0, _⟩ => rfl
      | ⟨1, _⟩ => rfl
      | ⟨2, _⟩ => rfl
      | ⟨3, _⟩ => rfl)

theorem kslice_apply (v2 : FVec Ideal S1x4x2048x192 .bf16) (hb : Fin 4) (k : Fin 2048) (d : Fin 64) :
    kslice v2 (ix3 hb k d) = v2 (ix4 (0 : Fin 1) hb k (kcol d)) := by
  unfold kslice
  refine (extractStridedSlice_apply _ _ slices_S4x2048x192_o0_0_64_S4x2048x64 (ix3 hb k d) (ix3 hb k (kcol d)) fun ax => ?_).trans ?_
  · match ax with
    | ⟨0, _⟩ => exact (Nat.zero_add _).symm
    | ⟨1, _⟩ => exact (Nat.zero_add _).symm
    | ⟨2, _⟩ => rfl
  · refine (shapeCast_dropUnit_apply ![4, 2048, 192] v2 shapeCasts_S1x4x2048x192_S4x2048x192 (ix3 hb k (kcol d))).trans ?_
    exact congrArg v2 (funext fun ax => by
      match ax with
      | ⟨0, _⟩ => rfl
      | ⟨1, _⟩ => rfl
      | ⟨2, _⟩ => rfl
      | ⟨3, _⟩ => rfl)

theorem vslice_apply (v2 : FVec Ideal S1x4x2048x192 .bf16) (hb : Fin 4) (k : Fin 2048) (d : Fin 64) :
    vslice v2 (ix3 hb k d) = v2 (ix4 (0 : Fin 1) hb k (vcol d)) := by
  unfold vslice
  refine (extractStridedSlice_apply _ _ slices_S4x2048x192_o0_0_128_S4x2048x64 (ix3 hb k d) (ix3 hb k (vcol d)) fun ax => ?_).trans ?_
  · match ax with
    | ⟨0, _⟩ => exact (Nat.zero_add _).symm
    | ⟨1, _⟩ => exact (Nat.zero_add _).symm
    | ⟨2, _⟩ => rfl
  · refine (shapeCast_dropUnit_apply ![4, 2048, 192] v2 shapeCasts_S1x4x2048x192_S4x2048x192 (ix3 hb k (vcol d))).trans ?_
    exact congrArg v2 (funext fun ax => by
      match ax with
      | ⟨0, _⟩ => rfl
      | ⟨1, _⟩ => rfl
      | ⟨2, _⟩ => rfl
      | ⟨3, _⟩ => rfl)

/-! ## Scores, weights and mass as arrays -/

/-- The row of scores of head `hb` and query position `q` from the queries `a` and the keys `b`. -/
def rowScore (a : FVec Ideal S4x256x64 .bf16) (b : FVec Ideal S4x2048x64 .bf16) (hb : Fin 4) (q : Fin 256) : Fin 2048 → EReal :=
  fun k => (∑ d : Fin 64, a (ix3 hb q d) * b (ix3 hb k d)) * Ideal.ofBits .f32 0x3E000000#32

/-- The array of scores: the product into the zero accumulator, times the word of 1/8 everywhere. -/
def scoresV (a : FVec Ideal S4x256x64 .bf16) (b : FVec Ideal S4x2048x64 .bf16) : FVec Ideal S4x256x2048 .f32 :=
  mulf (matmul dot_S4x256x64_S4x2048x64_S4x256x2048_2_2_1_1_0_0 none a b (constant S4x256x2048 .f32 0x00000000#32))
    (broadcast S4x256x2048 (Scalar.ofBits .f32 0x3E000000#32))

theorem scoresV_apply (a : FVec Ideal S4x256x64 .bf16) (b : FVec Ideal S4x2048x64 .bf16) (hb : Fin 4) (q : Fin 256) (k : Fin 2048) :
    scoresV a b (ix3 hb q k) = rowScore a b hb q k :=
  congrArg (· * Ideal.ofBits .f32 0x3E000000#32) (qk_apply a b hb q k)

/-- The greatest entry along the last axis, from the word of -∞, is the peak of the row. -/
theorem rowMax_apply (s : FVec Ideal S4x256x2048 .f32) (hb : Fin 4) (q : Fin 256) :
    multiReduction .maximumf [2] S4x256 s 0xFF800000#32 reduces_S4x256x2048_S4x256 (.inl rfl) rfl (ix2 hb q)
      = peak (fun k : Fin 2048 => s (ix3 hb q k)) := by
  refine (max_last_apply s 0xFF800000#32 reduces_S4x256x2048_S4x256 (.inl rfl) rfl hb q).trans ?_
  rw [ofBits_neg_inf]
  rfl

/-- The array of exponentials of the scores' distances below their row's greatest entry. -/
def expV (s : FVec Ideal S4x256x2048 .f32) : FVec Ideal S4x256x2048 .f32 :=
  exp (subf s (broadcastTo S4x256x2048
    (shapeCast S4x256x1 (multiReduction .maximumf [2] S4x256 s 0xFF800000#32 reduces_S4x256x2048_S4x256 (.inl rfl) rfl)
      shapeCasts_S4x256_S4x256x1) broadcasts_S4x256x1_S4x256x2048))

theorem expV_apply (s : FVec Ideal S4x256x2048 .f32) (hb : Fin 4) (q : Fin 256) (k : Fin 2048) :
    expV s (ix3 hb q k) = weight (fun k' : Fin 2048 => s (ix3 hb q k')) k := by
  show Ideal.exp (s (ix3 hb q k) - broadcastTo S4x256x2048
    (shapeCast S4x256x1 (multiReduction .maximumf [2] S4x256 s 0xFF800000#32 reduces_S4x256x2048_S4x256 (.inl rfl) rfl)
      shapeCasts_S4x256_S4x256x1) broadcasts_S4x256x1_S4x256x2048 (ix3 hb q k))
    = Ideal.exp (s (ix3 hb q k) - peak (fun k' : Fin 2048 => s (ix3 hb q k')))
  refine congrArg (fun t => Ideal.exp (s (ix3 hb q k) - t)) ?_
  exact (bcast_last_apply _ broadcasts_S4x256x1_S4x256x2048 hb q k).trans
    ((add_last_apply _ shapeCasts_S4x256_S4x256x1 hb q (0 : Fin 1)).trans (rowMax_apply s hb q))

/-- The row sums of an array, stretched over the 64 value columns. -/
def massV (e : FVec Ideal S4x256x2048 .f32) : FVec Ideal S4x256x64 .f32 :=
  broadcastTo S4x256x64
    (shapeCast S4x256x1 (multiReduction .add [2] S4x256 e 0x00000000#32 reduces_S4x256x2048_S4x256 (.inl rfl) rfl)
      shapeCasts_S4x256_S4x256x1) broadcasts_S4x256x1_S4x256x64

theorem massV_apply (e : FVec Ideal S4x256x2048 .f32) (hb : Fin 4) (q : Fin 256) (d : Fin 64) :
    massV e (ix3 hb q d) = ∑ k : Fin 2048, e (ix3 hb q k) :=
  (bcast_last_apply _ broadcasts_S4x256x1_S4x256x64 hb q d).trans
    ((add_last_apply _ shapeCasts_S4x256_S4x256x1 hb q (0 : Fin 1)).trans
      (sum_last_apply e 0x00000000#32 reduces_S4x256x2048_S4x256 (.inl rfl) rfl hb q))

/-! ## The body from its three column ranges -/

/-- The body as a function of the queries, keys and values of the block. -/
def core (a : FVec Ideal S4x256x64 .bf16) (b c : FVec Ideal S4x2048x64 .bf16) : FVec Ideal S4x256x64 .bf16 :=
  truncf .bf16 (divf
    (matmul dot_S4x256x2048_S4x2048x64_S4x256x64_2_1_1_2_0_0 none (truncf .bf16 (expV (scoresV a b)) bitsLt_bf16_f32) c (constant S4x256x64 .f32 0x00000000#32))
    (massV (expV (scoresV a b)))) bitsLt_bf16_f32

theorem core_apply (a : FVec Ideal S4x256x64 .bf16) (b c : FVec Ideal S4x2048x64 .bf16) (hb : Fin 4) (q : Fin 256) (d : Fin 64) :
    core a b c (ix3 hb q d)
      = Ideal.div (∑ k : Fin 2048, weight (rowScore a b hb q) k * c (ix3 hb k d)) (mass (rowScore a b hb q)) := by
  have hw : ∀ k : Fin 2048, expV (scoresV a b) (ix3 hb q k) = weight (rowScore a b hb q) k := fun k =>
    (expV_apply (scoresV a b) hb q k).trans
      (congrArg (fun s => weight s k) (funext fun k' => scoresV_apply a b hb q k'))
  show Ideal.div
    (matmul dot_S4x256x2048_S4x2048x64_S4x256x64_2_1_1_2_0_0 none (truncf .bf16 (expV (scoresV a b)) bitsLt_bf16_f32 : FVec Ideal S4x256x2048 .bf16) c
      (constant S4x256x64 .f32 0x00000000#32) (ix3 hb q d))
    (massV (expV (scoresV a b)) (ix3 hb q d)) = _
  refine congrArg₂ Ideal.div ?_ ?_
  · refine (pv_apply _ c hb q d).trans ?_
    exact Finset.sum_congr rfl fun k _ => congrArg (· * c (ix3 hb k d)) (hw k)
  · refine (massV_apply _ hb q d).trans ?_
    exact Finset.sum_congr rfl fun k _ => hw k

/-! ## The body of the attention kernel -/

/-- The scores of head `hb` and query position `q` of the block against every key position, from the two blocks. -/
def headScore (v0 : Vec Ideal S1x4x256x192 .bf16) (v2 : Vec Ideal S1x4x2048x192 .bf16) (hb : Fin 4) (q : Fin 256) :
    Fin 2048 → EReal :=
  fun k => (∑ d' : Fin 64, v0 (ix4 (0 : Fin 1) hb q (qcol d')) * v2 (ix4 (0 : Fin 1) hb k (kcol d')))
    * Ideal.ofBits .f32 0x3E000000#32

theorem headScore_apply (v0 : Vec Ideal S1x4x256x192 .bf16) (v2 : Vec Ideal S1x4x2048x192 .bf16) (hb : Fin 4) (q : Fin 256)
    (k : Fin 2048) :
    headScore v0 v2 hb q k = (∑ d' : Fin 64, v0 (ix4 (0 : Fin 1) hb q (qcol d')) * v2 (ix4 (0 : Fin 1) hb k (kcol d')))
      * Ideal.ofBits .f32 0x3E000000#32 := rfl

/-- The body is `core` of the three column ranges, with the leading unit axis put back. -/
theorem k1_pay1_eq (v0 : Vec Ideal S1x4x256x192 .bf16) (v2 : Vec Ideal S1x4x2048x192 .bf16) :
    k1_pay1 v0 v2 = shapeCast S1x4x256x64 (core (qslice v0) (kslice v2) (vslice v2)) shapeCasts_S4x256x64_S1x4x256x64 := rfl

/-- The attention body at head `hb`, query position `q`, value column `d`: the weighted sum of the values divided once
    by the mass. -/
theorem k1_pay1_apply (v0 : Vec Ideal S1x4x256x192 .bf16) (v2 : Vec Ideal S1x4x2048x192 .bf16) (hb : Fin 4) (q : Fin 256)
    (d : Fin 64) :
    k1_pay1 v0 v2 (ix4 (0 : Fin 1) hb q d)
      = Ideal.div (∑ k : Fin 2048, weight (headScore v0 v2 hb q) k * v2 (ix4 (0 : Fin 1) hb k (vcol d)))
          (mass (headScore v0 v2 hb q)) := by
  rw [k1_pay1_eq]
  refine (shapeCast_addUnit_apply ![4, 256, 64] _ shapeCasts_S4x256x64_S1x4x256x64 (ix4 (0 : Fin 1) hb q d)).trans ?_
  have hi : (fun a : Fin 3 => ix4 (0 : Fin 1) hb q d a.succ) = ix3 hb q d := funext fun ax => by
    match ax with
    | ⟨0, _⟩ => rfl
    | ⟨1, _⟩ => rfl
    | ⟨2, _⟩ => rfl
  refine (congrArg (core (qslice v0) (kslice v2) (vslice v2)) hi).trans ?_
  refine (core_apply _ _ _ hb q d).trans ?_
  have hs : rowScore (qslice v0) (kslice v2) hb q = headScore v0 v2 hb q := funext fun k =>
    congrArg (· * Ideal.ofBits .f32 0x3E000000#32)
      (Finset.sum_congr rfl fun d' _ => congrArg₂ (· * ·) (qslice_apply v0 hb q d') (kslice_apply v2 hb k d'))
  rw [hs]
  exact congrArg (fun t => Ideal.div t (mass (headScore v0 v2 hb q)))
    (Finset.sum_congr rfl fun k _ => congrArg (weight (headScore v0 v2 hb q) k * ·) (vslice_apply v2 hb k d))

end Cert.Mha.Payload

end
-- ==== Proof.MhaRegionValue1.lean ====
/-
  What the attention region leaves in its output array, as one function of the whole array it read.

  The array read is the projection on the grouped layout [8, 4, 2048, 192] (8 groups of 4 heads). The grid has 8 × 8
  points; point t is group g = t / 8 and query tile qi = t mod 8. At point t the first window is the 256 query rows
  256·qi … 256·qi + 255 of the four heads of group g, the second window ALL 2048 rows of the same four heads (both
  windows of the same array), and the output window the same 256 rows of the four heads of group g of the
  [8, 4, 2048, 64] result. The body stores at head hb, row q and column d of its block the weighted sum of the values
  divided once by the mass, for the scores of the first window's row q against every row of the second window. An element
  of a block sits in its array, on each axis, at the block index times the block's size plus its own coordinate: the
  first window's row q is row 256·qi + q of the array, the second window's row k is row k, so the block's scores are the
  array's scores `grpScore Y g hb (256·qi + q)` and what point t writes back is its block of `grpAttn Y`: ONE function of
  the array, whatever the point. The index (g, h, r, d) of the result lies in the block of point 8·g + r / 256, so after
  the last point the array holds `grpAttn Y`.
-/
import proofs.«167251_j24584392802661_2_alg».proof.Proof.KiRegion1
import proofs.«167251_j24584392802661_2_alg».proof.Proof.MhaStages
import proofs.«167251_j24584392802661_2_alg».proof.Proof.MhaPayloadsAttn
import Idealize.ShloMosaic.Lib.Pipeline.Value

noncomputable section

open scoped BigOperators

namespace Cert.Mha.RegionValue

open Cert.KernelIdeal Cert.KernelIdeal.Gen Cert.KernelIdeal.Hand Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

open Cert.SoftmaxSum Cert.Mha.Payload

/-- The printed index maps over the grid's 64 points: the group is the point's quotient by 8 on all three windows, the
    query tile its remainder on the first window and on the output, every other block index is zero. -/
theorem idx_facts1 : ∀ t : Fin cfg1.N,
    win1_0.index t (0 : Fin 4) = t.val / 8 ∧ win1_0.index t (1 : Fin 4) = 0
    ∧ win1_0.index t (2 : Fin 4) = t.val % 8 ∧ win1_0.index t (3 : Fin 4) = 0
    ∧ win1_1.index t (0 : Fin 4) = t.val / 8 ∧ win1_1.index t (1 : Fin 4) = 0
    ∧ win1_1.index t (2 : Fin 4) = 0 ∧ win1_1.index t (3 : Fin 4) = 0
    ∧ win1_2.index t (0 : Fin 4) = t.val / 8 ∧ win1_2.index t (1 : Fin 4) = 0
    ∧ win1_2.index t (2 : Fin 4) = t.val % 8 ∧ win1_2.index t (3 : Fin 4) = 0 :=
  (by decide +kernel : ∀ t : Fin grid1.N, _)

/-- The first window's block at point `t`: rows 256·(t mod 8) … of the four heads of group t / 8. -/
theorem iblk1_0_apply (c : Dev nD) (t : Fin cfg1.N) (hb : Fin 4) (q : Fin 256) (col : Fin 192) (i : S8x4x2048x192.Idx)
    (h0 : (i 0).val = t.val / 8) (h1 : (i 1).val = hb.val) (h2 : (i 2).val = t.val % 8 * 256 + q.val)
    (h3 : (i 3).val = col.val) :
    (iblk1 V c 0 t : Vec Ideal S1x4x256x192 .bf16) (ix4 0 hb q col) = (V c main_v6 : S8x4x2048x192.Idx → EReal) i := by
  obtain ⟨e0, e1, e2, e3, -⟩ := idx_facts1 t
  unfold iblk1
  rw [View.read_apply]
  show V c main_v6 _ = V c main_v6 _
  congr 1
  funext a
  apply Fin.ext
  match a with
  | ⟨0, _⟩ => show win1_0.index t (0 : Fin 4) * 1 + 1 * 0 = (i 0).val; rw [e0, h0]; omega
  | ⟨1, _⟩ => show win1_0.index t (1 : Fin 4) * 4 + 1 * hb.val = (i 1).val; rw [e1, h1]; omega
  | ⟨2, _⟩ => show win1_0.index t (2 : Fin 4) * 256 + 1 * q.val = (i 2).val; rw [e2, h2]; omega
  | ⟨3, _⟩ => show win1_0.index t (3 : Fin 4) * 192 + 1 * col.val = (i 3).val; rw [e3, h3]; omega

/-- The second window's block at point `t`: all rows of the four heads of group t / 8. -/
theorem iblk1_1_apply (c : Dev nD) (t : Fin cfg1.N) (hb : Fin 4) (k : Fin 2048) (col : Fin 192) (i : S8x4x2048x192.Idx)
    (h0 : (i 0).val = t.val / 8) (h1 : (i 1).val = hb.val) (h2 : (i 2).val = k.val) (h3 : (i 3).val = col.val) :
    (iblk1 V c 1 t : Vec Ideal S1x4x2048x192 .bf16) (ix4 0 hb k col) = (V c main_v6 : S8x4x2048x192.Idx → EReal) i := by
  obtain ⟨-, -, -, -, e0, e1, e2, e3, -⟩ := idx_facts1 t
  unfold iblk1
  rw [View.read_apply]
  show V c main_v6 _ = V c main_v6 _
  congr 1
  funext a
  apply Fin.ext
  match a with
  | ⟨0, _⟩ => show win1_1.index t (0 : Fin 4) * 1 + 1 * 0 = (i 0).val; rw [e0, h0]; omega
  | ⟨1, _⟩ => show win1_1.index t (1 : Fin 4) * 4 + 1 * hb.val = (i 1).val; rw [e1, h1]; omega
  | ⟨2, _⟩ => show win1_1.index t (2 : Fin 4) * 2048 + 1 * k.val = (i 2).val; rw [e2, h2]; omega
  | ⟨3, _⟩ => show win1_1.index t (3 : Fin 4) * 192 + 1 * col.val = (i 3).val; rw [e3, h3]; omega

/-- The block's scores at point `t` are the array's scores of the row the block's row is. -/
theorem headScore_eq (c : Dev nD) (t : Fin cfg1.N) (hb : Fin 4) (q : Fin 256) (g : Fin 8) (h : Fin 4) (r : Fin 2048)
    (hg : g.val = t.val / 8) (hh : h.val = hb.val) (hr : r.val = t.val % 8 * 256 + q.val) :
    headScore (iblk1 V c 0 t) (iblk1 V c 1 t) hb q = grpScore (V c main_v6) g h r := by
  funext k
  unfold headScore grpScore
  refine congrArg (· * Ideal.ofBits .f32 0x3E000000#32) (Finset.sum_congr rfl fun d' _ => congrArg₂ (· * ·) ?_ ?_)
  · exact iblk1_0_apply V c t hb q (qcol d') (ix4 g h r (qcol d')) hg hh hr rfl
  · exact iblk1_1_apply V c t hb k (kcol d') (ix4 g h k (kcol d')) hg hh rfl rfl

/-- WHAT POINT `t` WRITES BACK is its block of `grpAttn` of the array as the region finds it. -/
theorem flushed1_eq (c : Dev nD) (t : Fin cfg1.N) :
    (dat1 V c).flushed 2 t = ((cfg1.win 2).blk t).view.read (Elt Ideal) (grpAttn (V c main_v6)) := by
  show (cfg1.win 2).cut (grid1.coords t) ((dat1 V c).after 2 t) = _
  rw [after1_2]
  unfold out1_2
  obtain ⟨-, -, -, -, -, -, -, -, e0, e1, e2, e3⟩ := idx_facts1 t
  funext j
  obtain ⟨z, hb, q, d, rfl⟩ : ∃ (z : Fin 1) (hb : Fin 4) (q : Fin 256) (d : Fin 64), j = ix4 z hb q d :=
    ⟨j 0, j 1, j 2, j 3, eq_ix4 j⟩
  obtain rfl : z = 0 := Subsingleton.elim _ _
  rw [View.read_apply]
  refine (k1_pay1_apply (iblk1 V c 0 t) (iblk1 V c 1 t) hb q d).trans ?_
  have hg : ((((cfg1.win 2).blk t).view.emb (ix4 0 hb q d)) 0).val = t.val / 8 := by
    show win1_2.index t (0 : Fin 4) * 1 + 1 * 0 = _; rw [e0]; omega
  have hh : ((((cfg1.win 2).blk t).view.emb (ix4 0 hb q d)) 1).val = hb.val := by
    show win1_2.index t (1 : Fin 4) * 4 + 1 * hb.val = _; rw [e1]; omega
  have hr : ((((cfg1.win 2).blk t).view.emb (ix4 0 hb q d)) 2).val = t.val % 8 * 256 + q.val := by
    show win1_2.index t (2 : Fin 4) * 256 + 1 * q.val = _; rw [e2]; omega
  have hd : ((((cfg1.win 2).blk t).view.emb (ix4 0 hb q d)) 3).val = d.val := by
    show win1_2.index t (3 : Fin 4) * 64 + 1 * d.val = _; rw [e3]; omega
  unfold grpAttn
  rw [headScore_eq V c t hb q _ _ _ hg hh hr]
  refine congrArg (Ideal.div · _) (Finset.sum_congr rfl fun k _ => congrArg₂ (· * ·) rfl ?_)
  refine iblk1_1_apply V c t hb k (vcol d) _ hg hh rfl ?_
  show 128 + _ = 128 + d.val
  rw [hd]

/-- An index of the result is in point `t`'s block iff each coordinate is in the block's range on its axis. -/
theorem mem_blk1 (t : Fin cfg1.N) (i : S8x4x2048x64.Idx) :
    i ∈ ((cfg1.win 2).blk t).view.set ↔ ∀ a : Fin 4, win1_2.index t a * S1x4x256x64.size a ≤ (i a).val
      ∧ (i a).val < win1_2.index t a * S1x4x256x64.size a + S1x4x256x64.size a := by
  show i ∈ ((View.whole main_v7).slice (win1_2.rect t)).set ↔ _
  rw [View.set_slice_whole, Rect.mem_set_unit]
  exact Iff.rfl

/-- The index (g, h, r, d) of the result lies in the block of point 8·g + r / 256. -/
theorem cover1 (i : S8x4x2048x64.Idx) :
    ∃ t : Fin cfg1.N, (cfg1.win 2).flush t = true ∧ i ∈ ((cfg1.win 2).blk t).view.set := by
  have hi0 : (i 0).val < 8 := (i 0).isLt
  have hi1 : (i 1).val < 4 := (i 1).isLt
  have hi2 : (i 2).val < 2048 := (i 2).isLt
  have hi3 : (i 3).val < 64 := (i 3).isLt
  have hN : cfg1.N = 64 := N_1
  refine ⟨⟨(i 0).val * 8 + (i 2).val / 256, by omega⟩, flush1_2 _, ?_⟩
  obtain ⟨-, -, -, -, -, -, -, -, e0, e1, e2, e3⟩ := idx_facts1 ⟨(i 0).val * 8 + (i 2).val / 256, by omega⟩
  rw [mem_blk1]
  intro a
  match a with
  | ⟨0, _⟩ =>
    show win1_2.index _ (0 : Fin 4) * 1 ≤ (i 0).val ∧ (i 0).val < win1_2.index _ (0 : Fin 4) * 1 + 1
    rw [e0]; show ((i 0).val * 8 + (i 2).val / 256) / 8 * 1 ≤ (i 0).val ∧ (i 0).val < ((i 0).val * 8 + (i 2).val / 256) / 8 * 1 + 1
    omega
  | ⟨1, _⟩ =>
    show win1_2.index _ (1 : Fin 4) * 4 ≤ (i 1).val ∧ (i 1).val < win1_2.index _ (1 : Fin 4) * 4 + 4
    rw [e1]; omega
  | ⟨2, _⟩ =>
    show win1_2.index _ (2 : Fin 4) * 256 ≤ (i 2).val ∧ (i 2).val < win1_2.index _ (2 : Fin 4) * 256 + 256
    rw [e2]; show ((i 0).val * 8 + (i 2).val / 256) % 8 * 256 ≤ (i 2).val ∧ (i 2).val < ((i 0).val * 8 + (i 2).val / 256) % 8 * 256 + 256
    omega
  | ⟨3, _⟩ =>
    show win1_2.index _ (3 : Fin 4) * 64 ≤ (i 3).val ∧ (i 3).val < win1_2.index _ (3 : Fin 4) * 64 + 64
    rw [e3]; omega

/-- THE ARRAY after the region: `grpAttn` of the array the region read. -/
theorem attn1_eq (c : Dev nD) : (dat1 V c).arrAt 2 cfg1.N = grpAttn (V c main_v6) :=
  (dat1 V c).arrAt_eq_of_cover 2 (grpAttn (V c main_v6)) (fun t _ => flushed1_eq V c t) cover1

end Cert.Mha.RegionValue

end
-- ==== Proof.MhaRegionValue2.lean ====
/-
  What the second projection's region leaves in its output array, as one function of the whole arrays it read.

  The grid has 8 points. At point t the input window is rows 512·t … 512·t + 511 of the [4096, 1024] merged attention,
  the weight window is the whole [1024, 1024] matrix, the bias window the whole vector of 1024 entries, and the output
  window rows 512·t … 512·t + 511 of the [4096, 1024] result. The body stores at row p and column n of its block the sum
  over e of input(p, e)·weight(e, n) plus bias(n); an element of a block sits in its array, on each axis, at the block
  index times the block's size plus its own coordinate, so what point t writes back is rows 512·t … 512·t + 511 of
  `lin X W b`: ONE function of the arrays, whatever the point. Every row r of the result lies in the block of point
  r / 512, so after the last point the array holds `lin X W b`.
-/
import proofs.«167251_j24584392802661_2_alg».proof.Proof.KiRegion2
import proofs.«167251_j24584392802661_2_alg».proof.Proof.MhaStages
import proofs.«167251_j24584392802661_2_alg».proof.Proof.MhaPayloadsLinear
import Idealize.ShloMosaic.Lib.Pipeline.Value

noncomputable section

open scoped BigOperators

namespace Cert.Mha.RegionValue

open Cert.KernelIdeal Cert.KernelIdeal.Gen Cert.KernelIdeal.Hand Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

/-- The printed index maps over the grid's 8 points: the input's and the output's row block is the point, every other
    block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The input window's block at point `t` is rows 512·t … 512·t + 511 of the input. -/
theorem iblk2_0_apply (c : Dev nD) (t : Fin cfg2.N) (p : Fin 512) (e : Fin 1024) (i : S4096x1024.Idx)
    (h0 : (i 0).val = t.val * 512 + p.val) (h1 : (i 1).val = e.val) :
    (iblk2 V c 0 t : Vec Ideal S512x1024 .bf16) (ix2 p e) = (V c main_v12 : S4096x1024.Idx → EReal) i := by
  obtain ⟨e0, e1, -⟩ := idx_facts2 t
  unfold iblk2
  rw [View.read_apply]
  show V c main_v12 _ = V c main_v12 _
  congr 1
  funext a
  apply Fin.ext
  match a with
  | ⟨0, _⟩ => show win2_0.index t (0 : Fin 2) * 512 + 1 * p.val = (i 0).val; rw [e0, h0]; omega
  | ⟨1, _⟩ => show win2_0.index t (1 : Fin 2) * 1024 + 1 * e.val = (i 1).val; rw [e1, h1]; omega

/-- The weight window's block at any point is the whole matrix. -/
theorem iblk2_1_apply (c : Dev nD) (t : Fin cfg2.N) (e : Fin 1024) (f : Fin 1024) (i : S1024x1024.Idx)
    (h0 : (i 0).val = e.val) (h1 : (i 1).val = f.val) :
    (iblk2 V c 1 t : Vec Ideal S1024x1024 .bf16) (ix2 e f) = (V c main_v13 : S1024x1024.Idx → EReal) i := by
  obtain ⟨-, -, e0, e1, -⟩ := idx_facts2 t
  unfold iblk2
  rw [View.read_apply]
  show V c main_v13 _ = V c main_v13 _
  congr 1
  funext a
  apply Fin.ext
  match a with
  | ⟨0, _⟩ => show win2_1.index t (0 : Fin 2) * 1024 + 1 * e.val = (i 0).val; rw [e0, h0]; omega
  | ⟨1, _⟩ => show win2_1.index t (1 : Fin 2) * 1024 + 1 * f.val = (i 1).val; rw [e1, h1]; omega

/-- The bias window's block at any point is the whole vector. -/
theorem iblk2_2_apply (c : Dev nD) (t : Fin cfg2.N) (f : Fin 1024) (i : S1024.Idx) (h0 : (i 0).val = f.val) :
    (iblk2 V c 2 t : Vec Ideal S1024 .f32) (ix1 f) = (V c main_arg4 : S1024.Idx → EReal) i := by
  obtain ⟨-, -, -, -, e0, -⟩ := idx_facts2 t
  unfold iblk2
  rw [View.read_apply]
  show V c main_arg4 _ = V c main_arg4 _
  congr 1
  funext a
  apply Fin.ext
  match a with
  | ⟨0, _⟩ => show win2_2.index t (0 : Fin 1) * 1024 + 1 * f.val = (i 0).val; rw [e0, h0]; omega

/-- WHAT POINT `t` WRITES BACK is its block of rows of `lin` of the arrays as the region finds them. -/
theorem flushed2_eq (c : Dev nD) (t : Fin cfg2.N) :
    (dat2 V c).flushed 3 t
      = ((cfg2.win 3).blk t).view.read (Elt Ideal) (lin (V c main_v12) (V c main_v13) (V c main_arg4)) := by
  show (cfg2.win 3).cut (grid2.coords t) ((dat2 V c).after 3 t) = _
  rw [after2_3]
  unfold out2_3
  obtain ⟨-, -, -, -, -, e0, e1⟩ := idx_facts2 t
  funext j
  obtain ⟨p, f, rfl⟩ : ∃ (p : Fin 512) (f : Fin 1024), j = ix2 p f := ⟨j 0, j 1, eq_ix2 j⟩
  rw [View.read_apply]
  refine (Cert.Mha.Payload.k2_pay1_apply (iblk2 V c 0 t) (iblk2 V c 1 t) (iblk2 V c 2 t) p f).trans ?_
  have hr : ((((cfg2.win 3).blk t).view.emb (ix2 p f)) 0).val = t.val * 512 + p.val := by
    show win2_3.index t (0 : Fin 2) * 512 + 1 * p.val = _; rw [e0]; omega
  have hc : ((((cfg2.win 3).blk t).view.emb (ix2 p f)) 1).val = f.val := by
    show win2_3.index t (1 : Fin 2) * 1024 + 1 * f.val = _; rw [e1]; omega
  unfold lin
  refine congrArg₂ (· + ·) (Finset.sum_congr rfl fun e _ => congrArg₂ (· * ·) ?_ ?_) ?_
  · exact iblk2_0_apply V c t p e _ hr rfl
  · exact iblk2_1_apply V c t e f _ rfl hc
  · exact iblk2_2_apply V c t f _ hc

/-- An index of the result is in point `t`'s block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v14).slice (win2_3.rect t)).set ↔ _
  rw [View.set_slice_whole, Rect.mem_set_unit]
  exact Iff.rfl

/-- Row r of the result lies in the block of point r / 512. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  refine ⟨⟨(i 0).val / 512, by omega⟩, flush2_3 _, ?_⟩
  obtain ⟨-, -, -, -, -, e0, e1⟩ := idx_facts2 ⟨(i 0).val / 512, by omega⟩
  rw [mem_blk2]
  intro a
  match a with
  | ⟨0, _⟩ =>
    show win2_3.index _ (0 : Fin 2) * 512 ≤ (i 0).val ∧ (i 0).val < win2_3.index _ (0 : Fin 2) * 512 + 512
    rw [e0]; show (i 0).val / 512 * 512 ≤ (i 0).val ∧ (i 0).val < (i 0).val / 512 * 512 + 512; omega
  | ⟨1, _⟩ =>
    show win2_3.index _ (1 : Fin 2) * 1024 ≤ (i 1).val ∧ (i 1).val < win2_3.index _ (1 : Fin 2) * 1024 + 1024
    rw [e1]; omega

/-- THE ARRAY after the region: `lin` of the three arrays the region read. -/
theorem proj2_eq (c : Dev nD) :
    (dat2 V c).arrAt 3 cfg2.N = lin (V c main_v12) (V c main_v13) (V c main_arg4) :=
  (dat2 V c).arrAt_eq_of_cover 3 (lin (V c main_v12) (V c main_v13) (V c main_arg4))
    (fun t _ => flushed2_eq V c t) cover2

end Cert.Mha.RegionValue

end
-- ==== Proof.MhaKernelValue.lean ====
/-
  The kernel program's result array, from the launch memory.

  Reading the boundaries' contents backwards: the result is the second projection's output with its rows split; that region read
  the merged attention array, the output weights and bias; the merged array is the attention region's output re-read head by head,
  heads moved behind positions and flattened; the attention region read the first projection's output re-read as heads and then
  as groups of heads; the first projection's region read the input with its rows merged, the weights and the bias. A change of
  float format between the stages is the identity on extended reals. Put together this is the specification's `afterSum`.
-/
import proofs.«167251_j24584392802661_2_alg».proof.Proof.KiRun
import proofs.«167251_j24584392802661_2_alg».proof.Proof.MhaLayout
import proofs.«167251_j24584392802661_2_alg».proof.Proof.MhaCompose
import proofs.«167251_j24584392802661_2_alg».proof.Proof.MhaRegionValue0
import proofs.«167251_j24584392802661_2_alg».proof.Proof.MhaRegionValue1
import proofs.«167251_j24584392802661_2_alg».proof.Proof.MhaRegionValue2

set_option maxRecDepth 16384

noncomputable section

open scoped BigOperators

namespace Cert.Mha.KernelValue

open Idealize.ShloMosaic Idealize.ShloMosaic.TcCoe Idealize.ShloMosaic.ValueIdx Idealize.SL.Sem
open Cert.KernelIdeal Cert.KernelIdeal.Gen Cert.KernelIdeal.Hand Cert.Mha Cert.Mha.RegionValue

/-! ## The host stretches, over ANY contents of the buffers before them

Each reading is stated for an arbitrary valuation, so that nothing about how the contents came to be is ever opened. -/

section Stretches

variable (Wv : Valuation τ sig (Elt Ideal))

/-- The first stretch merges the input's rows, -/
theorem stretch0_x : StableHlo.after hostOps0 Wv (Proc.devRef .tc main_v0)
    = shapeCast S4096x1024 (Wv (Proc.devRef .tc main_arg0)) shapeCasts_S2x2048x1024_S4096x1024 := by
  after_results
  rfl
/-- and changes the first weights' float format, the identity on extended reals. -/
theorem stretch0_w : StableHlo.after hostOps0 Wv (Proc.devRef .tc main_v1) = Wv (Proc.devRef .tc main_arg1) := by
  after_results
  rfl

/-- One reshape of the second stretch, over any contents. -/
theorem reshape1_0 : StableHlo.after [StableHlo.reshape main_v2 main_v3 rfl shapeCasts_S4096x3072_S2x2048x3072] Wv (Proc.devRef .tc main_v3)
    = shapeCast S2x2048x3072 (Wv (Proc.devRef .tc main_v2)) shapeCasts_S4096x3072_S2x2048x3072 := by
  after_results
  rfl
/-- One reshape of the second stretch, over any contents. -/
theorem reshape1_1 : StableHlo.after [StableHlo.reshape main_v3 main_v4 rfl shapeCasts_S2x2048x3072_S2x16x2048x192] Wv (Proc.devRef .tc main_v4)
    = shapeCast S2x16x2048x192 (Wv (Proc.devRef .tc main_v3)) shapeCasts_S2x2048x3072_S2x16x2048x192 := by
  after_results
  rfl
/-- One reshape of the second stretch, over any contents. -/
theorem reshape1_2 : StableHlo.after [StableHlo.reshape main_v4 main_v5 rfl shapeCasts_S2x16x2048x192_S2x4x4x2048x192] Wv (Proc.devRef .tc main_v5)
    = shapeCast S2x4x4x2048x192 (Wv (Proc.devRef .tc main_v4)) shapeCasts_S2x16x2048x192_S2x4x4x2048x192 := by
  after_results
  rfl
/-- One reshape of the second stretch, over any contents. -/
theorem reshape1_3 : StableHlo.after [StableHlo.reshape main_v5 main_v6 rfl shapeCasts_S2x4x4x2048x192_S8x4x2048x192] Wv (Proc.devRef .tc main_v6)
    = shapeCast S8x4x2048x192 (Wv (Proc.devRef .tc main_v5)) shapeCasts_S2x4x4x2048x192_S8x4x2048x192 := by
  after_results
  rfl

/-- The second stretch re-reads the first projection's output as heads and then as groups of heads: its four reshapes one
    after the other. -/
theorem stretch1 : StableHlo.after hostOps1 Wv (Proc.devRef .tc main_v6)
    = shapeCast S8x4x2048x192 (shapeCast S2x4x4x2048x192 (shapeCast S2x16x2048x192 (shapeCast S2x2048x3072
        (Wv (Proc.devRef .tc main_v2)) shapeCasts_S4096x3072_S2x2048x3072) shapeCasts_S2x2048x3072_S2x16x2048x192)
        shapeCasts_S2x16x2048x192_S2x4x4x2048x192) shapeCasts_S2x4x4x2048x192_S8x4x2048x192 := by
  have hc : StableHlo.after hostOps1 Wv
      = StableHlo.after [StableHlo.reshape main_v5 main_v6 rfl shapeCasts_S2x4x4x2048x192_S8x4x2048x192]
          (StableHlo.after [StableHlo.reshape main_v4 main_v5 rfl shapeCasts_S2x16x2048x192_S2x4x4x2048x192]
            (StableHlo.after [StableHlo.reshape main_v3 main_v4 rfl shapeCasts_S2x2048x3072_S2x16x2048x192]
              (StableHlo.after [StableHlo.reshape main_v2 main_v3 rfl shapeCasts_S4096x3072_S2x2048x3072] Wv))) := by
    simp only [StableHlo.after_cons, StableHlo.after_nil]
  rw [hc, reshape1_3, reshape1_2, reshape1_1, reshape1_0]

/-- The third stretch re-reads the attention output head by head, moves heads behind positions, flattens them and merges the rows, -/
theorem stretch2_x : StableHlo.after hostOps2 Wv (Proc.devRef .tc main_v12)
    = shapeCast S4096x1024 (shapeCast S2x2048x1024 (transpose S2x2048x16x64 [0, 2, 1, 3]
        (shapeCast S2x16x2048x64 (shapeCast S2x4x4x2048x64 (Wv (Proc.devRef .tc main_v7)) shapeCasts_S8x4x2048x64_S2x4x4x2048x64) shapeCasts_S2x4x4x2048x64_S2x16x2048x64)
        transposes_S2x16x2048x64_S2x2048x16x64_0_2_1_3) shapeCasts_S2x2048x16x64_S2x2048x1024) shapeCasts_S2x2048x1024_S4096x1024 := by
  after_results
  rfl
/-- and changes the second weights' float format. -/
theorem stretch2_w : StableHlo.after hostOps2 Wv (Proc.devRef .tc main_v13) = Wv (Proc.devRef .tc main_arg3) := by
  after_results
  rfl

/-- The last stretch splits the rows of the second projection's output. -/
theorem stretch3 : StableHlo.after hostOps3 Wv (Proc.devRef .tc main_v15)
    = shapeCast S2x2048x1024 (Wv (Proc.devRef .tc main_v14)) shapeCasts_S4096x1024_S2x2048x1024 := by
  after_results
  rfl

end Stretches

variable (m : (ℓ : Loc nD τ sig) → Buf (Elt Ideal) ℓ) (c : Dev nD)

/-! ## What reaches each region unchanged -/

/-- The first bias reaches the first projection's region as launched. -/
theorem in0_b : Hand.V1 m c main_arg2 = m ((c : Thread nD τ).loc main_arg2) :=
  (StableHlo.after_of_writes_sub hostOps0 _ hostOps0_writes (by decide)).trans rfl

/-- The second projection's weights and bias are as launched when the attention region ends: nothing before writes them. -/
theorem W4_keep (r : Ref sig .tc) (h0 : r ∉ hostOps0_W) (h1 : r ∉ hostOps1_W) (ha : r ≠ main_v2) (hb : r ≠ main_v7) :
    W4 m c (Proc.devRef .tc r) = m ((c : Thread nD τ).loc r) :=
  (W4_of_ne m c r hb).trans <| (StableHlo.after_of_writes_sub hostOps1 _ hostOps1_writes h1).trans <| (W2_keep m c r ha).trans <|
    (StableHlo.after_of_writes_sub hostOps0 _ hostOps0_writes h0).trans rfl

theorem in2_b : V5 m c main_arg4 = m ((c : Thread nD τ).loc main_arg4) :=
  (StableHlo.after_of_writes_sub hostOps2 _ hostOps2_writes (by decide)).trans
    (W4_keep m c main_arg4 (by decide) (by decide) (by decide) (by decide))

/-! ## The regions' output arrays, each from the boundary before its region -/

/-- The first projection's output: the projection of the row-merged input. -/
theorem out0 : W2 m c (Proc.devRef .tc main_v2)
    = lin (shapeCast S4096x1024 (m ((c : Thread nD τ).loc main_arg0)) shapeCasts_S2x2048x1024_S4096x1024)
        (m ((c : Thread nD τ).loc main_arg1)) (m ((c : Thread nD τ).loc main_arg2)) := by
  have h := (W2_arr m c 3).trans (proj0_eq (Hand.V1 m) c)
  rw [show Hand.V1 m c main_v0 = _ from stretch0_x (W0 m c), show Hand.V1 m c main_v1 = _ from stretch0_w (W0 m c), in0_b m c] at h
  exact h

/-- The attention region's output: attention group by group of the first projection's output re-read as groups of heads. -/
theorem out1 : W4 m c (Proc.devRef .tc main_v7)
    = grpAttn (shapeCast S8x4x2048x192 (shapeCast S2x4x4x2048x192 (shapeCast S2x16x2048x192 (shapeCast S2x2048x3072
        (W2 m c (Proc.devRef .tc main_v2)) shapeCasts_S4096x3072_S2x2048x3072) shapeCasts_S2x2048x3072_S2x16x2048x192)
        shapeCasts_S2x16x2048x192_S2x4x4x2048x192) shapeCasts_S2x4x4x2048x192_S8x4x2048x192) := by
  have h := (W4_out m c).trans (attn1_eq (V3 m) c)
  rw [show V3 m c main_v6 = _ from stretch1 (W2 m c)] at h
  exact h

/-- The second projection's output: the projection of the merged attention array, rows merged. -/
theorem out2 : W6 m c (Proc.devRef .tc main_v14)
    = lin (shapeCast S4096x1024 (shapeCast S2x2048x1024 (transpose S2x2048x16x64 [0, 2, 1, 3]
        (shapeCast S2x16x2048x64 (shapeCast S2x4x4x2048x64 (W4 m c (Proc.devRef .tc main_v7)) shapeCasts_S8x4x2048x64_S2x4x4x2048x64) shapeCasts_S2x4x4x2048x64_S2x16x2048x64)
        transposes_S2x16x2048x64_S2x2048x16x64_0_2_1_3) shapeCasts_S2x2048x16x64_S2x2048x1024) shapeCasts_S2x2048x1024_S4096x1024)
        (m ((c : Thread nD τ).loc main_arg3)) (m ((c : Thread nD τ).loc main_arg4)) := by
  have h := (W6_arr m c 3).trans (proj2_eq (V5 m) c)
  rw [show V5 m c main_v12 = _ from stretch2_x (W4 m c),
    show V5 m c main_v13 = _ from (stretch2_w (W4 m c)).trans (W4_keep m c main_arg3 (by decide) (by decide) (by decide) (by decide)),
    in2_b m c] at h
  exact h

/-- THE KERNEL PROGRAM'S RESULT: the last boundary's contents of the result array are the attention function that normalises
    after the sum, of the five argument arrays as launched. -/
theorem result_eq :
    W7 m c (Proc.devRef .tc main_v15)
      = afterSum (m ((c : Thread nD τ).loc main_arg0)) (m ((c : Thread nD τ).loc main_arg1)) (m ((c : Thread nD τ).loc main_arg2))
          (m ((c : Thread nD τ).loc main_arg3)) (m ((c : Thread nD τ).loc main_arg4)) := by
  rw [show W7 m c (Proc.devRef .tc main_v15) = _ from stretch3 (W6 m c), out2 m c, out1 m c, out0 m c]
  exact compose _ _ _ _ _ _ _ _ _ _ _ _ _ _ _ _

end Cert.Mha.KernelValue

end
-- ==== Proof.MhaReferenceQkv.lean ====
/-
  The reference program's first stages: the projection with its bias is `qkv`, and its re-reading in row-major order as
  [2, 16, 2048, 192] is `heads`.

  At (b, l, f) the projection's contraction reads x at (b, l, e) and the weights at (e, f) for e below 1024; the bias is a
  vector of 3072 entries laid along the last axis of [1, 1, 3072] and repeated over the two leading axes, so at (b, l, f)
  it is the bias at f. The re-reading is the same library operation on both sides, with the same shapes; the evidence of
  the shape relation is a proposition, so the two terms are one.
-/
import proofs.«167251_j24584392802661_2_alg».proof.Proof.Gen.ReferenceIdeal.Read
import proofs.«167251_j24584392802661_2_alg».proof.Proof.MhaSpec

noncomputable section

open scoped BigOperators

namespace Cert.Mha.Reference

open Cert.ReferenceIdeal Cert.ReferenceIdeal.Gen Cert.ReferenceIdeal.Read Idealize.ShloMosaic Idealize.ShloMosaic.ValueIdx
  Cert.SoftmaxSum

/-- The projection plus the broadcast bias is `qkv`. -/
theorem qkv_eq (x : SX.Idx → EReal) (Wq : SWq.Idx → EReal) (bq : Sbq.Idx → EReal) :
    val_main_v3 (F := Ideal) x Wq bq = qkv x Wq bq := by
  funext i
  have el : ∀ k : Fin 1024, lidx_main_v0 i k = ix3 (i 0) (i 1) k := fun k => funext fun a => by
    match a with | ⟨0, _⟩ => rfl | ⟨1, _⟩ => rfl | ⟨2, _⟩ => rfl
  have er : ∀ k : Fin 1024, ridx_main_v0 i k = ix2 k (i 2) := fun k => funext fun a => by
    match a with | ⟨0, _⟩ => rfl | ⟨1, _⟩ => rfl
  have eb : idx_main_v1 (idx_main_v2 i) = ix1 (i 2) := funext fun a => by
    match a with | ⟨0, _⟩ => rfl
  rw [val_main_v3_apply, val_main_v0_apply, val_main_v2_apply, val_main_v1_apply]
  simp only [el, er, eb, Ideal.addf_def]
  rfl

/-- The projection re-read in row-major order as [2, 16, 2048, 192] is `heads` of `qkv`. -/
theorem heads_eq (x : SX.Idx → EReal) (Wq : SWq.Idx → EReal) (bq : Sbq.Idx → EReal) :
    val_main_v4 (F := Ideal) x Wq bq = heads (qkv x Wq bq) := by
  unfold val_main_v4 heads
  rw [qkv_eq]

end Cert.Mha.Reference

end
-- ==== Proof.MhaReferenceScore.lean ====
/-
  The reference program's scores, at symbolic positions.

  Write hd for the projection re-read as [2, 16, 2048, 192]. The three slices along the last axis, of width 64 at offsets
  0, 64 and 128, are the queries, keys and values of a head: at column d they are hd at columns d, 64 + d and 128 + d.
  For a batch b, a head h, a query position q and a key position k the program contracts the queries' row q with the
  keys' row k over the 64 columns and scales the sum by the word of 1/8 (broadcast from a scalar): `score hd b h q k`.
-/
import proofs.«167251_j24584392802661_2_alg».proof.Proof.Gen.ReferenceIdeal.Read
import proofs.«167251_j24584392802661_2_alg».proof.Proof.MhaSpec

noncomputable section

open scoped BigOperators

namespace Cert.Mha.Reference

open Cert.ReferenceIdeal Cert.ReferenceIdeal.Gen Cert.ReferenceIdeal.Read Idealize.ShloMosaic Idealize.ShloMosaic.ValueIdx
  Cert.SoftmaxSum

variable (x : SX.Idx → EReal) (Wq : SWq.Idx → EReal) (bq : Sbq.Idx → EReal)

/-- The first slice is the queries' columns. -/
theorem query_apply (b : Fin 2) (h : Fin 16) (q : Fin 2048) (d : Fin 64) :
    val_main_v5 (F := Ideal) x Wq bq (ix4 b h q d) = val_main_v4 (F := Ideal) x Wq bq (ix4 b h q (qcol d)) := by
  rw [val_main_v5_apply]
  exact congrArg _ (funext fun a => by match a with | ⟨0, _⟩ => rfl | ⟨1, _⟩ => rfl | ⟨2, _⟩ => rfl | ⟨3, _⟩ => rfl)

/-- The second slice is the keys' columns. -/
theorem key_apply (b : Fin 2) (h : Fin 16) (k : Fin 2048) (d : Fin 64) :
    val_main_v6 (F := Ideal) x Wq bq (ix4 b h k d) = val_main_v4 (F := Ideal) x Wq bq (ix4 b h k (kcol d)) := by
  rw [val_main_v6_apply]
  exact congrArg _ (funext fun a => by match a with | ⟨0, _⟩ => rfl | ⟨1, _⟩ => rfl | ⟨2, _⟩ => rfl | ⟨3, _⟩ => rfl)

/-- The third slice is the values' columns. -/
theorem value_apply (b : Fin 2) (h : Fin 16) (k : Fin 2048) (d : Fin 64) :
    val_main_v7 (F := Ideal) x Wq bq (ix4 b h k d) = val_main_v4 (F := Ideal) x Wq bq (ix4 b h k (vcol d)) := by
  rw [val_main_v7_apply]
  exact congrArg _ (funext fun a => by match a with | ⟨0, _⟩ => rfl | ⟨1, _⟩ => rfl | ⟨2, _⟩ => rfl | ⟨3, _⟩ => rfl)

/-- The scaled product of queries and keys is the score. -/
theorem score_apply (b : Fin 2) (h : Fin 16) (q k : Fin 2048) :
    val_main_v10 (F := Ideal) x Wq bq (ix4 b h q k) = score (val_main_v4 (F := Ideal) x Wq bq) b h q k := by
  have el : ∀ d : Fin 64, lidx_main_v8 (ix4 b h q k) d = ix4 b h q d := fun d => funext fun a => by
    match a with | ⟨0, _⟩ => rfl | ⟨1, _⟩ => rfl | ⟨2, _⟩ => rfl | ⟨3, _⟩ => rfl
  have er : ∀ d : Fin 64, ridx_main_v8 (ix4 b h q k) d = ix4 b h k d := fun d => funext fun a => by
    match a with | ⟨0, _⟩ => rfl | ⟨1, _⟩ => rfl | ⟨2, _⟩ => rfl | ⟨3, _⟩ => rfl
  rw [val_main_v10_apply, val_main_v8_apply, val_main_v9_apply, val_main_cst_apply]
  simp only [el, er, query_apply, key_apply, Ideal.mulf_def, Ideal.ofBits_def]
  rfl

end Cert.Mha.Reference

end
-- ==== Proof.MhaReferenceSoftmax.lean ====
/-
  The reference program's softmax and its product with the values, at symbolic positions: `attnInside`.

  Write hd for the projection re-read as [2, 16, 2048, 192] and s for the row of scores `score hd b h q` of a batch b, a
  head h and a query position q. Over key positions k the program forms

      the row's maximum   max (-∞) (the fold of max from -∞ over k of the scores)     = peak s,
      the exponential     exp (s k − maximum)                                          = weight s k,
      the row's sum       0 + ∑_k of the exponentials                                  = mass s,
      the quotient        exponential / sum                                            = weight s k / mass s,

  and the product with the values sums the quotients against value(k, d) over k: `attnInside hd`. The maximum of -∞ and
  y is y; the zero word is 0; the keepdims broadcasts [2,16,2048] → [2,16,2048,1] → [2,16,2048,2048] read the row's
  number at every key position; a reduced position (b, h, q) with the key position k put back on the last axis is
  (b, h, q, k).
-/
import proofs.«167251_j24584392802661_2_alg».proof.Proof.MhaReferenceScore

noncomputable section

open scoped BigOperators

namespace Cert.Mha.Reference

open Cert.ReferenceIdeal Cert.ReferenceIdeal.Gen Cert.ReferenceIdeal.Read Idealize.ShloMosaic Idealize.ShloMosaic.ValueIdx
  Cert.SoftmaxSum

variable (x : SX.Idx → EReal) (Wq : SWq.Idx → EReal) (bq : Sbq.Idx → EReal)

/-- A reduced position with the key position `k` put back is (b, h, q, k). -/
theorem lift_ix3 (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) := by
  funext c; apply Fin.ext
  fin_cases c <;> rfl

/-- The maximum of -∞ and the row's max-reduce from -∞ is the row's peak. -/
theorem peak_apply (b : Fin 2) (h : Fin 16) (q : Fin 2048) :
    val_main_v13 (F := Ideal) x Wq bq (ix3 b h q) = peak (score (val_main_v4 (F := Ideal) x Wq bq) b h q) := by
  have hr : S2x16x2048x2048.Reduces [3] S2x16x2048 := by decide
  have hf : ((val_main_v10 (F := Ideal) x Wq bq ∘ hr.lift (ix3 b h q) : Fin 2048 → EReal))
      = score (val_main_v4 (F := Ideal) x Wq bq) b h q := funext fun k => by
    show val_main_v10 (F := Ideal) x Wq bq (hr.lift (ix3 b h q) k) = _
    rw [lift_ix3 hr b h q k, score_apply]
  rw [val_main_v13_apply, val_main_v12_apply, val_main_cst_1_apply]
  unfold val_main_v11
  rw [Host.reduce_eq_fold_single FloatOps.maximumf _ _ reducesTo_S2x16x2048x2048_S2x16x2048_d3 hr h_S_, val_main_cst_0_apply]
  simp only [Ideal.ofBits_def, Ideal.maximumf_def, ofBits_neg_inf, max_bot_left]
  exact congrArg (fun f : Fin 2048 → EReal => Finset.univ.fold max ⊥ f) hf

/-- The exponential of a score's distance below the row's maximum is the weight. -/
theorem weight_apply (b : Fin 2) (h : Fin 16) (q k : Fin 2048) :
    val_main_v17 (F := Ideal) x Wq bq (ix4 b h q k) = weight (score (val_main_v4 (F := Ideal) x Wq bq) b h q) k := by
  have e : idx_main_v14 (idx_main_v15 (ix4 b h q k)) = ix3 b h q := funext fun a => by
    match a with | ⟨0, _⟩ => rfl | ⟨1, _⟩ => rfl | ⟨2, _⟩ => rfl
  rw [val_main_v17_apply, val_main_v16_apply, val_main_v15_apply, val_main_v14_apply, e, score_apply, peak_apply]
  rfl

/-- The row's sum of the exponentials from the zero word is the mass. -/
theorem mass_apply (b : Fin 2) (h : Fin 16) (q : Fin 2048) :
    val_main_v18 (F := Ideal) x Wq bq (ix3 b h q) = mass (score (val_main_v4 (F := Ideal) x Wq bq) b h q) := by
  have e : ∀ k : Fin 2048, idx_main_v18 (ix3 b h q) k = ix4 b h q k := fun k => funext fun a => by
    match a with | ⟨0, _⟩ => rfl | ⟨1, _⟩ => rfl | ⟨2, _⟩ => rfl | ⟨3, _⟩ => rfl
  rw [val_main_v18_apply, val_main_cst_2_apply]
  simp only [e, weight_apply, Ideal.ofBits_def, Ideal.ofBits_zero_f32, zero_add]
  rfl

/-- The exponential divided by the broadcast sum is the weight divided by the mass. -/
theorem quotient_apply (b : Fin 2) (h : Fin 16) (q k : Fin 2048) :
    val_main_v21 (F := Ideal) x Wq bq (ix4 b h q k)
      = Ideal.div (weight (score (val_main_v4 (F := Ideal) x Wq bq) b h q) k)
          (mass (score (val_main_v4 (F := Ideal) x Wq bq) b h q)) := by
  have e : idx_main_v19 (idx_main_v20 (ix4 b h q k)) = ix3 b h q := funext fun a => by
    match a with | ⟨0, _⟩ => rfl | ⟨1, _⟩ => rfl | ⟨2, _⟩ => rfl
  rw [val_main_v21_apply, val_main_v20_apply, val_main_v19_apply, e, weight_apply, mass_apply]
  rfl

/-- The product of the quotients with the values is `attnInside`. -/
theorem attn_eq : val_main_v22 (F := Ideal) x Wq bq = attnInside (val_main_v4 (F := Ideal) x Wq bq) := by
  funext i
  obtain ⟨b, h, q, d, rfl⟩ : ∃ (b : Fin 2) (h : Fin 16) (q : Fin 2048) (d : Fin 64), i = ix4 b h q d :=
    ⟨i 0, i 1, i 2, i 3, eq_ix4 i⟩
  have el : ∀ k : Fin 2048, lidx_main_v22 (ix4 b h q d) k = ix4 b h q k := fun k => funext fun a => by
    match a with | ⟨0, _⟩ => rfl | ⟨1, _⟩ => rfl | ⟨2, _⟩ => rfl | ⟨3, _⟩ => rfl
  have er : ∀ k : Fin 2048, ridx_main_v22 (ix4 b h q d) k = ix4 b h k d := fun k => funext fun a => by
    match a with | ⟨0, _⟩ => rfl | ⟨1, _⟩ => rfl | ⟨2, _⟩ => rfl | ⟨3, _⟩ => rfl
  rw [val_main_v22_apply]
  simp only [el, er, quotient_apply, value_apply]
  rfl

end Cert.Mha.Reference

end
-- ==== Proof.MhaReference.lean ====
/-
  The reference program's result, read one stage at a time, is the attention function that normalises inside the sum.

  The stages before: the projection with its bias re-read as [2, 16, 2048, 192] is `heads (qkv x Wq bq)`, and the softmax
  of the scaled scores multiplied with the values is `attnInside` of it. Here: the transposition of heads behind positions
  followed by the flattening to [2, 2048, 1024] is `merged` (the same two library operations with the same shapes; the
  evidence of the shape relations is a proposition, so the terms are one); the second projection contracts the merged
  array at (b, l, c) with the weights at (c, f) over c below 1024 and adds the bias at f, which is `outProj`. Composed,
  the program's last stage is `insideSum` of the five argument arrays, and so is the result every weakly fair execution
  of the program ends with, the arguments unchanged.
-/
import proofs.«167251_j24584392802661_2_alg».proof.Proof.MhaReferenceQkv
import proofs.«167251_j24584392802661_2_alg».proof.Proof.MhaReferenceSoftmax

noncomputable section

open scoped BigOperators

namespace Cert.Mha.Reference

open Cert.ReferenceIdeal Cert.ReferenceIdeal.Gen Cert.ReferenceIdeal.Read Idealize.ShloMosaic Idealize.ShloMosaic.ValueIdx
  Idealize.ShloMosaic.TcCoe Idealize.SL.Sem

/-- Heads moved behind positions and flattened: `merged` of the attention inside the sum. -/
theorem merged_eq (x : SX.Idx → EReal) (Wq : SWq.Idx → EReal) (bq : Sbq.Idx → EReal) :
    val_main_v24 (F := Ideal) x Wq bq = merged (attnInside (heads (qkv x Wq bq))) := by
  unfold val_main_v24 val_main_v23 merged
  rw [attn_eq, heads_eq]

/-- The second projection plus the broadcast bias is `outProj` of the merged array. -/
theorem out_eq (x : SX.Idx → EReal) (Wq : SWq.Idx → EReal) (bq : Sbq.Idx → EReal) (Wo : SWo.Idx → EReal)
    (bo : Sbo.Idx → EReal) :
    val_main_v28 (F := Ideal) x Wq bq Wo bo = outProj (val_main_v24 (F := Ideal) x Wq bq) Wo bo := by
  funext i
  have el : ∀ k : Fin 1024, lidx_main_v25 i k = ix3 (i 0) (i 1) k := fun k => funext fun a => by
    match a with | ⟨0, _⟩ => rfl | ⟨1, _⟩ => rfl | ⟨2, _⟩ => rfl
  have er : ∀ k : Fin 1024, ridx_main_v25 i k = ix2 k (i 2) := fun k => funext fun a => by
    match a with | ⟨0, _⟩ => rfl | ⟨1, _⟩ => rfl
  have eb : idx_main_v26 (idx_main_v27 i) = ix1 (i 2) := funext fun a => by
    match a with | ⟨0, _⟩ => rfl
  rw [val_main_v28_apply, val_main_v25_apply, val_main_v27_apply, val_main_v26_apply]
  simp only [el, er, eb, Ideal.addf_def]
  rfl

/-- The program's last stage, as a function of the five argument arrays, is `insideSum`. -/
theorem result_eq (x : SX.Idx → EReal) (Wq : SWq.Idx → EReal) (bq : Sbq.Idx → EReal) (Wo : SWo.Idx → EReal)
    (bo : Sbo.Idx → EReal) :
    val_main_v28 (F := Ideal) x Wq bq Wo bo = insideSum x Wq bq Wo bo := by
  rw [out_eq, merged_eq]
  rfl

/-- Every weakly fair execution of the reference program, from any memory with zero counters, terminates with its
    result at `insideSum` of the argument arrays as the memory held them, and the arguments unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v28)
        = Cert.Mha.insideSum
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v28_eq m' c).trans (result_eq _ _ _ _ _)), (h c).2⟩)
    (Cert.ReferenceIdeal.Value.run (F := Ideal) m' ρ')

end Cert.Mha.Reference

end
-- ==== Proof.MhaLaw.lean ====
/-
  The two orders of normalising an attention row agree on real inputs.

  For one query position the scores against the key positions are s k = (∑_d query(d)·key(k,d)) · 1/8. When every number
  of the projected array is real, each score is a finite sum of products of reals times the real 1/8, so the row of scores
  is a row of real numbers, and it is not empty (2048 key positions). For such a row the mass M = ∑_k exp(s k − peak s)
  is a positive real number, its reciprocal is a factor that is not negative and is finite, and such a factor distributes
  over any finite sum of extended reals:

      (∑_k w k · f k) / M  =  ∑_k (w k / M) · f k        for ANY values f k (they may be infinite).

  That is the agreement of the two attention stages, index by index; the stages after them (merging the heads, the
  second projection) are the same function applied to equal arguments. The projected array is real because it is a
  finite sum of products of real inputs and weights plus a real bias, and reading it under another shape only
  re-indexes it. Nothing is asked of the second projection's weights or bias.
-/
import proofs.«167251_j24584392802661_2_alg».proof.Proof.MhaSpec

noncomputable section

open scoped BigOperators

namespace Cert.Mha

open Idealize.ShloMosaic Idealize.ShloMosaic.ValueIdx Cert.SoftmaxSum Cert.LibReal

/-- The word of `0.125` is the real number 1/8. -/
theorem ofBits_eighth : Ideal.ofBits .f32 0x3E000000#32 = ((1 / 8 : ℝ) : EReal) := by
  simp [Ideal.ofBits, Ideal.ieee]
  exact_mod_cast (by norm_num : (8388608 : ℝ) * (2 ^ 26)⁻¹ = 8⁻¹)

/-- For a row of real scores that is not empty, the weighted sum divided once by the mass is the sum against the
    weights each divided by the mass, for any values `f`. -/
theorem div_sum_eq_sum_div {ι : Type*} [Fintype ι] [Nonempty ι] (s : ι → EReal) (hs : ∀ n, IsReal (s n))
    (f : ι → EReal) :
    Ideal.div (∑ n, weight s n * f n) (mass s) = ∑ n, Ideal.div (weight s n) (mass s) * f n := by
  obtain ⟨d, hd0, hD⟩ := mass_pos_real s hs
  have key := fused_eq_spread s hs f
  unfold fused spread at key
  rw [hD] at key ⊢
  rw [Ideal.div_coe hd0.ne' 1, one_mul] at key
  rw [Ideal.div_coe hd0.ne' (∑ n, weight s n * f n), key]
  exact Finset.sum_congr rfl fun n _ => mul_comm _ _

/-- Every score of a head whose numbers are real is a real number. -/
theorem isReal_score (hd : SHead.Idx → EReal) (hreal : ∀ i, IsReal (hd i)) (b : Fin 2) (h : Fin 16) (q k : Fin 2048) :
    IsReal (score hd b h q k) := by
  unfold score
  rw [ofBits_eighth]
  exact (IsReal.sum _ _ fun d _ => (hreal _).mul (hreal _)).mul (isReal_coe _)

/-- On real numbers, normalising after the sum is normalising inside it. -/
theorem attnAfter_eq_attnInside (hd : SHead.Idx → EReal) (hreal : ∀ i, IsReal (hd i)) :
    attnAfter hd = attnInside hd := by
  funext i
  exact div_sum_eq_sum_div (score hd (i 0) (i 1) (i 2)) (fun k => isReal_score hd hreal _ _ _ k)
    (fun k => hd (ix4 (i 0) (i 1) k (vcol (i 3))))

/-- The first projection of real inputs, weights and bias is real at every index. -/
theorem isReal_qkv (x : SX.Idx → EReal) (Wq : SWq.Idx → EReal) (bq : Sbq.Idx → EReal)
    (hx : ∀ i, IsReal (x i)) (hW : ∀ i, IsReal (Wq i)) (hb : ∀ i, IsReal (bq i)) (i : SQkv.Idx) :
    IsReal (qkv x Wq bq i) := by
  unfold qkv
  exact (IsReal.sum _ _ fun e _ => (hx _).mul (hW _)).add (hb _)

/-- Read as heads it is the same numbers at other indices, so real again. -/
theorem isReal_heads (x : SX.Idx → EReal) (Wq : SWq.Idx → EReal) (bq : Sbq.Idx → EReal)
    (hx : ∀ i, IsReal (x i)) (hW : ∀ i, IsReal (Wq i)) (hb : ∀ i, IsReal (bq i)) (j : SHead.Idx) :
    IsReal (heads (qkv x Wq bq) j) := by
  unfold heads shapeCast
  exact isReal_qkv x Wq bq hx hW hb _

/-- The two whole functions agree when the input, the first weights and the first bias are real. -/
theorem afterSum_eq_insideSum (x : SX.Idx → EReal) (Wq : SWq.Idx → EReal) (bq : Sbq.Idx → EReal)
    (Wo : SWo.Idx → EReal) (bo : Sbo.Idx → EReal)
    (hx : ∀ i, IsReal (x i)) (hW : ∀ i, IsReal (Wq i)) (hb : ∀ i, IsReal (bq i)) :
    afterSum x Wq bq Wo bo = insideSum x Wq bq Wo bo := by
  unfold afterSum insideSum
  rw [attnAfter_eq_attnInside _ (isReal_heads x Wq bq hx hW hb)]

end Cert.Mha

end
-- ==== Proof.MhaFinite.lean ====
/-
  From the precondition "every float input is finite" to "every entry is a real number".

  The precondition is the conjunction of five tests, one per argument array: the conjunction over all indices of
  |x i| < +∞. A conjunction of truth words that is one has every word one; a test |x i| < +∞ that holds rules out both
  infinities, so x i is (the image of) a real number.
-/
import proofs.«167251_j24584392802661_2_alg».proof.Defs
import Idealize.ShloMosaic.Lib.ReduceAll
import proofs.«167251_j24584392802661_2_alg».proof.Proof.LibReal

noncomputable section

namespace Cert.Mha.Finite

open Idealize.ShloMosaic Idealize.SL.Sem Cert.LibReal Cert.Pre_finite_inputs

/-- The shape of a single number has one index. -/
instance : Subsingleton S_.Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- An extended real whose absolute value is below `+∞` is a real number. -/
theorem isReal_of_abs_lt_top (x : EReal) (h : max x (-x) < ⊤) : IsReal x := by
  induction x using EReal.rec with
  | bot => simp at h
  | coe r => exact ⟨r, rfl⟩
  | top => simp at h

/-- One array: when the test "|x i| < +∞" holds at every index (the conjunction of the tests is one), every entry is a
    real number. -/
theorem isReal_of_all {S : Shape} {axes : List (Fin S.rank)} (hb : S_.BroadcastsInDim S (![] : Fin 0 → Fin S.rank))
    (hr : S.ReducesTo axes S_) (hu : 0 < S_.numel) (x : FVec Ideal S .f32) (j : S_.Idx)
    (e : Host.reduce IntOp.andi (cmpf .olt (Host.absf x) (broadcastInDim S ![] hb (constant (F := Ideal) S_ .f32 0x7F800000#32)))
      (constantI S_ 1 1#1) hr hu j = 1#1) (i : S.Idx) : IsReal (x i) := by
  have h1 := Host.reduce_andi_all _ _ hr hu j e i
  change Ideal.cmp .olt (max (x i) (-(x i))) (Ideal.ofBits .f32 0x7F800000#32) = 1#1 at h1
  rw [ofBits_inf] at h1
  refine isReal_of_abs_lt_top (x i) ?_
  by_contra hlt
  have h0 : Ideal.cmp .olt (max (x i) (-(x i))) ⊤ = 0#1 := by
    show BitVec.ofBool (decide (max (x i) (-(x i)) < ⊤)) = 0#1
    rw [decide_eq_false hlt]; rfl
  rw [h0] at h1
  exact absurd h1 (by decide)

/-- Under the precondition, on every device, every entry of the input, of the first weight matrix and of the first
    bias vector is a real number. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i)) := by
  have h0 := congrFun (h c) (fun a => a.elim0)
  dsimp only [Cert.Pre_finite_inputs.fn, Cert.Pre_finite_inputs.fn_part1] at h0
  change IntOp.andi (IntOp.andi (IntOp.andi (IntOp.andi _ _) _) _) _ = 1#1 at h0
  obtain ⟨h0, -⟩ := IntOp.andi_eq_one.1 h0
  obtain ⟨h0, -⟩ := IntOp.andi_eq_one.1 h0
  obtain ⟨h0, e2⟩ := IntOp.andi_eq_one.1 h0
  obtain ⟨e0, e1⟩ := IntOp.andi_eq_one.1 h0
  exact ⟨isReal_of_all _ _ _ _ _ e0, isReal_of_all _ _ _ _ _ e1, isReal_of_all _ _ _ _ _ e2⟩

end Cert.Mha.Finite

end
-- ==== Proof.lean ====
/-
  Multi-head self-attention as three pipelined kernels (a projection, attention over groups of four heads, a projection) against
  the plain formulation (projection, softmax of the scaled scores, weighted values, projection): equal over the extended reals
  when the inputs are finite.

  The three programs' frames: each kernel region runs its body at every grid point on whole staging buffers and writes its output
  block back; between the regions the host only re-reads arrays in row-major order, transposes, and changes float formats; no
  step writes an argument array (KRun / KiRun; the reference's generated run). The idealization rewrote nothing, so the
  word-level program's idealization is its own text read over the extended reals.

  The values: the kernel program's result array is `afterSum` of the argument arrays — attention dividing the weighted sum of
  the values ONCE by the softmax mass (MhaKernelValue) — and the reference's is `insideSum` — every weight divided by the mass
  BEFORE the sum (MhaReference). With finite inputs the projected queries and keys are real numbers, so every score is real,
  the row's peak is real, every weight is a positive real and the mass is a positive real; the reciprocal of the mass is then a
  nonnegative finite factor, which distributes over any sum on the extended reals, and the two orders agree (MhaLaw; the inputs
  real from the precondition: MhaFinite).
-/
import proofs.«167251_j24584392802661_2_alg».proof.Defs
import proofs.«167251_j24584392802661_2_alg».proof.Proof.Gen.Kernel
import proofs.«167251_j24584392802661_2_alg».proof.Proof.Gen.KernelIdeal
import proofs.«167251_j24584392802661_2_alg».proof.Proof.Gen.ReferenceIdeal
import proofs.«167251_j24584392802661_2_alg».proof.Proof.Gen.Pre_finite_inputs
import proofs.«167251_j24584392802661_2_alg».proof.Proof.KRun
import proofs.«167251_j24584392802661_2_alg».proof.Proof.KiRun
import proofs.«167251_j24584392802661_2_alg».proof.Proof.MhaKernelValue
import proofs.«167251_j24584392802661_2_alg».proof.Proof.MhaReference
import proofs.«167251_j24584392802661_2_alg».proof.Proof.MhaLaw
import proofs.«167251_j24584392802661_2_alg».proof.Proof.MhaFinite
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- So does the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Mha.Reference.run_spec m ρ)

/-- From memories agreeing on finite arguments both programs end with the same result array: the kernel program's is
    `afterSum` of its arguments, the reference's `insideSum` of the same arrays, and the two agree on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Mha.afterSum (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel program: every unscoped buffer ends at the last boundary's contents
    refine (θ_run Cert.KernelIdeal.defs _ _).mono (fun r h c => ⟨?_, ?_, ?_, ?_, ?_, ?_⟩) (Cert.KernelIdeal.Hand.run_all m ρ)
    · exact (h c _ (Cert.KernelIdeal.Hand.mem_uc Cert.KernelIdeal.main_v15 (by decide))).trans (Cert.Mha.KernelValue.result_eq m c)
    · exact (h c _ (Cert.KernelIdeal.Hand.mem_uc Cert.KernelIdeal.main_arg0 (by decide))).trans (Cert.KernelIdeal.Hand.W7_keep m c _ (by decide) (by decide) (by decide) (by decide) (by decide) (by decide) (by decide))
    · exact (h c _ (Cert.KernelIdeal.Hand.mem_uc Cert.KernelIdeal.main_arg1 (by decide))).trans (Cert.KernelIdeal.Hand.W7_keep m c _ (by decide) (by decide) (by decide) (by decide) (by decide) (by decide) (by decide))
    · exact (h c _ (Cert.KernelIdeal.Hand.mem_uc Cert.KernelIdeal.main_arg2 (by decide))).trans (Cert.KernelIdeal.Hand.W7_keep m c _ (by decide) (by decide) (by decide) (by decide) (by decide) (by decide) (by decide))
    · exact (h c _ (Cert.KernelIdeal.Hand.mem_uc Cert.KernelIdeal.main_arg3 (by decide))).trans (Cert.KernelIdeal.Hand.W7_keep m c _ (by decide) (by decide) (by decide) (by decide) (by decide) (by decide) (by decide))
    · exact (h c _ (Cert.KernelIdeal.Hand.mem_uc Cert.KernelIdeal.main_arg4 (by decide))).trans (Cert.KernelIdeal.Hand.W7_keep m c _ (by decide) (by decide) (by decide) (by decide) (by decide) (by decide) (by decide))
  · -- the reference: its result is `insideSum` of its own arguments, which are the kernel program's, and those are real
    refine (θ_run Cert.ReferenceIdeal.defs _ _).mono (fun _ h c => ⟨(h c).1.trans ?_, (h c).2⟩) (Cert.Mha.Reference.run_spec m' ρ')
    obtain ⟨hx, hW, hb⟩ := Cert.Mha.Finite.real_of_pre (hPre := Cert.Pre_finite_inputs.Gen.facts) m hpre c
    rw [(hagree c).1, (hagree c).2.1, (hagree c).2.2.1, (hagree c).2.2.2.1, (hagree c).2.2.2.2]
    exact (Cert.Mha.afterSum_eq_insideSum _ _ _ _ _ hx hW hb).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
